-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1024 .f32 .bf16
  ∧ IdealRules.truncf_extf.Statement Cert.KernelIdeal.S2048x64 .f32 .bf16
  ∧ IdealRules.truncf_extf.Statement Cert.KernelIdeal.S2048x1024 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x16384 : Shape := ⟨2, ![16384, 16384]⟩
abbrev S2x128x64 : Shape := ⟨3, ![2, 128, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S2x128x64 : S_.BroadcastsInDim S2x128x64 (![] : Fin 0 → Fin S2x128x64.rank)
  reducesTo_S2x128x64_S_d0_1_2 : S2x128x64.ReducesTo [0, 1, 2] S_

variable [Facts]

def fn {F : FTy → Type} [FloatOps F] (main_arg0 : FVec F S16384x64 .f32) (main_arg1 : FVec F S16384x16384 .f32) (main_arg2 : FVec F S2x128x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S2x128x64 .f32 := Host.absf main_arg2
  let main_cst_2 : FVec F S_ .f32 := constant S_ .f32 0x7F800000#32
  let main_v10 : FVec F S2x128x64 .f32 := broadcastInDim S2x128x64 ![] bcast_S_S2x128x64 main_cst_2
  let main_v11 : IVec S2x128x64 1 := cmpf .olt main_v9 main_v10
  let main_c_3 : IVec S_ 1 := constantI S_ 1 1#1
  let main_v12 : IVec S_ 1 := (fun x v => Host.reduce IntOp.andi x v reducesTo_S2x128x64_S_d0_1_2 h_S_) main_v11 main_c_3
  let main_v13 : IVec S_ 1 := andi main_v8 main_v12
  main_v13
-- ==== Kernel.lean ====
abbrev S16384x64 : Shape := ⟨2, ![16384, 64]⟩
abbrev S16384x16384 : Shape := ⟨2, ![16384, 16384]⟩
abbrev S2x128x64 : Shape := ⟨3, ![2, 128, 64]⟩
abbrev S1x128x64 : Shape := ⟨3, ![1, 128, 64]⟩
abbrev S128x64 : Shape := ⟨2, ![128, 64]⟩
abbrev S64x64 : Shape := ⟨2, ![64, 64]⟩
abbrev S2048x1024 : Shape := ⟨2, ![2048, 1024]⟩
abbrev S2048x64 : Shape := ⟨2, ![2048, 64]⟩
abbrev S1024x64 : Shape := ⟨2, ![1024, 64]⟩

abbrev nBuf : Space → Nat
  | .hbm => 37
  | .vmem => 22
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S2x128x64, .f32⟩
  | .hbm, ⟨3, _⟩ => ⟨S1x128x64, .f32⟩
  | .hbm, ⟨4, _⟩ => ⟨S128x64, .f32⟩
  | .hbm, ⟨5, _⟩ => ⟨S16384x64, .bf16⟩
  | .hbm, ⟨6, _⟩ => ⟨S16384x64, .f32⟩
  | .hbm, ⟨7, _⟩ => ⟨S16384x64, .f32⟩
  | .hbm, ⟨8, _⟩ => ⟨S16384x64, .bf16⟩
  | .hbm, ⟨9, _⟩ => ⟨S64x64, .f32⟩
  | .hbm, ⟨10, _⟩ => ⟨S64x64, .f32⟩
  | .hbm, ⟨11, _⟩ => ⟨S64x64, .bf16⟩
  | .hbm, ⟨12, _⟩ => ⟨S64x64, .f32⟩
  | .hbm, ⟨13, _⟩ => ⟨S64x64, .f32⟩
  | .hbm, ⟨14, _⟩ => ⟨S64x64, .bf16⟩
  | .hbm, ⟨15, _⟩ => ⟨S64x64, .bf16⟩
  | .hbm, ⟨16, _⟩ => ⟨S64x64, .f32⟩
  | .hbm, ⟨17, _⟩ => ⟨S64x64, .f32⟩
  | .hbm, ⟨18, _⟩ => ⟨S64x64, .bf16⟩
  | .hbm, ⟨19, _⟩ => ⟨S16384x64, .f32⟩
  | .hbm, ⟨20, _⟩ => ⟨S1x128x64, .f32⟩
  | .hbm, ⟨21, _⟩ => ⟨S128x64, .f32⟩
  | .hbm, ⟨22, _⟩ => ⟨S16384x64, .bf16⟩
  | .hbm, ⟨23, _⟩ => ⟨S16384x64, .f32⟩
  | .hbm, ⟨24, _⟩ => ⟨S16384x64, .f32⟩
  | .hbm, ⟨25, _⟩ => ⟨S16384x64, .bf16⟩
  | .hbm, ⟨26, _⟩ => ⟨S64x64, .f32⟩
  | .hbm, ⟨27, _⟩ => ⟨S64x64, .f32⟩
  | .hbm, ⟨28, _⟩ => ⟨S64x64, .bf16⟩
  | .hbm, ⟨29, _⟩ => ⟨S64x64, .f32⟩
  | .hbm, ⟨30, _⟩ => ⟨S64x64, .f32⟩
  | .hbm, ⟨31, _⟩ => ⟨S64x64, .bf16⟩
  | .hbm, ⟨32, _⟩ => ⟨S64x64, .bf16⟩
  | .hbm, ⟨33, _⟩ => ⟨S64x64, .f32⟩
  | .hbm, ⟨34, _⟩ => ⟨S64x64, .f32⟩
  | .hbm, ⟨35, _⟩ => ⟨S64x64, .bf16⟩
  | .hbm, ⟨36, _⟩ => ⟨S16384x64, .f32⟩
  | .local _ .vmem, ⟨0, _⟩ => ⟨S2048x1024, .f32⟩
  | .local _ .vmem, ⟨1, _⟩ => ⟨S2048x1024, .f32⟩
  | .local _ .vmem, ⟨2, _⟩ => ⟨S16384x64, .bf16⟩
  | .local _ .vmem, ⟨3, _⟩ => ⟨S16384x64, .bf16⟩
  | .local _ .vmem, ⟨4, _⟩ => ⟨S64x64, .bf16⟩
  | .local _ .vmem, ⟨5, _⟩ => ⟨S64x64, .bf16⟩
  | .local _ .vmem, ⟨6, _⟩ => ⟨S64x64, .bf16⟩
  | .local _ .vmem, ⟨7, _⟩ => ⟨S64x64, .bf16⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x1024, .f32⟩
  | .local _ .vmem, ⟨12, _⟩ => ⟨S2048x1024, .f32⟩
  | .local _ .vmem, ⟨13, _⟩ => ⟨S16384x64, .bf16⟩
  | .local _ .vmem, ⟨14, _⟩ => ⟨S16384x64, .bf16⟩
  | .local _ .vmem, ⟨15, _⟩ => ⟨S64x64, .bf16⟩
  | .local _ .vmem, ⟨16, _⟩ => ⟨S64x64, .bf16⟩
  | .local _ .vmem, ⟨17, _⟩ => ⟨S64x64, .bf16⟩
  | .local _ .vmem, ⟨18, _⟩ => ⟨S64x64, .bf16⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v10 : Index := Scalar.indexCast v4
  let c0_2 : Index := 0#32
  ![v10.toNat, 0]
def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_10 : BitVec 32 := 0#32
  let v28 : BitVec 1 := Scalar.cmpi .ne v27 c0_i32_10
  v28

def k0_mult2 (i : grid0.Coords) : BitVec 32 :=
  let arg0 : BitVec 32 := BitVec.ofNat 32 (i 0).val
  let c2048_i32 : BitVec 32 := 2048#32
  let v29 : BitVec 32 := Scalar.muli arg0 c2048_i32
  v29
def k0_off2 (i : grid0.Coords) : Fin 2 → Nat :=
  let arg0 : BitVec 32 := BitVec.ofNat 32 (i 0).val
  let c2048_i32 : BitVec 32 := 2048#32
  let v29 : BitVec 32 := Scalar.muli arg0 c2048_i32
  let v30 : BitVec 32 := v29
  let v36 : Index := Scalar.indexCast v30
  let c0_13 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v10 : Index := Scalar.indexCast v4
  let c0_2 : Index := 0#32
  ![v10.toNat, 0]
def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_10 : BitVec 32 := 0#32
  let v28 : BitVec 1 := Scalar.cmpi .ne v27 c0_i32_10
  v28

def k1_mult2 (i : grid1.Coords) : BitVec 32 :=
  let arg0 : BitVec 32 := BitVec.ofNat 32 (i 0).val
  let c2048_i32 : BitVec 32 := 2048#32
  let v29 : BitVec 32 := Scalar.muli arg0 c2048_i32
  v29
def k1_off2 (i : grid1.Coords) : Fin 2 → Nat :=
  let arg0 : BitVec 32 := BitVec.ofNat 32 (i 0).val
  let c2048_i32 : BitVec 32 := 2048#32
  let v29 : BitVec 32 := Scalar.muli arg0 c2048_i32
  let v30 : BitVec 32 := v29
  let v36 : Index := Scalar.indexCast v30
  let c0_13 : Index := 0#32
  ![v36.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S16384x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  slices_S2x128x64_S1x128x64_0_0_0 : S2x128x64.Slices ![0, 0, 0] S1x128x64
  shapeCasts_S1x128x64_S128x64 : S1x128x64.ShapeCasts S128x64
  bitsLt_bf16_f32 : FTy.bits .bf16 < FTy.bits .f32
  slices_S128x64_S64x64_0_0 : S128x64.Slices ![0, 0] S64x64
  slices_S128x64_S64x64_64_0 : S128x64.Slices ![64, 0] S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S2x128x64_S1x128x64_1_0_0 : S2x128x64.Slices ![1, 0, 0] S1x128x64
  dot_S2048x1024_S1024x64_S2048x64_1_0_0_1_n_n_wf : DotDims.WF S2048x1024 S1024x64 S2048x64 [1] [0] [0] [1] [] []
  dot_S2048x64_S64x64_S2048x64_1_0_0_1_n_n_wf : DotDims.WF S2048x64 S64x64 S2048x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S16384x64.size a
  k0_mult2_dvd : ∀ i : grid0.Coords, ∀ (k0_h2 : k0_cond2 i = 1#1), 2048 ∣ (k0_mult2 i).toNat
  k0_off2_inb : ∀ i : grid0.Coords, ∀ (k0_h2 : k0_cond2 i = 1#1), ∀ a, (k0_off2 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x16384.size a
  hwx0_0 : ∀ i : grid0.Coords, EltTy.bits .f32 = 32 ∨ (Rect.block (s := S16384x16384) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .bf16 = 32 ∨ (Rect.block (s := S16384x64) S16384x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x64.size a ≤ S16384x64.size a
  hwx0_7 : ∀ i : grid0.Coords, EltTy.bits .f32 = 32 ∨ (Rect.block (s := S16384x64) S2048x64.size (cc0_transform_7 i) (hinb0_7 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x64.size a ≤ S16384x64.size a
  k1_mult2_dvd : ∀ i : grid1.Coords, ∀ (k1_h2 : k1_cond2 i = 1#1), 2048 ∣ (k1_mult2 i).toNat
  k1_off2_inb : ∀ i : grid1.Coords, ∀ (k1_h2 : k1_cond2 i = 1#1), ∀ a, (k1_off2 i) a + S2048x64.size a ≤ S16384x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x64.size a ≤ S16384x64.size a
  hwx1_1 : ∀ i : grid1.Coords, EltTy.bits .bf16 = 32 ∨ (Rect.block (s := S16384x64) S16384x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16384x64.size a ≤ S16384x64.size a
  hwx1_2 : ∀ i : grid1.Coords, EltTy.bits .bf16 = 32 ∨ (Rect.block (s := S16384x64) S16384x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .bf16 = 32 ∨ (Rect.block (s := S64x64) S64x64.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S16384x64.size a
  hwx1_7 : ∀ i : grid1.Coords, EltTy.bits .f32 = 32 ∨ (Rect.block (s := S16384x64) S2048x64.size (cc1_transform_7 i) (hinb1_7 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2048x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S16384x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S16384x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S2048x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S16384x64 : Shape := ⟨2, ![16384, 64]⟩
abbrev S16384x16384 : Shape := ⟨2, ![16384, 16384]⟩
abbrev S2x128x64 : Shape := ⟨3, ![2, 128, 64]⟩
abbrev S16384x128 : Shape := ⟨2, ![16384, 128]⟩
abbrev S1x128x64 : Shape := ⟨3, ![1, 128, 64]⟩
abbrev S128x64 : Shape := ⟨2, ![128, 64]⟩

abbrev nBuf : Space → Nat
  | .hbm => 15
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x16384, .f32⟩
  | .hbm, ⟨2, _⟩ => ⟨S2x128x64, .f32⟩
  | .hbm, ⟨3, _⟩ => ⟨S16384x64, .f32⟩
  | .hbm, ⟨4, _⟩ => ⟨S16384x128, .f32⟩
  | .hbm, ⟨5, _⟩ => ⟨S1x128x64, .f32⟩
  | .hbm, ⟨6, _⟩ => ⟨S128x64, .f32⟩
  | .hbm, ⟨7, _⟩ => ⟨S16384x64, .f32⟩
  | .hbm, ⟨8, _⟩ => ⟨S16384x64, .f32⟩
  | .hbm, ⟨9, _⟩ => ⟨S16384x64, .f32⟩
  | .hbm, ⟨10, _⟩ => ⟨S16384x128, .f32⟩
  | .hbm, ⟨11, _⟩ => ⟨S1x128x64, .f32⟩
  | .hbm, ⟨12, _⟩ => ⟨S128x64, .f32⟩
  | .hbm, ⟨13, _⟩ => ⟨S16384x64, .f32⟩
  | .hbm, ⟨14, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  concatenates_S16384x64_S16384x64_S16384x128_d1 : Shape.Concatenates [S16384x64, S16384x64] S16384x128 1
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  dot_S16384x16384_S16384x64_S16384x64_1_0_0_1_n_n_wf : DotDims.WF S16384x16384 S16384x64 S16384x64 [1] [0] [0] [1] [] []
  dot_S16384x128_S128x64_S16384x64_1_0_0_1_n_n_wf : DotDims.WF S16384x128 S128x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.KKit0.lean ====
/-
  Region 0 of the program (one hop of the message passing): what its three control cases are stated over.
  The grid is 8 row tiles by 16 reduction steps, walked row tile by row tile; a point's position is 16·i + k.
  The body zeroes the running sum at k = 0, adds one 2048×1024 by 1024×64 product at every k, and at k = 15
  applies the dense layer and tanh and stores the row tile. So the cases are k = 0, 0 < k < 15 and k = 15,
  the output window is written only at k = 15 (idle elsewhere), and the running sum lives in a scratch buffer
  that is carried from one point to the next.
-/
import proofs.«138981_j12025908429033_2_alg».proof.Proof.Gen.Kernel.Launch
import proofs.«138981_j12025908429033_2_alg».proof.Proof.Gen.Kernel.Skeleton
import proofs.«138981_j12025908429033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the region is entered with
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions of the body, decided over the grid -/

/-- The reduction step is the first one (k = 0): the body zeroes the running sum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction step is the last one (k = 15): the body finishes the row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At k < 15 nothing is stored into the output window, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At k = 15 the output window is stored whole. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x64 .f32 := win0_7.stage (cfg0.slots t 7)
abbrev hs0_7 (t : Fin cfg0.N) : (ms0_7 t).IsWhole := hstage0_7 ((cfg0.slots t 7).cast nbuf0_7)
/-- The scratch buffer that holds the running sum. -/
abbrev scM0 : Memref sig .tc .vmem S2048x64 .f32 := Memref.whole cc0_scratch0
abbrev VS0 : View sig .tc .vmem S2048x64 .f32 := (scM0).view
/-- One staging buffer of the output window, through which its contents are stated. -/
abbrev VO0 : View sig .tc .vmem S2048x64 .f32 := (Memref.whole cc0_stg7_0 : Memref sig .tc .vmem S2048x64 .f32).view

/-! ## The scoped buffers the region does not stage -/

/-- The other kernel's staging buffers and scratch: untouched by this region, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The scoped buffers outside the region's staging: this kernel's scratch, then the other kernel's buffers. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 (F := F) c) :=
  Pipeline.scopedRest_eq_of_list spec0 c [cc0_scratch0, cc1_stg0_0, cc1_stg0_1, cc1_stg1_0, cc1_stg2_0, cc1_stg3_0, cc1_stg4_0, cc1_stg5_0, cc1_stg6_0, cc1_stg7_0, cc1_stg7_1, cc1_scratch0] (by decide) (by decide)

/-- The class invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_split]; simp only [scM0, owns_whole]; try rfl

end Cert.Kernel.Fr

end
-- ==== Proof.KRun0A.lean ====
/-
  Region 0, the case k = 0: the running sum is zeroed, then the first product is added; the output window is left as found.
-/
import proofs.«138981_j12025908429033_2_alg».proof.Proof.KKit0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_A (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : cond0_0 i) (hc1 : ¬cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Fr

end
-- ==== Proof.KRun0B.lean ====
/-
  Region 0, the case 0 < k < 15: one more product is added to the running sum; the output window is left as found.
-/
import proofs.«138981_j12025908429033_2_alg».proof.Proof.KRun0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_B (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond0_0 i) (hc1 : ¬cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Fr

end
-- ==== Proof.KRun0C.lean ====
/-
  Region 0, the case k = 15: the last product is added, then the dense layer and tanh of the finished sum are stored into the output window.
-/
import proofs.«138981_j12025908429033_2_alg».proof.Proof.KRun0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_C (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond0_0 i) (hc1 : cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨?_, ?_, fun E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Fr

end
-- ==== Proof.KHalf0.lean ====
/-
  Region 0: what its buffers hold point by point, the proof data of its pipeline, and the body obligation.
  After the point at position n = 16·i + k the scratch holds the running sum of row tile i through step k;
  the output window's buffer holds the finished row tile at k = 15 and is not consulted elsewhere.
-/
import proofs.«138981_j12025908429033_2_alg».proof.Proof.KRun0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a point of the grid -/

/-- The run of case k = 0 at point `t`, on the point's memrefs and input blocks. -/
def runA0 (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
/-- The run of case 0 < k < 15 at point `t`, the scratch found at `xs`. -/
def runB0 (c : Dev nD) (t : Fin cfg0.N) (h0 : ¬t.val % 16 = 0) (h1 : ¬t.val % 16 = 15) (xs : Vec F S2048x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs
/-- The run of case k = 15 at point `t`, the scratch found at `xs`. -/
def runC0 (c : Dev nD) (t : Fin cfg0.N) (h0 : ¬t.val % 16 = 0) (h1 : t.val % 16 = 15) (xs : Vec F S2048x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs

/-- What each case leaves in the scratch: its stores read back. -/
def soutA0 (c : Dev nD) (t : Fin cfg0.N) (h0 : t.val % 16 = 0) (h1 : ¬t.val % 16 = 15) : Vec F S2048x64 .f32 :=
  VS0.read (Elt F) (VS0.writes (Elt F) VS0.junk (runA0 V c t h0 h1).2.1)
def soutB0 (c : Dev nD) (t : Fin cfg0.N) (h0 : ¬t.val % 16 = 0) (h1 : ¬t.val % 16 = 15) (xs : Vec F S2048x64 .f32) : Vec F S2048x64 .f32 :=
  VS0.read (Elt F) (VS0.writes (Elt F) VS0.junk (runB0 V c t h0 h1 xs).2.1)
def soutC0 (c : Dev nD) (t : Fin cfg0.N) (h0 : ¬t.val % 16 = 0) (h1 : t.val % 16 = 15) (xs : Vec F S2048x64 .f32) : Vec F S2048x64 .f32 :=
  VS0.read (Elt F) (VS0.writes (Elt F) VS0.junk (runC0 V c t h0 h1 xs).2.1)
/-- What the case k = 15 leaves in the output window's buffer. -/
def outC0 (c : Dev nD) (t : Fin cfg0.N) (h0 : ¬t.val % 16 = 0) (h1 : t.val % 16 = 15) (xs : Vec F S2048x64 .f32) : Vec F S2048x64 .f32 :=
  VO0.read (Elt F) (VO0.writes (Elt F) VO0.junk (runC0 V c t h0 h1 xs).1)
/-- A stand-in for the output window's buffer at the points that store nothing into it; nothing consults it. -/
def idleOut0 : Vec F S2048x64 .f32 := VO0.read (Elt F) (VO0.writes (Elt F) VO0.junk [])

/-- Every case's scratch stores tile the scratch, and the output stores of k = 15 tile the output block. -/
theorem scoverA0 (c : Dev nD) (t : Fin cfg0.N) (h0 : t.val % 16 = 0) (h1 : ¬t.val % 16 = 15) (y : S2048x64.Idx) :
    ∃ pc ∈ (runA0 V c t h0 h1).2.1, y ∈ pc.1.set :=
  View.cover_of_tiledL (runA0 V c t h0 h1).2.1 S2048x64.size (by sl_kernel_rfl) y
theorem scoverB0 (c : Dev nD) (t : Fin cfg0.N) (h0 : ¬t.val % 16 = 0) (h1 : ¬t.val % 16 = 15) (xs : Vec F S2048x64 .f32) (y : S2048x64.Idx) :
    ∃ pc ∈ (runB0 V c t h0 h1 xs).2.1, y ∈ pc.1.set :=
  View.cover_of_tiledL (runB0 V c t h0 h1 xs).2.1 S2048x64.size (by sl_kernel_rfl) y
theorem scoverC0 (c : Dev nD) (t : Fin cfg0.N) (h0 : ¬t.val % 16 = 0) (h1 : t.val % 16 = 15) (xs : Vec F S2048x64 .f32) (y : S2048x64.Idx) :
    ∃ pc ∈ (runC0 V c t h0 h1 xs).2.1, y ∈ pc.1.set :=
  View.cover_of_tiledL (runC0 V c t h0 h1 xs).2.1 S2048x64.size (by sl_kernel_rfl) y
theorem coverC0 (c : Dev nD) (t : Fin cfg0.N) (h0 : ¬t.val % 16 = 0) (h1 : t.val % 16 = 15) (xs : Vec F S2048x64 .f32) (y : S2048x64.Idx) :
    ∃ pc ∈ (runC0 V c t h0 h1 xs).1, y ∈ pc.1.set :=
  View.cover_of_tiledL (runC0 V c t h0 h1 xs).1 S2048x64.size (by sl_kernel_rfl) y

/-! ## What the output buffer and the scratch hold after each point -/

/-- (output window's buffer, scratch) after the body at position `n`, by recursion on the position: the case the
    position selects, run on what the position before left in the scratch. -/
def outsAt0 (c : Dev nD) : (n : ℕ) → n < cfg0.N → Vec F S2048x64 .f32 × Vec F S2048x64 .f32
  | 0, hn => (idleOut0, soutA0 V c ⟨0, hn⟩ (Nat.zero_mod _) (by show ¬ (0 : ℕ) % 16 = 15; decide))
  | n + 1, hn =>
    if h0 : (n + 1) % 16 = 0 then
      (idleOut0, soutA0 V c ⟨n + 1, hn⟩ h0 (by show ¬ (n + 1) % 16 = 15; omega))
    else
      if h1 : (n + 1) % 16 = 15 then
        (outC0 V c ⟨n + 1, hn⟩ h0 h1 (outsAt0 c n (Nat.lt_of_succ_lt hn)).2, soutC0 V c ⟨n + 1, hn⟩ h0 h1 (outsAt0 c n (Nat.lt_of_succ_lt hn)).2)
      else
        (idleOut0, soutB0 V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, soutA0 V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idleOut0, soutB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC0 V c t h0 h1 (outsAt0 V c (t.val - 1) (Nat.lt_of_le_of_lt (Nat.sub_le _ _) t.isLt)).2, soutC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point: the class invariant (every scoped buffer at anything). Afterwards: the scratch at what
    the point before left, the other kernel's buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- An input window's buffer is handed back holding its block. -/
theorem leaves0_in (c : Dev nD) (t : Fin cfg0.N) :
    (dat0 V c).leavesExact 0 t = owns (c : Thread nD τ) (ms0_0 t) fullShare (iblk0 V c 0 t) ∧
    (dat0 V c).leavesExact 1 t = owns (c : Thread nD τ) (ms0_1 t) fullShare (iblk0 V c 1 t) ∧
    (dat0 V c).leavesExact 2 t = owns (c : Thread nD τ) (ms0_2 t) fullShare (iblk0 V c 2 t) ∧
    (dat0 V c).leavesExact 3 t = owns (c : Thread nD τ) (ms0_3 t) fullShare (iblk0 V c 3 t) ∧
    (dat0 V c).leavesExact 4 t = owns (c : Thread nD τ) (ms0_4 t) fullShare (iblk0 V c 4 t) ∧
    (dat0 V c).leavesExact 5 t = owns (c : Thread nD τ) (ms0_5 t) fullShare (iblk0 V c 5 t) ∧
    (dat0 V c).leavesExact 6 t = owns (c : Thread nD τ) (ms0_6 t) fullShare (iblk0 V c 6 t) := by
  refine ⟨by unfold Dat.leavesExact; rw [liveAt0_0 t, after0_0], by unfold Dat.leavesExact; rw [liveAt0_1 t, after0_1], by unfold Dat.leavesExact; rw [liveAt0_2 t, after0_2], by unfold Dat.leavesExact; rw [liveAt0_3 t, after0_3], by unfold Dat.leavesExact; rw [liveAt0_4 t, after0_4], by unfold Dat.leavesExact; rw [liveAt0_5 t, after0_5], by unfold Dat.leavesExact; rw [liveAt0_6 t, after0_6]⟩

set_option maxHeartbeats 4800000 in
/-- The body at any point: the closed forms of the two conditions pick the case; the invariant hands the body the
    scratch at what the point before left (at anything before the first point) and takes it back at this point's
    contents; the other kernel's buffers and the generator register ride along untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  obtain ⟨e0, e1, e2, e3, e4, e5, e6⟩ := leaves0_in V c t
  rw [e0, e1, e2, e3, e4, e5, e6]
  have hN : t.val < 128 := lt_of_lt_of_eq t.isLt (show cfg0.N = 128 from N_0)
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold soutA0; (try dsimp only)
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA0 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA0 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outC0 soutC0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC0 V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC0 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC0 V c t h0 h1 _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold soutB0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB0 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB0 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- Entering the region: the class invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Leaving it: the running sum's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hoth⟩, Hg⟩
  isplitl [HS Hoth]
  · isplitl [HS]
    · iexists _; iexact HS
    iexact Hoth
  iexact Hg

end

end Cert.Kernel.Fr

end
-- ==== Proof.KKit1.lean ====
/-
  Region 1 of the program (one hop of the message passing): what its three control cases are stated over.
  The grid is 8 row tiles by 16 reduction steps, walked row tile by row tile; a point's position is 16·i + k.
  The body zeroes the running sum at k = 0, adds one 2048×1024 by 1024×64 product at every k, and at k = 15
  applies the dense layer and tanh and stores the row tile. So the cases are k = 0, 0 < k < 15 and k = 15,
  the output window is written only at k = 15 (idle elsewhere), and the running sum lives in a scratch buffer
  that is carried from one point to the next.
-/
import proofs.«138981_j12025908429033_2_alg».proof.Proof.Gen.Kernel.Launch
import proofs.«138981_j12025908429033_2_alg».proof.Proof.Gen.Kernel.Skeleton
import proofs.«138981_j12025908429033_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the region is entered with
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, decided over the grid -/

/-- The reduction step is the first one (k = 0): the body zeroes the running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The reduction step is the last one (k = 15): the body finishes the row tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At k < 15 nothing is stored into the output window, and its block is not written back there. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At k = 15 the output window is stored whole. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x64 .f32 := win1_7.stage (cfg1.slots t 7)
abbrev hs1_7 (t : Fin cfg1.N) : (ms1_7 t).IsWhole := hstage1_7 ((cfg1.slots t 7).cast nbuf1_7)
/-- The scratch buffer that holds the running sum. -/
abbrev scM1 : Memref sig .tc .vmem S2048x64 .f32 := Memref.whole cc1_scratch0
abbrev VS1 : View sig .tc .vmem S2048x64 .f32 := (scM1).view
/-- One staging buffer of the output window, through which its contents are stated. -/
abbrev VO1 : View sig .tc .vmem S2048x64 .f32 := (Memref.whole cc1_stg7_0 : Memref sig .tc .vmem S2048x64 .f32).view

/-! ## The scoped buffers the region does not stage -/

/-- The other kernel's staging buffers and scratch: untouched by this region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The scoped buffers outside the region's staging: this kernel's scratch, then the other kernel's buffers. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 (F := F) c) :=
  Pipeline.scopedRest_eq_of_list spec1 c [cc1_scratch0, cc0_stg0_0, cc0_stg0_1, cc0_stg1_0, cc0_stg2_0, cc0_stg3_0, cc0_stg4_0, cc0_stg5_0, cc0_stg6_0, cc0_stg7_0, cc0_stg7_1, cc0_scratch0] (by decide) (by decide)

/-- The class invariant with the scratch as a memref owned at some contents. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_split]; simp only [scM1, owns_whole]; try rfl

end Cert.Kernel.Fr

end
-- ==== Proof.KRun1A.lean ====
/-
  Region 1, the case k = 0: the running sum is zeroed, then the first product is added; the output window is left as found.
-/
import proofs.«138981_j12025908429033_2_alg».proof.Proof.KKit1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_A (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : cond1_0 i) (hc1 : ¬cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Fr

end
-- ==== Proof.KRun1B.lean ====
/-
  Region 1, the case 0 < k < 15: one more product is added to the running sum; the output window is left as found.
-/
import proofs.«138981_j12025908429033_2_alg».proof.Proof.KRun1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_B (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond1_0 i) (hc1 : ¬cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.Kernel.Fr

end
-- ==== Proof.KRun1C.lean ====
/-
  Region 1, the case k = 15: the last product is added, then the dense layer and tanh of the finished sum are stored into the output window.
-/
import proofs.«138981_j12025908429033_2_alg».proof.Proof.KRun1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_C (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond1_0 i) (hc1 : cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨?_, ?_, fun E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Fr

end
-- ==== Proof.KHalf1.lean ====
/-
  Region 1: what its buffers hold point by point, the proof data of its pipeline, and the body obligation.
  After the point at position n = 16·i + k the scratch holds the running sum of row tile i through step k;
  the output window's buffer holds the finished row tile at k = 15 and is not consulted elsewhere.
-/
import proofs.«138981_j12025908429033_2_alg».proof.Proof.KRun1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a point of the grid -/

/-- The run of case k = 0 at point `t`, on the point's memrefs and input blocks. -/
def runA1 (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
/-- The run of case 0 < k < 15 at point `t`, the scratch found at `xs`. -/
def runB1 (c : Dev nD) (t : Fin cfg1.N) (h0 : ¬t.val % 16 = 0) (h1 : ¬t.val % 16 = 15) (xs : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs
/-- The run of case k = 15 at point `t`, the scratch found at `xs`. -/
def runC1 (c : Dev nD) (t : Fin cfg1.N) (h0 : ¬t.val % 16 = 0) (h1 : t.val % 16 = 15) (xs : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

/-- What each case leaves in the scratch: its stores read back. -/
def soutA1 (c : Dev nD) (t : Fin cfg1.N) (h0 : t.val % 16 = 0) (h1 : ¬t.val % 16 = 15) : Vec F S2048x64 .f32 :=
  VS1.read (Elt F) (VS1.writes (Elt F) VS1.junk (runA1 V c t h0 h1).2.1)
def soutB1 (c : Dev nD) (t : Fin cfg1.N) (h0 : ¬t.val % 16 = 0) (h1 : ¬t.val % 16 = 15) (xs : Vec F S2048x64 .f32) : Vec F S2048x64 .f32 :=
  VS1.read (Elt F) (VS1.writes (Elt F) VS1.junk (runB1 V c t h0 h1 xs).2.1)
def soutC1 (c : Dev nD) (t : Fin cfg1.N) (h0 : ¬t.val % 16 = 0) (h1 : t.val % 16 = 15) (xs : Vec F S2048x64 .f32) : Vec F S2048x64 .f32 :=
  VS1.read (Elt F) (VS1.writes (Elt F) VS1.junk (runC1 V c t h0 h1 xs).2.1)
/-- What the case k = 15 leaves in the output window's buffer. -/
def outC1 (c : Dev nD) (t : Fin cfg1.N) (h0 : ¬t.val % 16 = 0) (h1 : t.val % 16 = 15) (xs : Vec F S2048x64 .f32) : Vec F S2048x64 .f32 :=
  VO1.read (Elt F) (VO1.writes (Elt F) VO1.junk (runC1 V c t h0 h1 xs).1)
/-- A stand-in for the output window's buffer at the points that store nothing into it; nothing consults it. -/
def idleOut1 : Vec F S2048x64 .f32 := VO1.read (Elt F) (VO1.writes (Elt F) VO1.junk [])

/-- Every case's scratch stores tile the scratch, and the output stores of k = 15 tile the output block. -/
theorem scoverA1 (c : Dev nD) (t : Fin cfg1.N) (h0 : t.val % 16 = 0) (h1 : ¬t.val % 16 = 15) (y : S2048x64.Idx) :
    ∃ pc ∈ (runA1 V c t h0 h1).2.1, y ∈ pc.1.set :=
  View.cover_of_tiledL (runA1 V c t h0 h1).2.1 S2048x64.size (by sl_kernel_rfl) y
theorem scoverB1 (c : Dev nD) (t : Fin cfg1.N) (h0 : ¬t.val % 16 = 0) (h1 : ¬t.val % 16 = 15) (xs : Vec F S2048x64 .f32) (y : S2048x64.Idx) :
    ∃ pc ∈ (runB1 V c t h0 h1 xs).2.1, y ∈ pc.1.set :=
  View.cover_of_tiledL (runB1 V c t h0 h1 xs).2.1 S2048x64.size (by sl_kernel_rfl) y
theorem scoverC1 (c : Dev nD) (t : Fin cfg1.N) (h0 : ¬t.val % 16 = 0) (h1 : t.val % 16 = 15) (xs : Vec F S2048x64 .f32) (y : S2048x64.Idx) :
    ∃ pc ∈ (runC1 V c t h0 h1 xs).2.1, y ∈ pc.1.set :=
  View.cover_of_tiledL (runC1 V c t h0 h1 xs).2.1 S2048x64.size (by sl_kernel_rfl) y
theorem coverC1 (c : Dev nD) (t : Fin cfg1.N) (h0 : ¬t.val % 16 = 0) (h1 : t.val % 16 = 15) (xs : Vec F S2048x64 .f32) (y : S2048x64.Idx) :
    ∃ pc ∈ (runC1 V c t h0 h1 xs).1, y ∈ pc.1.set :=
  View.cover_of_tiledL (runC1 V c t h0 h1 xs).1 S2048x64.size (by sl_kernel_rfl) y

/-! ## What the output buffer and the scratch hold after each point -/

/-- (output window's buffer, scratch) after the body at position `n`, by recursion on the position: the case the
    position selects, run on what the position before left in the scratch. -/
def outsAt1 (c : Dev nD) : (n : ℕ) → n < cfg1.N → Vec F S2048x64 .f32 × Vec F S2048x64 .f32
  | 0, hn => (idleOut1, soutA1 V c ⟨0, hn⟩ (Nat.zero_mod _) (by show ¬ (0 : ℕ) % 16 = 15; decide))
  | n + 1, hn =>
    if h0 : (n + 1) % 16 = 0 then
      (idleOut1, soutA1 V c ⟨n + 1, hn⟩ h0 (by show ¬ (n + 1) % 16 = 15; omega))
    else
      if h1 : (n + 1) % 16 = 15 then
        (outC1 V c ⟨n + 1, hn⟩ h0 h1 (outsAt1 c n (Nat.lt_of_succ_lt hn)).2, soutC1 V c ⟨n + 1, hn⟩ h0 h1 (outsAt1 c n (Nat.lt_of_succ_lt hn)).2)
      else
        (idleOut1, soutB1 V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, soutA1 V c t h0 h1) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleOut1, soutB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point: the class invariant (every scoped buffer at anything). Afterwards: the scratch at what
    the point before left, the other kernel's buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input window's buffer is handed back holding its block. -/
theorem leaves1_in (c : Dev nD) (t : Fin cfg1.N) :
    (dat1 V c).leavesExact 0 t = owns (c : Thread nD τ) (ms1_0 t) fullShare (iblk1 V c 0 t) ∧
    (dat1 V c).leavesExact 1 t = owns (c : Thread nD τ) (ms1_1 t) fullShare (iblk1 V c 1 t) ∧
    (dat1 V c).leavesExact 2 t = owns (c : Thread nD τ) (ms1_2 t) fullShare (iblk1 V c 2 t) ∧
    (dat1 V c).leavesExact 3 t = owns (c : Thread nD τ) (ms1_3 t) fullShare (iblk1 V c 3 t) ∧
    (dat1 V c).leavesExact 4 t = owns (c : Thread nD τ) (ms1_4 t) fullShare (iblk1 V c 4 t) ∧
    (dat1 V c).leavesExact 5 t = owns (c : Thread nD τ) (ms1_5 t) fullShare (iblk1 V c 5 t) ∧
    (dat1 V c).leavesExact 6 t = owns (c : Thread nD τ) (ms1_6 t) fullShare (iblk1 V c 6 t) := by
  refine ⟨by unfold Dat.leavesExact; rw [liveAt1_0 t, after1_0], by unfold Dat.leavesExact; rw [liveAt1_1 t, after1_1], by unfold Dat.leavesExact; rw [liveAt1_2 t, after1_2], by unfold Dat.leavesExact; rw [liveAt1_3 t, after1_3], by unfold Dat.leavesExact; rw [liveAt1_4 t, after1_4], by unfold Dat.leavesExact; rw [liveAt1_5 t, after1_5], by unfold Dat.leavesExact; rw [liveAt1_6 t, after1_6]⟩

set_option maxHeartbeats 4800000 in
/-- The body at any point: the closed forms of the two conditions pick the case; the invariant hands the body the
    scratch at what the point before left (at anything before the first point) and takes it back at this point's
    contents; the other kernel's buffers and the generator register ride along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  obtain ⟨e0, e1, e2, e3, e4, e5, e6⟩ := leaves1_in V c t
  rw [e0, e1, e2, e3, e4, e5, e6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold soutA1; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold outC1 soutC1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC1 V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC1 V c t h0 h1 _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold soutB1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the class invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Leaving it: the running sum's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hoth⟩, Hg⟩
  isplitl [HS Hoth]
  · isplitl [HS]
    · iexists _; iexact HS
    iexact Hoth
  iexact Hg

end

end Cert.Kernel.Fr

end
-- ==== Proof.KMain.lean ====
/-
  The whole program: sixteen host operations (the weight slices and the bf16 splits of the first hop's operands),
  the first hop's region, sixteen more host operations (the same for the second hop, on the first hop's result),
  the second hop's region. The buffer contents at each boundary are a fold from the launch memory; every weakly
  fair execution ends with every unscoped buffer at the last boundary's contents.
-/
import proofs.«138981_j12025908429033_2_alg».proof.Proof.KHalf0
import proofs.«138981_j12025908429033_2_alg».proof.Proof.KHalf1
import proofs.«138981_j12025908429033_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second stretch of host operations: the second region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## No host operation and no region writes an argument -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The adjacency matrix is the first input window of both regions; the embeddings and the weights are staged by
    neither. -/
theorem W2_main_arg1 (c : Dev nD) : W2 m c (Proc.devRef .tc main_arg1) = W1 m c (Proc.devRef .tc main_arg1) :=
  (W2_arr m c 0).trans (((dat0 (E1 m) c).arrAt_in 0 rfl _).trans (A_eq0 (E1 m) c 0))
theorem W4_main_arg1' (c : Dev nD) : W4 m c (Proc.devRef .tc main_arg1) = W3 m c (Proc.devRef .tc main_arg1) :=
  (W4_arr m c 0).trans (((dat1 (E3 m) c).arrAt_in 0 rfl _).trans (A_eq1 (E3 m) c 0))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_main_arg1' m c).trans <| (W3_of m c main_arg1 (by decide)).trans <| (W2_main_arg1 m c).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl

/-! ## The proof data family and the thread state -/

abbrev padm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at the contents before it, left with the region's
    arrays at what its write-backs leave and every other buffer as entered. The scratch and the other kernel's
    buffers go into the invariant and come back; the generator register rides along; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest (Ix := Unit) (Name := ℕ) (U := UR sig nD τ) (Lvl := ℕ) (Val := Elt F) spec0 c)
        ⊢ (Pipeline.ΦA spec0 c : sProp 𝕄) := fun P => by
      unfold Pipeline.ΦA
      iintro ⟨Hp, -, Hr⟩
      isplitl [Hr]; · iexact Hr
      iexact Hp
    exact (h1 _).trans (hin0 (E1 m) c)
  hout c := by
    rw [Pipeline.ownSems0_none]
    have h2 : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h2
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer as entered. The scratch and the other kernel's
    buffers go into the invariant and come back; the generator register rides along; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest (Ix := Unit) (Name := ℕ) (U := UR sig nD τ) (Lvl := ℕ) (Val := Elt F) spec1 c)
        ⊢ (Pipeline.ΦA spec1 c : sProp 𝕄) := fun P => by
      unfold Pipeline.ΦA
      iintro ⟨Hp, -, Hr⟩
      isplitl [Hr]; · iexact Hr
      iexact Hp
    exact (h1 _).trans (hin1 (E3 m) c)
  hout c := by
    rw [Pipeline.ownSems0_none]
    have h2 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h2
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev sgs : List (Pipeline.Seg (pcfgs (F := F)) padm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (sgs m) := (main_chain c).trans (by chain_rfl)

set_option backward.isDefEq.respectTransparency.types false in
/-- Every weakly fair execution of the program from memory `m` with zero counters terminates, nothing faulting, and
    ends with every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) padm (pdats m) () cellOf_inj emb₁ defs₀ 𝒱₀ L lv m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Fr

end
-- ==== Proof.KIKit0.lean ====
/-
  Region 0 of the program (one hop of the message passing): what its three control cases are stated over.
  The grid is 8 row tiles by 16 reduction steps, walked row tile by row tile; a point's position is 16·i + k.
  The body zeroes the running sum at k = 0, adds one 2048×1024 by 1024×64 product at every k, and at k = 15
  applies the dense layer and tanh and stores the row tile. So the cases are k = 0, 0 < k < 15 and k = 15,
  the output window is written only at k = 15 (idle elsewhere), and the running sum lives in a scratch buffer
  that is carried from one point to the next.
-/
import proofs.«138981_j12025908429033_2_alg».proof.Proof.Gen.KernelIdeal.Launch
import proofs.«138981_j12025908429033_2_alg».proof.Proof.Gen.KernelIdeal.Skeleton
import proofs.«138981_j12025908429033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the region is entered with
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the point fetches it or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The two conditions of the body, decided over the grid -/

/-- The reduction step is the first one (k = 0): the body zeroes the running sum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The reduction step is the last one (k = 15): the body finishes the row tile. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- At k < 15 nothing is stored into the output window, and its block is not written back there. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At k = 15 the output window is stored whole. -/
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16384x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x64 .f32 := win0_7.stage (cfg0.slots t 7)
abbrev hs0_7 (t : Fin cfg0.N) : (ms0_7 t).IsWhole := hstage0_7 ((cfg0.slots t 7).cast nbuf0_7)
/-- The scratch buffer that holds the running sum. -/
abbrev scM0 : Memref sig .tc .vmem S2048x64 .f32 := Memref.whole cc0_scratch0
abbrev VS0 : View sig .tc .vmem S2048x64 .f32 := (scM0).view
/-- One staging buffer of the output window, through which its contents are stated. -/
abbrev VO0 : View sig .tc .vmem S2048x64 .f32 := (Memref.whole cc0_stg7_0 : Memref sig .tc .vmem S2048x64 .f32).view

/-! ## The scoped buffers the region does not stage -/

/-- The other kernel's staging buffers and scratch: untouched by this region, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f))

/-- The scoped buffers outside the region's staging: this kernel's scratch, then the other kernel's buffers. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ others0 (F := F) c) :=
  Pipeline.scopedRest_eq_of_list spec0 c [cc0_scratch0, cc1_stg0_0, cc1_stg0_1, cc1_stg1_0, cc1_stg2_0, cc1_stg3_0, cc1_stg4_0, cc1_stg5_0, cc1_stg6_0, cc1_stg7_0, cc1_stg7_1, cc1_scratch0] (by decide) (by decide)

/-- The class invariant with the scratch as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA; rw [scopedRest0_split]; simp only [scM0, owns_whole]; try rfl

end Cert.KernelIdeal.Fr

end
-- ==== Proof.KIRun0A.lean ====
/-
  Region 0, the case k = 0: the running sum is zeroed, then the first product is added; the output window is left as found.
-/
import proofs.«138981_j12025908429033_2_alg».proof.Proof.KIKit0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_A (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : cond0_0 i) (hc1 : ¬cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Fr

end
-- ==== Proof.KIRun0B.lean ====
/-
  Region 0, the case 0 < k < 15: one more product is added to the running sum; the output window is left as found.
-/
import proofs.«138981_j12025908429033_2_alg».proof.Proof.KIRun0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_B (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond0_0 i) (hc1 : ¬cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Fr

end
-- ==== Proof.KIRun0C.lean ====
/-
  Region 0, the case k = 15: the last product is added, then the dense layer and tanh of the finished sum are stored into the output window.
-/
import proofs.«138981_j12025908429033_2_alg».proof.Proof.KIRun0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun0_C (c : Dev nD) (i : grid0.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond0_0 i) (hc1 : cond0_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__hop_kernel i arg2 harg2 arg3 harg3 arg4 harg4 arg5 harg5 arg6 harg6 arg7 harg7 arg8 harg8 arg9 harg9 arg10 harg10) K } := by
  refine ⟨?_, ?_, fun E K => ?run⟩
  case run =>
    simp only [cc0__hop_kernel_eq_skeleton]; unfold cc0__hop_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Fr

end
-- ==== Proof.KIHalf0.lean ====
/-
  Region 0: what its buffers hold point by point, the proof data of its pipeline, and the body obligation.
  After the point at position n = 16·i + k the scratch holds the running sum of row tile i through step k;
  the output window's buffer holds the finished row tile at k = 15 and is not consulted elsewhere.
-/
import proofs.«138981_j12025908429033_2_alg».proof.Proof.KIRun0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a point of the grid -/

/-- The run of case k = 0 at point `t`, on the point's memrefs and input blocks. -/
def runA0 (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)
/-- The run of case 0 < k < 15 at point `t`, the scratch found at `xs`. -/
def runB0 (c : Dev nD) (t : Fin cfg0.N) (h0 : ¬t.val % 16 = 0) (h1 : ¬t.val % 16 = 15) (xs : Vec F S2048x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) xs
/-- The run of case k = 15 at point `t`, the scratch found at `xs`. -/
def runC0 (c : Dev nD) (t : Fin cfg0.N) (h0 : ¬t.val % 16 = 0) (h1 : t.val % 16 = 15) (xs : Vec F S2048x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) xs

/-- What each case leaves in the scratch: its stores read back. -/
def soutA0 (c : Dev nD) (t : Fin cfg0.N) (h0 : t.val % 16 = 0) (h1 : ¬t.val % 16 = 15) : Vec F S2048x64 .f32 :=
  VS0.read (Elt F) (VS0.writes (Elt F) VS0.junk (runA0 V c t h0 h1).2.1)
def soutB0 (c : Dev nD) (t : Fin cfg0.N) (h0 : ¬t.val % 16 = 0) (h1 : ¬t.val % 16 = 15) (xs : Vec F S2048x64 .f32) : Vec F S2048x64 .f32 :=
  VS0.read (Elt F) (VS0.writes (Elt F) VS0.junk (runB0 V c t h0 h1 xs).2.1)
def soutC0 (c : Dev nD) (t : Fin cfg0.N) (h0 : ¬t.val % 16 = 0) (h1 : t.val % 16 = 15) (xs : Vec F S2048x64 .f32) : Vec F S2048x64 .f32 :=
  VS0.read (Elt F) (VS0.writes (Elt F) VS0.junk (runC0 V c t h0 h1 xs).2.1)
/-- What the case k = 15 leaves in the output window's buffer. -/
def outC0 (c : Dev nD) (t : Fin cfg0.N) (h0 : ¬t.val % 16 = 0) (h1 : t.val % 16 = 15) (xs : Vec F S2048x64 .f32) : Vec F S2048x64 .f32 :=
  VO0.read (Elt F) (VO0.writes (Elt F) VO0.junk (runC0 V c t h0 h1 xs).1)
/-- A stand-in for the output window's buffer at the points that store nothing into it; nothing consults it. -/
def idleOut0 : Vec F S2048x64 .f32 := VO0.read (Elt F) (VO0.writes (Elt F) VO0.junk [])

/-- Every case's scratch stores tile the scratch, and the output stores of k = 15 tile the output block. -/
theorem scoverA0 (c : Dev nD) (t : Fin cfg0.N) (h0 : t.val % 16 = 0) (h1 : ¬t.val % 16 = 15) (y : S2048x64.Idx) :
    ∃ pc ∈ (runA0 V c t h0 h1).2.1, y ∈ pc.1.set :=
  View.cover_of_tiledL (runA0 V c t h0 h1).2.1 S2048x64.size (by sl_kernel_rfl) y
theorem scoverB0 (c : Dev nD) (t : Fin cfg0.N) (h0 : ¬t.val % 16 = 0) (h1 : ¬t.val % 16 = 15) (xs : Vec F S2048x64 .f32) (y : S2048x64.Idx) :
    ∃ pc ∈ (runB0 V c t h0 h1 xs).2.1, y ∈ pc.1.set :=
  View.cover_of_tiledL (runB0 V c t h0 h1 xs).2.1 S2048x64.size (by sl_kernel_rfl) y
theorem scoverC0 (c : Dev nD) (t : Fin cfg0.N) (h0 : ¬t.val % 16 = 0) (h1 : t.val % 16 = 15) (xs : Vec F S2048x64 .f32) (y : S2048x64.Idx) :
    ∃ pc ∈ (runC0 V c t h0 h1 xs).2.1, y ∈ pc.1.set :=
  View.cover_of_tiledL (runC0 V c t h0 h1 xs).2.1 S2048x64.size (by sl_kernel_rfl) y
theorem coverC0 (c : Dev nD) (t : Fin cfg0.N) (h0 : ¬t.val % 16 = 0) (h1 : t.val % 16 = 15) (xs : Vec F S2048x64 .f32) (y : S2048x64.Idx) :
    ∃ pc ∈ (runC0 V c t h0 h1 xs).1, y ∈ pc.1.set :=
  View.cover_of_tiledL (runC0 V c t h0 h1 xs).1 S2048x64.size (by sl_kernel_rfl) y

/-! ## What the output buffer and the scratch hold after each point -/

/-- (output window's buffer, scratch) after the body at position `n`, by recursion on the position: the case the
    position selects, run on what the position before left in the scratch. -/
def outsAt0 (c : Dev nD) : (n : ℕ) → n < cfg0.N → Vec F S2048x64 .f32 × Vec F S2048x64 .f32
  | 0, hn => (idleOut0, soutA0 V c ⟨0, hn⟩ (Nat.zero_mod _) (by show ¬ (0 : ℕ) % 16 = 15; decide))
  | n + 1, hn =>
    if h0 : (n + 1) % 16 = 0 then
      (idleOut0, soutA0 V c ⟨n + 1, hn⟩ h0 (by show ¬ (n + 1) % 16 = 15; omega))
    else
      if h1 : (n + 1) % 16 = 15 then
        (outC0 V c ⟨n + 1, hn⟩ h0 h1 (outsAt0 c n (Nat.lt_of_succ_lt hn)).2, soutC0 V c ⟨n + 1, hn⟩ h0 h1 (outsAt0 c n (Nat.lt_of_succ_lt hn)).2)
      else
        (idleOut0, soutB0 V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, soutA0 V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idleOut0, soutB0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (outC0 V c t h0 h1 (outsAt0 V c (t.val - 1) (Nat.lt_of_le_of_lt (Nat.sub_le _ _) t.isLt)).2, soutC0 V c t h0 h1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point: the class invariant (every scoped buffer at anything). Afterwards: the scratch at what
    the point before left, the other kernel's buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- An input window's buffer is handed back holding its block. -/
theorem leaves0_in (c : Dev nD) (t : Fin cfg0.N) :
    (dat0 V c).leavesExact 0 t = owns (c : Thread nD τ) (ms0_0 t) fullShare (iblk0 V c 0 t) ∧
    (dat0 V c).leavesExact 1 t = owns (c : Thread nD τ) (ms0_1 t) fullShare (iblk0 V c 1 t) ∧
    (dat0 V c).leavesExact 2 t = owns (c : Thread nD τ) (ms0_2 t) fullShare (iblk0 V c 2 t) ∧
    (dat0 V c).leavesExact 3 t = owns (c : Thread nD τ) (ms0_3 t) fullShare (iblk0 V c 3 t) ∧
    (dat0 V c).leavesExact 4 t = owns (c : Thread nD τ) (ms0_4 t) fullShare (iblk0 V c 4 t) ∧
    (dat0 V c).leavesExact 5 t = owns (c : Thread nD τ) (ms0_5 t) fullShare (iblk0 V c 5 t) ∧
    (dat0 V c).leavesExact 6 t = owns (c : Thread nD τ) (ms0_6 t) fullShare (iblk0 V c 6 t) := by
  refine ⟨by unfold Dat.leavesExact; rw [liveAt0_0 t, after0_0], by unfold Dat.leavesExact; rw [liveAt0_1 t, after0_1], by unfold Dat.leavesExact; rw [liveAt0_2 t, after0_2], by unfold Dat.leavesExact; rw [liveAt0_3 t, after0_3], by unfold Dat.leavesExact; rw [liveAt0_4 t, after0_4], by unfold Dat.leavesExact; rw [liveAt0_5 t, after0_5], by unfold Dat.leavesExact; rw [liveAt0_6 t, after0_6]⟩

set_option maxHeartbeats 4800000 in
/-- The body at any point: the closed forms of the two conditions pick the case; the invariant hands the body the
    scratch at what the point before left (at anything before the first point) and takes it back at this point's
    contents; the other kernel's buffers and the generator register ride along untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  obtain ⟨e0, e1, e2, e3, e4, e5, e6⟩ := leaves0_in V c t
  rw [e0, e1, e2, e3, e4, e5, e6]
  have hN : t.val < 128 := lt_of_lt_of_eq t.isLt (show cfg0.N = 128 from N_0)
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold soutA0; (try dsimp only)
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA0 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA0 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA0 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold outC0 soutC0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC0 V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC0 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC0 V c t h0 h1 _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold soutB0; (try dsimp only)
      rw [PhiS0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB0 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB0 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- Entering the region: the class invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Leaving it: the running sum's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hoth⟩, Hg⟩
  isplitl [HS Hoth]
  · isplitl [HS]
    · iexists _; iexact HS
    iexact Hoth
  iexact Hg

end

end Cert.KernelIdeal.Fr

end
-- ==== Proof.KIKit1.lean ====
/-
  Region 1 of the program (one hop of the message passing): what its three control cases are stated over.
  The grid is 8 row tiles by 16 reduction steps, walked row tile by row tile; a point's position is 16·i + k.
  The body zeroes the running sum at k = 0, adds one 2048×1024 by 1024×64 product at every k, and at k = 15
  applies the dense layer and tanh and stores the row tile. So the cases are k = 0, 0 < k < 15 and k = 15,
  the output window is written only at k = 15 (idle elsewhere), and the running sum lives in a scratch buffer
  that is carried from one point to the next.
-/
import proofs.«138981_j12025908429033_2_alg».proof.Proof.Gen.KernelIdeal.Launch
import proofs.«138981_j12025908429033_2_alg».proof.Proof.Gen.KernelIdeal.Skeleton
import proofs.«138981_j12025908429033_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents the region is entered with
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the point fetches it or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the point fetches it or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end

/-! ## The two conditions of the body, decided over the grid -/

/-- The reduction step is the first one (k = 0): the body zeroes the running sum. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The reduction step is the last one (k = 15): the body finishes the row tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- At k < 15 nothing is stored into the output window, and its block is not written back there. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At k = 15 the output window is stored whole. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16384x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x64 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S64x64 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S64x64 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2048x64 .f32 := win1_7.stage (cfg1.slots t 7)
abbrev hs1_7 (t : Fin cfg1.N) : (ms1_7 t).IsWhole := hstage1_7 ((cfg1.slots t 7).cast nbuf1_7)
/-- The scratch buffer that holds the running sum. -/
abbrev scM1 : Memref sig .tc .vmem S2048x64 .f32 := Memref.whole cc1_scratch0
abbrev VS1 : View sig .tc .vmem S2048x64 .f32 := (scM1).view
/-- One staging buffer of the output window, through which its contents are stated. -/
abbrev VO1 : View sig .tc .vmem S2048x64 .f32 := (Memref.whole cc1_stg7_0 : Memref sig .tc .vmem S2048x64 .f32).view

/-! ## The scoped buffers the region does not stage -/

/-- The other kernel's staging buffers and scratch: untouched by this region, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f))

/-- The scoped buffers outside the region's staging: this kernel's scratch, then the other kernel's buffers. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others1 (F := F) c) :=
  Pipeline.scopedRest_eq_of_list spec1 c [cc1_scratch0, cc0_stg0_0, cc0_stg0_1, cc0_stg1_0, cc0_stg2_0, cc0_stg3_0, cc0_stg4_0, cc0_stg5_0, cc0_stg6_0, cc0_stg7_0, cc0_stg7_1, cc0_scratch0] (by decide) (by decide)

/-- The class invariant with the scratch as a memref owned at some contents. -/
theorem PhiA1_eq (c : Dev nD) :
    (Pipeline.ΦA spec1 c : sProp 𝕄)
      = iprop(iprop((∃ d, owns (c : Thread nD τ) scM1 fullShare d) ∗ others1 (F := F) c) ∗ (∃ r, prngReg c r)) := by
  unfold Pipeline.ΦA; rw [scopedRest1_split]; simp only [scM1, owns_whole]; try rfl

end Cert.KernelIdeal.Fr

end
-- ==== Proof.KIRun1A.lean ====
/-
  Region 1, the case k = 0: the running sum is zeroed, then the first product is added; the output window is left as found.
-/
import proofs.«138981_j12025908429033_2_alg».proof.Proof.KIKit1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_A (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : cond1_0 i) (hc1 : ¬cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Fr

end
-- ==== Proof.KIRun1B.lean ====
/-
  Region 1, the case 0 < k < 15: one more product is added to the running sum; the output window is left as found.
-/
import proofs.«138981_j12025908429033_2_alg».proof.Proof.KIRun1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_B (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond1_0 i) (hc1 : ¬cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (xi7 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨[], ?_, fun xi7 E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists _; iexact HS

end Cert.KernelIdeal.Fr

end
-- ==== Proof.KIRun1C.lean ====
/-
  Region 1, the case k = 15: the last product is added, then the dense layer and tanh of the finished sum are stored into the output window.
-/
import proofs.«138981_j12025908429033_2_alg».proof.Proof.KIRun1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the scratch (and in the output window), with the proof that on whole staging
    memrefs holding the input blocks the body runs to its continuation with the inputs as they were. -/
noncomputable def kernelRun1_C (c : Dev nD) (i : grid1.Coords) (arg2 : Memref sig .tc .vmem S2048x1024 .f32) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x64 .bf16) (harg8 : arg8.IsWhole) (arg9 : Memref sig .tc .vmem S2048x64 .f32) (harg9 : arg9.IsWhole) (arg10 : Memref sig .tc .vmem S2048x64 .f32) (harg10 : arg10.IsWhole) (hc0 : ¬cond1_0 i) (hc1 : cond1_1 i)
    (x0 : Vec F S2048x1024 .f32) (x1 : Vec F S16384x64 .bf16) (x2 : Vec F S16384x64 .bf16) (x3 : Vec F S64x64 .bf16) (x4 : Vec F S64x64 .bf16) (x5 : Vec F S64x64 .bf16) (x6 : Vec F S64x64 .bf16) (xs : Vec F S2048x64 .f32) :
    Σ' (L7 : List (View.Piece (Elt F) S2048x64 .f32)), { LS : List (View.Piece (Elt F) S2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__hop_kernel i arg2 harg2 arg3 harg3 arg4 harg4 arg5 harg5 arg6 harg6 arg7 harg7 arg8 harg8 arg9 harg9 arg10 harg10) K } := by
  refine ⟨?_, ?_, fun E K => ?run⟩
  case run =>
    simp only [cc1__hop_kernel_eq_skeleton]; unfold cc1__hop_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Fr

end
-- ==== Proof.KIHalf1.lean ====
/-
  Region 1: what its buffers hold point by point, the proof data of its pipeline, and the body obligation.
  After the point at position n = 16·i + k the scratch holds the running sum of row tile i through step k;
  the output window's buffer holds the finished row tile at k = 15 and is not consulted elsewhere.
-/
import proofs.«138981_j12025908429033_2_alg».proof.Proof.KIRun1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a point of the grid -/

/-- The run of case k = 0 at point `t`, on the point's memrefs and input blocks. -/
def runA1 (c : Dev nD) (t : Fin cfg1.N) (h0 : t.val % 16 = 0) (h1 : ¬t.val % 16 = 15) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
/-- The run of case 0 < k < 15 at point `t`, the scratch found at `xs`. -/
def runB1 (c : Dev nD) (t : Fin cfg1.N) (h0 : ¬t.val % 16 = 0) (h1 : ¬t.val % 16 = 15) (xs : Vec F S2048x64 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs
/-- The run of case k = 15 at point `t`, the scratch found at `xs`. -/
def runC1 (c : Dev nD) (t : Fin cfg1.N) (h0 : ¬t.val % 16 = 0) (h1 : t.val % 16 = 15) (xs : Vec F S2048x64 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs

/-- What each case leaves in the scratch: its stores read back. -/
def soutA1 (c : Dev nD) (t : Fin cfg1.N) (h0 : t.val % 16 = 0) (h1 : ¬t.val % 16 = 15) : Vec F S2048x64 .f32 :=
  VS1.read (Elt F) (VS1.writes (Elt F) VS1.junk (runA1 V c t h0 h1).2.1)
def soutB1 (c : Dev nD) (t : Fin cfg1.N) (h0 : ¬t.val % 16 = 0) (h1 : ¬t.val % 16 = 15) (xs : Vec F S2048x64 .f32) : Vec F S2048x64 .f32 :=
  VS1.read (Elt F) (VS1.writes (Elt F) VS1.junk (runB1 V c t h0 h1 xs).2.1)
def soutC1 (c : Dev nD) (t : Fin cfg1.N) (h0 : ¬t.val % 16 = 0) (h1 : t.val % 16 = 15) (xs : Vec F S2048x64 .f32) : Vec F S2048x64 .f32 :=
  VS1.read (Elt F) (VS1.writes (Elt F) VS1.junk (runC1 V c t h0 h1 xs).2.1)
/-- What the case k = 15 leaves in the output window's buffer. -/
def outC1 (c : Dev nD) (t : Fin cfg1.N) (h0 : ¬t.val % 16 = 0) (h1 : t.val % 16 = 15) (xs : Vec F S2048x64 .f32) : Vec F S2048x64 .f32 :=
  VO1.read (Elt F) (VO1.writes (Elt F) VO1.junk (runC1 V c t h0 h1 xs).1)
/-- A stand-in for the output window's buffer at the points that store nothing into it; nothing consults it. -/
def idleOut1 : Vec F S2048x64 .f32 := VO1.read (Elt F) (VO1.writes (Elt F) VO1.junk [])

/-- Every case's scratch stores tile the scratch, and the output stores of k = 15 tile the output block. -/
theorem scoverA1 (c : Dev nD) (t : Fin cfg1.N) (h0 : t.val % 16 = 0) (h1 : ¬t.val % 16 = 15) (y : S2048x64.Idx) :
    ∃ pc ∈ (runA1 V c t h0 h1).2.1, y ∈ pc.1.set :=
  View.cover_of_tiledL (runA1 V c t h0 h1).2.1 S2048x64.size (by sl_kernel_rfl) y
theorem scoverB1 (c : Dev nD) (t : Fin cfg1.N) (h0 : ¬t.val % 16 = 0) (h1 : ¬t.val % 16 = 15) (xs : Vec F S2048x64 .f32) (y : S2048x64.Idx) :
    ∃ pc ∈ (runB1 V c t h0 h1 xs).2.1, y ∈ pc.1.set :=
  View.cover_of_tiledL (runB1 V c t h0 h1 xs).2.1 S2048x64.size (by sl_kernel_rfl) y
theorem scoverC1 (c : Dev nD) (t : Fin cfg1.N) (h0 : ¬t.val % 16 = 0) (h1 : t.val % 16 = 15) (xs : Vec F S2048x64 .f32) (y : S2048x64.Idx) :
    ∃ pc ∈ (runC1 V c t h0 h1 xs).2.1, y ∈ pc.1.set :=
  View.cover_of_tiledL (runC1 V c t h0 h1 xs).2.1 S2048x64.size (by sl_kernel_rfl) y
theorem coverC1 (c : Dev nD) (t : Fin cfg1.N) (h0 : ¬t.val % 16 = 0) (h1 : t.val % 16 = 15) (xs : Vec F S2048x64 .f32) (y : S2048x64.Idx) :
    ∃ pc ∈ (runC1 V c t h0 h1 xs).1, y ∈ pc.1.set :=
  View.cover_of_tiledL (runC1 V c t h0 h1 xs).1 S2048x64.size (by sl_kernel_rfl) y

/-! ## What the output buffer and the scratch hold after each point -/

/-- (output window's buffer, scratch) after the body at position `n`, by recursion on the position: the case the
    position selects, run on what the position before left in the scratch. -/
def outsAt1 (c : Dev nD) : (n : ℕ) → n < cfg1.N → Vec F S2048x64 .f32 × Vec F S2048x64 .f32
  | 0, hn => (idleOut1, soutA1 V c ⟨0, hn⟩ (Nat.zero_mod _) (by show ¬ (0 : ℕ) % 16 = 15; decide))
  | n + 1, hn =>
    if h0 : (n + 1) % 16 = 0 then
      (idleOut1, soutA1 V c ⟨n + 1, hn⟩ h0 (by show ¬ (n + 1) % 16 = 15; omega))
    else
      if h1 : (n + 1) % 16 = 15 then
        (outC1 V c ⟨n + 1, hn⟩ h0 h1 (outsAt1 c n (Nat.lt_of_succ_lt hn)).2, soutC1 V c ⟨n + 1, hn⟩ h0 h1 (outsAt1 c n (Nat.lt_of_succ_lt hn)).2)
      else
        (idleOut1, soutB1 V c ⟨n + 1, hn⟩ h0 h1 (outsAt1 c n (Nat.lt_of_succ_lt hn)).2)

theorem outsAt1_A (c : Dev nD) (t : Fin cfg1.N) (h0 : t.val % 16 = 0) (h1 : ¬t.val % 16 = 15) :
    outsAt1 V c t.val t.isLt = (idleOut1, soutA1 V c t h0 h1) := by
  obtain ⟨n, hn⟩ := t
  cases n with
  | zero => exact rfl
  | succ n => exact (dif_pos h0).trans rfl

theorem outsAt1_B (c : Dev nD) (t : Fin cfg1.N) (h0 : ¬t.val % 16 = 0) (h1 : ¬t.val % 16 = 15) :
    outsAt1 V c t.val t.isLt = (idleOut1, soutB1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (outC1 V c t h0 h1 (outsAt1 V c (t.val - 1) (Nat.lt_of_le_of_lt (Nat.sub_le _ _) t.isLt)).2, soutC1 V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before the first point: the class invariant (every scoped buffer at anything). Afterwards: the scratch at what
    the point before left, the other kernel's buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

/-- An input window's buffer is handed back holding its block. -/
theorem leaves1_in (c : Dev nD) (t : Fin cfg1.N) :
    (dat1 V c).leavesExact 0 t = owns (c : Thread nD τ) (ms1_0 t) fullShare (iblk1 V c 0 t) ∧
    (dat1 V c).leavesExact 1 t = owns (c : Thread nD τ) (ms1_1 t) fullShare (iblk1 V c 1 t) ∧
    (dat1 V c).leavesExact 2 t = owns (c : Thread nD τ) (ms1_2 t) fullShare (iblk1 V c 2 t) ∧
    (dat1 V c).leavesExact 3 t = owns (c : Thread nD τ) (ms1_3 t) fullShare (iblk1 V c 3 t) ∧
    (dat1 V c).leavesExact 4 t = owns (c : Thread nD τ) (ms1_4 t) fullShare (iblk1 V c 4 t) ∧
    (dat1 V c).leavesExact 5 t = owns (c : Thread nD τ) (ms1_5 t) fullShare (iblk1 V c 5 t) ∧
    (dat1 V c).leavesExact 6 t = owns (c : Thread nD τ) (ms1_6 t) fullShare (iblk1 V c 6 t) := by
  refine ⟨by unfold Dat.leavesExact; rw [liveAt1_0 t, after1_0], by unfold Dat.leavesExact; rw [liveAt1_1 t, after1_1], by unfold Dat.leavesExact; rw [liveAt1_2 t, after1_2], by unfold Dat.leavesExact; rw [liveAt1_3 t, after1_3], by unfold Dat.leavesExact; rw [liveAt1_4 t, after1_4], by unfold Dat.leavesExact; rw [liveAt1_5 t, after1_5], by unfold Dat.leavesExact; rw [liveAt1_6 t, after1_6]⟩

set_option maxHeartbeats 4800000 in
/-- The body at any point: the closed forms of the two conditions pick the case; the invariant hands the body the
    scratch at what the point before left (at anything before the first point) and takes it back at this point's
    contents; the other kernel's buffers and the generator register ride along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  obtain ⟨e0, e1, e2, e3, e4, e5, e6⟩ := leaves1_in V c t
  rw [e0, e1, e2, e3, e4, e5, e6]
  have hN : t.val < 128 := lt_of_lt_of_eq t.isLt (show cfg1.N = 128 from N_1)
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold soutA1; (try dsimp only)
    by_cases hz : t.val = 0
    · rw [PhiS1_castSucc V c t, PhiS1_zero V c _ _ hz, PhiA1_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA1 V c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexists _; iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverA1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun h => h0 (by rw [h])
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold outC1 soutC1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC1 V c t h0 h1 _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, ⟨%e7, H7⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (coverC1 V c t h0 h1 _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold soutB1; (try dsimp only)
      rw [PhiS1_castSucc V c t, PhiS1_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB1 V c t h0 h1 _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, ⟨%es, HS⟩⟩
      isplitl [HS Hoth Hg]
      · isplitl [HS Hoth]
        · isplitl [HS]
          · unfold owns; iexists _; isplitr
            swap; · iexact HS
            ipureintro; exact View.read_writes_of_cover _ _ _ _ _ (scoverB1 V c t h0 h1 _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

/-- Entering the region: the class invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Leaving it: the running sum's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hoth⟩, Hg⟩
  isplitl [HS Hoth]
  · isplitl [HS]
    · iexists _; iexact HS
    iexact Hoth
  iexact Hg

end

end Cert.KernelIdeal.Fr

end
-- ==== Proof.KIMain.lean ====
/-
  The whole program: sixteen host operations (the weight slices and the bf16 splits of the first hop's operands),
  the first hop's region, sixteen more host operations (the same for the second hop, on the first hop's result),
  the second hop's region. The buffer contents at each boundary are a fold from the launch memory; every weakly
  fair execution ends with every unscoped buffer at the last boundary's contents.
-/
import proofs.«138981_j12025908429033_2_alg».proof.Proof.KIHalf0
import proofs.«138981_j12025908429033_2_alg».proof.Proof.KIHalf1
import proofs.«138981_j12025908429033_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- At launch. -/
abbrev W0 : Dev nD → Valuation τ sig (Elt F) := fun c b => m (c, b)
/-- After the first stretch of host operations: the first region's entry. -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second stretch of host operations: the second region's entry. -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## No host operation and no region writes an argument -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

/-- The adjacency matrix is the first input window of both regions; the embeddings and the weights are staged by
    neither. -/
theorem W2_main_arg1 (c : Dev nD) : W2 m c (Proc.devRef .tc main_arg1) = W1 m c (Proc.devRef .tc main_arg1) :=
  (W2_arr m c 0).trans (((dat0 (E1 m) c).arrAt_in 0 rfl _).trans (A_eq0 (E1 m) c 0))
theorem W4_main_arg1' (c : Dev nD) : W4 m c (Proc.devRef .tc main_arg1) = W3 m c (Proc.devRef .tc main_arg1) :=
  (W4_arr m c 0).trans (((dat1 (E3 m) c).arrAt_in 0 rfl _).trans (A_eq1 (E3 m) c 0))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_of_ne m c main_arg0 (by decide)).trans <| (W1_of m c main_arg0 (by decide)).trans rfl
theorem W4_main_arg1 (c : Dev nD) : W4 m c (Proc.devRef .tc main_arg1) = m ((c : Thread nD τ).loc main_arg1) :=
  (W4_main_arg1' m c).trans <| (W3_of m c main_arg1 (by decide)).trans <| (W2_main_arg1 m c).trans <| (W1_of m c main_arg1 (by decide)).trans rfl
theorem W4_main_arg2 (c : Dev nD) : W4 m c (Proc.devRef .tc main_arg2) = m ((c : Thread nD τ).loc main_arg2) :=
  (W4_of_ne m c main_arg2 (by decide)).trans <| (W3_of m c main_arg2 (by decide)).trans <| (W2_of_ne m c main_arg2 (by decide)).trans <| (W1_of m c main_arg2 (by decide)).trans rfl

/-! ## The proof data family and the thread state -/

abbrev padm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) padm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at the contents before it, left with the region's
    arrays at what its write-backs leave and every other buffer as entered. The scratch and the other kernel's
    buffers go into the invariant and come back; the generator register rides along; nothing is owed. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest (Ix := Unit) (Name := ℕ) (U := UR sig nD τ) (Lvl := ℕ) (Val := Elt F) spec0 c)
        ⊢ (Pipeline.ΦA spec0 c : sProp 𝕄) := fun P => by
      unfold Pipeline.ΦA
      iintro ⟨Hp, -, Hr⟩
      isplitl [Hr]; · iexact Hr
      iexact Hp
    exact (h1 _).trans (hin0 (E1 m) c)
  hout c := by
    rw [Pipeline.ownSems0_none]
    have h2 : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h2
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with the region's
    arrays at what its write-backs leave and every other buffer as entered. The scratch and the other kernel's
    buffers go into the invariant and come back; the generator register rides along; nothing is owed. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : ∀ P : sProp 𝕄, iprop((∃ r, prngReg c r) ∗ P ∗ Pipeline.scopedRest (Ix := Unit) (Name := ℕ) (U := UR sig nD τ) (Lvl := ℕ) (Val := Elt F) spec1 c)
        ⊢ (Pipeline.ΦA spec1 c : sProp 𝕄) := fun P => by
      unfold Pipeline.ΦA
      iintro ⟨Hp, -, Hr⟩
      isplitl [Hr]; · iexact Hr
      iexact Hp
    exact (h1 _).trans (hin1 (E3 m) c)
  hout c := by
    rw [Pipeline.ownSems0_none]
    have h2 : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h2
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev sgs : List (Pipeline.Seg (pcfgs (F := F)) padm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (sgs m) := (main_chain c).trans (by chain_rfl)

set_option backward.isDefEq.respectTransparency.types false in
/-- Every weakly fair execution of the program from memory `m` with zero counters terminates, nothing faulting, and
    ends with every unscoped buffer at the last boundary's contents. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) padm (pdats m) () cellOf_inj emb₁ defs₀ 𝒱₀ L lv m ρ main (sgs m)
    (fun c Q => by rw [main_run m c])
    (by simp only [sgs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Fr

end
-- ==== Proof.KClaims.lean ====
/-
  The four claims beside the value claim: each of the three programs runs and leaves its arguments as launched, and the
  idealized kernel differs from the kernel only by the sanctioned rewrite  `extf (truncf v) ↦ v`  at four sites.
-/
import proofs.«138981_j12025908429033_2_alg».proof.Defs
import proofs.«138981_j12025908429033_2_alg».proof.Proof.KMain
import proofs.«138981_j12025908429033_2_alg».proof.Proof.KIMain
import proofs.«138981_j12025908429033_2_alg».proof.Proof.Gen.ReferenceIdeal.Run
import proofs.«138981_j12025908429033_2_alg».proof.Proof.Gen.ReferenceIdeal
import proofs.«138981_j12025908429033_2_alg».proof.Proof.Gen.Pre_finite_inputs
import proofs.«138981_j12025908429033_2_alg».proof.Proof.Gen.KernelIdeal
import proofs.«138981_j12025908429033_2_alg».proof.Proof.Gen.Kernel

noncomputable section

namespace Cert.Proof.Claims

open Idealize.ShloMosaic Idealize.SL.Sem

/-- The kernel's program runs and leaves its arguments as launched. -/
theorem frame_k : Cert.frame_Kernel := fun m ρ _ => Cert.Kernel.Fr.frame m ρ

/-- The idealized kernel's program runs and leaves its arguments as launched. -/
theorem frame_ki : Cert.frame_KernelIdeal := fun m ρ _ => Cert.KernelIdeal.Fr.frame m ρ

/-- The idealized reference's program runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The four rewritten sites: a widening of a narrowing is the identity on extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

end Cert.Proof.Claims

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.KIHost.lean ====
/-
  The host operations of the program, read at one entry over the extended reals.

  Before each hop the host prepares seven arrays: the adjacency matrix unchanged; the features `x` and their
  correction `x - x` (the two parts of the 16-bit split, whose format changes are the identity on extended reals);
  the upper 64 rows of the hop's weight matrix and their correction, and the lower 64 rows and their correction.
  The weight matrix of hop `h` is slice `h` of the `[2, 128, 64]` weights, reshaped to `[128, 64]`: its entry `(k, j)`
  is the weights at `(h, k, j)`; the lower rows are entries `(64 + k, j)`.
-/
import proofs.«138981_j12025908429033_2_alg».proof.Proof.KIMain
import proofs.«138981_j12025908429033_2_alg».proof.Proof.LibERealSums
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Idealize.ShloMosaic.ValueIdx

/-! ## A weight matrix and its two halves, at an entry -/

/-- Slice `0` of the weights, reshaped to `[128, 64]`, at `(k, j)` is the weights at `(0, k, j)`. -/
theorem wmat0_apply {α : Type} (W : S2x128x64.Idx → α) (k : Fin 128) (j : Fin 64) :
    shapeCast S128x64 (extractStridedSlice S1x128x64 ![0, 0, 0] W Facts₀.slices_S2x128x64_S1x128x64_0_0_0)
        Facts₀.shapeCasts_S1x128x64_S128x64 (ix2 k j)
      = W (ix3 (0 : Fin 2) k j) :=
  (shapeCast_1ab_ab_apply _ _ k j).trans
    (extractStridedSlice_apply ![0, 0, 0] W _ _ (ix3 (0 : Fin 2) k j) fun a => by
      match a with
      | ⟨0, _⟩ => rfl
      | ⟨1, _⟩ => exact (Nat.zero_add _).symm
      | ⟨2, _⟩ => exact (Nat.zero_add _).symm)

/-- Slice `1` of the weights, reshaped to `[128, 64]`, at `(k, j)` is the weights at `(1, k, j)`. -/
theorem wmat1_apply {α : Type} (W : S2x128x64.Idx → α) (k : Fin 128) (j : Fin 64) :
    shapeCast S128x64 (extractStridedSlice S1x128x64 ![1, 0, 0] W Facts₀.slices_S2x128x64_S1x128x64_1_0_0)
        Facts₀.shapeCasts_S1x128x64_S128x64 (ix2 k j)
      = W (ix3 (1 : Fin 2) k j) :=
  (shapeCast_1ab_ab_apply _ _ k j).trans
    (extractStridedSlice_apply ![1, 0, 0] W _ _ (ix3 (1 : Fin 2) k j) fun a => by
      match a with
      | ⟨0, _⟩ => rfl
      | ⟨1, _⟩ => exact (Nat.zero_add _).symm
      | ⟨2, _⟩ => exact (Nat.zero_add _).symm)

/-- The upper 64 rows of a `[128, 64]` matrix at `(k, j)` are the matrix at `(k, j)`. -/
theorem top_apply {α : Type} (V : S128x64.Idx → α) (k j : Fin 64) :
    extractStridedSlice S64x64 ![0, 0] V Facts₀.slices_S128x64_S64x64_0_0 (ix2 k j)
      = V (ix2 (⟨k.val, by have := k.isLt; omega⟩ : Fin 128) j) :=
  slice2_axis0_apply 0 V _ k j _ (Nat.zero_add _).symm

/-- The lower 64 rows of a `[128, 64]` matrix at `(k, j)` are the matrix at `(64 + k, j)`. -/
theorem bot_apply {α : Type} (V : S128x64.Idx → α) (k j : Fin 64) :
    extractStridedSlice S64x64 ![64, 0] V Facts₀.slices_S128x64_S64x64_64_0 (ix2 k j)
      = V (ix2 (⟨64 + k.val, by have := k.isLt; omega⟩ : Fin 128) j) :=
  slice2_axis0_apply 64 V _ k j _ rfl

variable (m : (ℓ : Loc nD τ sig) → Buf (Elt Ideal) ℓ) (c : Dev nD)

/-! ## The three arguments as launched -/

/-- The features `x`, as launched. -/
abbrev argX : S16384x64.Idx → EReal := m ((c : Thread nD τ).loc main_arg0)
/-- The adjacency matrix, as launched. -/
abbrev argAdj : S16384x16384.Idx → EReal := m ((c : Thread nD τ).loc main_arg1)
/-- The weights, as launched. -/
abbrev argW : S2x128x64.Idx → EReal := m ((c : Thread nD τ).loc main_arg2)

/-! ## The first hop's operands -/

/-- The adjacency matrix enters the first hop as launched. -/
theorem e1_adj : E1 m c main_arg1 = argAdj m c :=
  W1_of m c main_arg1 (by decide)

/-- The first part of the split of `x` is `x`. -/
theorem e1_xh (i : S16384x64.Idx) : E1 m c main_v2 i = argX m c i := by
  have e : (E1 m c main_v2 : S16384x64.Idx → EReal)
      = truncf (F := Ideal) .bf16 (m ((c : Thread nD τ).loc main_arg0)) Facts₀.bitsLt_bf16_f32 := by
    dsimp only [E1, W1, hostOps0]; after_results
  exact congrFun e i

/-- The second part of the split of `x` is `x - x`. -/
theorem e1_xl (i : S16384x64.Idx) : E1 m c main_v5 i = argX m c i - argX m c i := by
  have e : (E1 m c main_v5 : S16384x64.Idx → EReal)
      = truncf (F := Ideal) .bf16 (subf (m ((c : Thread nD τ).loc main_arg0))
          (extf .f32 (truncf .bf16 (m ((c : Thread nD τ).loc main_arg0)) Facts₀.bitsLt_bf16_f32) Facts₀.bitsLt_bf16_f32))
          Facts₀.bitsLt_bf16_f32 := by
    dsimp only [E1, W1, hostOps0]; after_results
  exact congrFun e i

/-- The first hop's upper weight rows. -/
theorem e1_wth (k j : Fin 64) :
    E1 m c main_v8 (ix2 k j) = argW m c (ix3 (0 : Fin 2) (⟨k.val, by have := k.isLt; omega⟩ : Fin 128) j) := by
  have e : (E1 m c main_v8 : S64x64.Idx → EReal)
      = truncf (F := Ideal) .bf16 (extractStridedSlice S64x64 ![0, 0]
          (shapeCast S128x64 (extractStridedSlice S1x128x64 ![0, 0, 0] (m ((c : Thread nD τ).loc main_arg2))
            Facts₀.slices_S2x128x64_S1x128x64_0_0_0) Facts₀.shapeCasts_S1x128x64_S128x64)
          Facts₀.slices_S128x64_S64x64_0_0) Facts₀.bitsLt_bf16_f32 := by
    dsimp only [E1, W1, hostOps0]; after_results; rfl
  refine (congrFun e (ix2 k j)).trans ?_
  refine (truncf_apply (φ := .f32) (ψ := .bf16) _ Facts₀.bitsLt_bf16_f32 _).trans ?_
  refine (top_apply _ k j).trans ?_
  exact wmat0_apply _ _ j

/-- The second part of the 16-bit split of an array `T` is `T - T` at every entry (the format changes are the identity). -/
theorem lo_apply {s : Shape} (T : s.Idx → EReal) (i : s.Idx) :
    truncf (F := Ideal) (φ := .f32) .bf16 (subf (φ := .f32) T (extf (φ := .bf16) .f32
      (truncf (F := Ideal) (φ := .f32) .bf16 T Facts₀.bitsLt_bf16_f32) Facts₀.bitsLt_bf16_f32)) Facts₀.bitsLt_bf16_f32 i
      = T i - T i := rfl

/-- The first hop's correction of the upper weight rows. -/
theorem e1_wtl (k j : Fin 64) :
    E1 m c main_v11 (ix2 k j)
      = argW m c (ix3 (0 : Fin 2) (⟨k.val, by have := k.isLt; omega⟩ : Fin 128) j)
        - argW m c (ix3 (0 : Fin 2) (⟨k.val, by have := k.isLt; omega⟩ : Fin 128) j) := by
  have e : (E1 m c main_v11 : S64x64.Idx → EReal)
      = truncf (F := Ideal) .bf16 (subf
          (extractStridedSlice S64x64 ![0, 0]
            (shapeCast S128x64 (extractStridedSlice S1x128x64 ![0, 0, 0] (m ((c : Thread nD τ).loc main_arg2))
              Facts₀.slices_S2x128x64_S1x128x64_0_0_0) Facts₀.shapeCasts_S1x128x64_S128x64)
            Facts₀.slices_S128x64_S64x64_0_0)
          (extf .f32 (truncf .bf16
            (extractStridedSlice S64x64 ![0, 0]
              (shapeCast S128x64 (extractStridedSlice S1x128x64 ![0, 0, 0] (m ((c : Thread nD τ).loc main_arg2))
                Facts₀.slices_S2x128x64_S1x128x64_0_0_0) Facts₀.shapeCasts_S1x128x64_S128x64)
              Facts₀.slices_S128x64_S64x64_0_0) Facts₀.bitsLt_bf16_f32) Facts₀.bitsLt_bf16_f32))
          Facts₀.bitsLt_bf16_f32 := by
    dsimp only [E1, W1, hostOps0]; after_results; rfl
  refine (congrFun e (ix2 k j)).trans ((lo_apply _ _).trans ?_)
  rw [top_apply, wmat0_apply]

/-- The first hop's lower weight rows. -/
theorem e1_wbh (k j : Fin 64) :
    E1 m c main_v12 (ix2 k j) = argW m c (ix3 (0 : Fin 2) (⟨64 + k.val, by have := k.isLt; omega⟩ : Fin 128) j) := by
  have e : (E1 m c main_v12 : S64x64.Idx → EReal)
      = truncf (F := Ideal) .bf16 (extractStridedSlice S64x64 ![64, 0]
          (shapeCast S128x64 (extractStridedSlice S1x128x64 ![0, 0, 0] (m ((c : Thread nD τ).loc main_arg2))
            Facts₀.slices_S2x128x64_S1x128x64_0_0_0) Facts₀.shapeCasts_S1x128x64_S128x64)
          Facts₀.slices_S128x64_S64x64_64_0) Facts₀.bitsLt_bf16_f32 := by
    dsimp only [E1, W1, hostOps0]; after_results; rfl
  refine (congrFun e (ix2 k j)).trans ?_
  refine (truncf_apply (φ := .f32) (ψ := .bf16) _ Facts₀.bitsLt_bf16_f32 _).trans ?_
  refine (bot_apply _ k j).trans ?_
  exact wmat0_apply _ _ j

/-- The first hop's correction of the lower weight rows. -/
theorem e1_wbl (k j : Fin 64) :
    E1 m c main_v15 (ix2 k j)
      = argW m c (ix3 (0 : Fin 2) (⟨64 + k.val, by have := k.isLt; omega⟩ : Fin 128) j)
        - argW m c (ix3 (0 : Fin 2) (⟨64 + k.val, by have := k.isLt; omega⟩ : Fin 128) j) := by
  have e : (E1 m c main_v15 : S64x64.Idx → EReal)
      = truncf (F := Ideal) .bf16 (subf
          (extractStridedSlice S64x64 ![64, 0]
            (shapeCast S128x64 (extractStridedSlice S1x128x64 ![0, 0, 0] (m ((c : Thread nD τ).loc main_arg2))
              Facts₀.slices_S2x128x64_S1x128x64_0_0_0) Facts₀.shapeCasts_S1x128x64_S128x64)
            Facts₀.slices_S128x64_S64x64_64_0)
          (extf .f32 (truncf .bf16
            (extractStridedSlice S64x64 ![64, 0]
              (shapeCast S128x64 (extractStridedSlice S1x128x64 ![0, 0, 0] (m ((c : Thread nD τ).loc main_arg2))
                Facts₀.slices_S2x128x64_S1x128x64_0_0_0) Facts₀.shapeCasts_S1x128x64_S128x64)
              Facts₀.slices_S128x64_S64x64_64_0) Facts₀.bitsLt_bf16_f32) Facts₀.bitsLt_bf16_f32))
          Facts₀.bitsLt_bf16_f32 := by
    dsimp only [E1, W1, hostOps0]; after_results; rfl
  refine (congrFun e (ix2 k j)).trans ((lo_apply _ _).trans ?_)
  rw [bot_apply, wmat0_apply]

/-! ## The second hop's operands -/

/-- What the first hop left in its result array. -/
abbrev hop1Out : S16384x64.Idx → EReal := W2 m c (Proc.devRef .tc main_v16)

/-- The weights are untouched by the first hop and by the host operations before it. -/
theorem w2_argW : (W2 m c (Proc.devRef .tc main_arg2) : S2x128x64.Idx → EReal) = argW m c :=
  (W2_of_ne m c main_arg2 (by decide)).trans ((W1_of m c main_arg2 (by decide)).trans rfl)

/-- The adjacency matrix enters the second hop as launched. -/
theorem e3_adj : E3 m c main_arg1 = argAdj m c :=
  (W3_of m c main_arg1 (by decide)).trans ((W2_main_arg1 m c).trans ((W1_of m c main_arg1 (by decide)).trans rfl))

/-- The first part of the split of the first hop's result is that result. -/
theorem e3_xh (i : S16384x64.Idx) : E3 m c main_v19 i = hop1Out m c i := by
  have e : (E3 m c main_v19 : S16384x64.Idx → EReal)
      = truncf (F := Ideal) .bf16 (W2 m c (Proc.devRef .tc main_v16)) Facts₀.bitsLt_bf16_f32 := by
    dsimp only [E3, W3, hostOps1]; after_results
  exact congrFun e i

/-- The second part of the split of the first hop's result is that result minus itself. -/
theorem e3_xl (i : S16384x64.Idx) : E3 m c main_v22 i = hop1Out m c i - hop1Out m c i := by
  have e : (E3 m c main_v22 : S16384x64.Idx → EReal)
      = truncf (F := Ideal) .bf16 (subf (W2 m c (Proc.devRef .tc main_v16))
          (extf .f32 (truncf .bf16 (W2 m c (Proc.devRef .tc main_v16)) Facts₀.bitsLt_bf16_f32) Facts₀.bitsLt_bf16_f32))
          Facts₀.bitsLt_bf16_f32 := by
    dsimp only [E3, W3, hostOps1]; after_results
  exact congrFun e i

/-- The second hop's upper weight rows. -/
theorem e3_wth (k j : Fin 64) :
    E3 m c main_v25 (ix2 k j) = argW m c (ix3 (1 : Fin 2) (⟨k.val, by have := k.isLt; omega⟩ : Fin 128) j) := by
  have e : (E3 m c main_v25 : S64x64.Idx → EReal)
      = truncf (F := Ideal) .bf16 (extractStridedSlice S64x64 ![0, 0]
          (shapeCast S128x64 (extractStridedSlice S1x128x64 ![1, 0, 0] (W2 m c (Proc.devRef .tc main_arg2))
            Facts₀.slices_S2x128x64_S1x128x64_1_0_0) Facts₀.shapeCasts_S1x128x64_S128x64)
          Facts₀.slices_S128x64_S64x64_0_0) Facts₀.bitsLt_bf16_f32 := by
    dsimp only [E3, W3, hostOps1]; after_results; rfl
  refine (congrFun e (ix2 k j)).trans ?_
  refine (truncf_apply (φ := .f32) (ψ := .bf16) _ Facts₀.bitsLt_bf16_f32 _).trans ?_
  refine (top_apply _ k j).trans ?_
  refine (wmat1_apply _ _ j).trans ?_
  exact congrFun (w2_argW m c) _

/-- The second hop's correction of the upper weight rows. -/
theorem e3_wtl (k j : Fin 64) :
    E3 m c main_v28 (ix2 k j)
      = argW m c (ix3 (1 : Fin 2) (⟨k.val, by have := k.isLt; omega⟩ : Fin 128) j)
        - argW m c (ix3 (1 : Fin 2) (⟨k.val, by have := k.isLt; omega⟩ : Fin 128) j) := by
  have e : (E3 m c main_v28 : S64x64.Idx → EReal)
      = truncf (F := Ideal) .bf16 (subf
          (extractStridedSlice S64x64 ![0, 0]
            (shapeCast S128x64 (extractStridedSlice S1x128x64 ![1, 0, 0] (W2 m c (Proc.devRef .tc main_arg2))
              Facts₀.slices_S2x128x64_S1x128x64_1_0_0) Facts₀.shapeCasts_S1x128x64_S128x64)
            Facts₀.slices_S128x64_S64x64_0_0)
          (extf .f32 (truncf .bf16
            (extractStridedSlice S64x64 ![0, 0]
              (shapeCast S128x64 (extractStridedSlice S1x128x64 ![1, 0, 0] (W2 m c (Proc.devRef .tc main_arg2))
                Facts₀.slices_S2x128x64_S1x128x64_1_0_0) Facts₀.shapeCasts_S1x128x64_S128x64)
              Facts₀.slices_S128x64_S64x64_0_0) Facts₀.bitsLt_bf16_f32) Facts₀.bitsLt_bf16_f32))
          Facts₀.bitsLt_bf16_f32 := by
    dsimp only [E3, W3, hostOps1]; after_results; rfl
  refine (congrFun e (ix2 k j)).trans ((lo_apply _ _).trans ?_)
  rw [top_apply, wmat1_apply, w2_argW]

/-- The second hop's lower weight rows. -/
theorem e3_wbh (k j : Fin 64) :
    E3 m c main_v29 (ix2 k j) = argW m c (ix3 (1 : Fin 2) (⟨64 + k.val, by have := k.isLt; omega⟩ : Fin 128) j) := by
  have e : (E3 m c main_v29 : S64x64.Idx → EReal)
      = truncf (F := Ideal) .bf16 (extractStridedSlice S64x64 ![64, 0]
          (shapeCast S128x64 (extractStridedSlice S1x128x64 ![1, 0, 0] (W2 m c (Proc.devRef .tc main_arg2))
            Facts₀.slices_S2x128x64_S1x128x64_1_0_0) Facts₀.shapeCasts_S1x128x64_S128x64)
          Facts₀.slices_S128x64_S64x64_64_0) Facts₀.bitsLt_bf16_f32 := by
    dsimp only [E3, W3, hostOps1]; after_results; rfl
  refine (congrFun e (ix2 k j)).trans ?_
  refine (truncf_apply (φ := .f32) (ψ := .bf16) _ Facts₀.bitsLt_bf16_f32 _).trans ?_
  refine (bot_apply _ k j).trans ?_
  refine (wmat1_apply _ _ j).trans ?_
  exact congrFun (w2_argW m c) _

/-- The second hop's correction of the lower weight rows. -/
theorem e3_wbl (k j : Fin 64) :
    E3 m c main_v32 (ix2 k j)
      = argW m c (ix3 (1 : Fin 2) (⟨64 + k.val, by have := k.isLt; omega⟩ : Fin 128) j)
        - argW m c (ix3 (1 : Fin 2) (⟨64 + k.val, by have := k.isLt; omega⟩ : Fin 128) j) := by
  have e : (E3 m c main_v32 : S64x64.Idx → EReal)
      = truncf (F := Ideal) .bf16 (subf
          (extractStridedSlice S64x64 ![64, 0]
            (shapeCast S128x64 (extractStridedSlice S1x128x64 ![1, 0, 0] (W2 m c (Proc.devRef .tc main_arg2))
              Facts₀.slices_S2x128x64_S1x128x64_1_0_0) Facts₀.shapeCasts_S1x128x64_S128x64)
            Facts₀.slices_S128x64_S64x64_64_0)
          (extf .f32 (truncf .bf16
            (extractStridedSlice S64x64 ![64, 0]
              (shapeCast S128x64 (extractStridedSlice S1x128x64 ![1, 0, 0] (W2 m c (Proc.devRef .tc main_arg2))
                Facts₀.slices_S2x128x64_S1x128x64_1_0_0) Facts₀.shapeCasts_S1x128x64_S128x64)
              Facts₀.slices_S128x64_S64x64_64_0) Facts₀.bitsLt_bf16_f32) Facts₀.bitsLt_bf16_f32))
          Facts₀.bitsLt_bf16_f32 := by
    dsimp only [E3, W3, hostOps1]; after_results; rfl
  refine (congrFun e (ix2 k j)).trans ((lo_apply _ _).trans ?_)
  rw [bot_apply, wmat1_apply, w2_argW]

end Cert.KernelIdeal.Fr

end
-- ==== Proof.Spec.lean ====
/-
  The mathematical meaning of the two-hop neighbourhood aggregation, over the extended reals.

  With `adj : [16384, 16384]`, `x : [16384, 64]` and `w : [2, 128, 64]`:

    agg adj x r k   = ∑ l, adj (r, l) * x (l, k)                                   (the product  adj · x)
    hop h adj w x   = tanh ( ∑ k < 64, agg adj x r k * w (h, k, j)
                           + ∑ k < 64, x (r, k)     * w (h, 64 + k, j) )            at (r, j)
    result adj w x  = hop 1 adj w (hop 0 adj w x)

  The argument of `tanh` is the row `[agg | x]` (of length 128) times the `h`-th weight matrix, written as the sum of
  its two halves: columns 0 … 63 of the row are the aggregate, columns 64 … 127 are `x` itself.
-/
import Idealize.ShloMosaic.PureOps.Ideal
import Idealize.ShloMosaic.Lib.ValueIdx

noncomputable section

open scoped BigOperators

namespace Cert.Spec

open Idealize.ShloMosaic
open Idealize.ShloMosaic.ValueIdx

/-- The shape of the node features, `[16384, 64]`. -/
abbrev SNH : Shape := ⟨2, ![16384, 64]⟩
/-- The shape of the adjacency matrix, `[16384, 16384]`. -/
abbrev SNN : Shape := ⟨2, ![16384, 16384]⟩
/-- The shape of the two weight matrices, `[2, 128, 64]`. -/
abbrev SW : Shape := ⟨3, ![2, 128, 64]⟩

/-- The neighbour aggregate: entry `(r, k)` of the matrix product `adj · x`. -/
def agg (adj : SNN.Idx → EReal) (x : SNH.Idx → EReal) (r : Fin 16384) (k : Fin 64) : EReal :=
  ∑ l : Fin 16384, adj (ix2 r l) * x (ix2 l k)

/-- The argument of `tanh` in one hop at `(r, j)`: the row `[agg | x]` times the `h`-th weight matrix, as the sum
    of the aggregate's half (weight rows `0 … 63`) and `x`'s half (weight rows `64 … 127`). -/
def pre (h : Fin 2) (adj : SNN.Idx → EReal) (w : SW.Idx → EReal) (x : SNH.Idx → EReal) (r : Fin 16384) (j : Fin 64) :
    EReal :=
  (∑ k : Fin 64, agg adj x r k * w (ix3 h (⟨k.val, by omega⟩ : Fin 128) j))
    + (∑ k : Fin 64, x (ix2 r k) * w (ix3 h (⟨64 + k.val, by omega⟩ : Fin 128) j))

/-- One hop: `tanh` of `pre` at every entry. -/
def hop (h : Fin 2) (adj : SNN.Idx → EReal) (w : SW.Idx → EReal) (x : SNH.Idx → EReal) : SNH.Idx → EReal :=
  fun i => Ideal.tanh (pre h adj w x (i 0) (i 1))

/-- Two hops: the first with weight matrix `0`, the second with weight matrix `1`. -/
def result (adj : SNN.Idx → EReal) (w : SW.Idx → EReal) (x : SNH.Idx → EReal) : SNH.Idx → EReal :=
  hop 1 adj w (hop 0 adj w x)

/-- A hop read at the index with coordinates `(r, j)`. -/
theorem hop_ix2 (h : Fin 2) (adj : SNN.Idx → EReal) (w : SW.Idx → EReal) (x : SNH.Idx → EReal) (r : Fin 16384)
    (j : Fin 64) : hop h adj w x (ix2 r j) = Ideal.tanh (pre h adj w x r j) := rfl

end Cert.Spec

end
-- ==== Proof.RefSpec.lean ====
/-
  The reference program, read at the extended reals, computes `Cert.Spec.result`.

  The reference is two rounds of:  a product `adj · x`;  the row-wise concatenation `[adj · x | x]` (128 columns);
  a product of that with one `[128, 64]` weight matrix (a slice of the `[2, 128, 64]` weights);  `tanh`.
  Read at one entry `(r, j)`: the product over 128 columns splits into its two halves (columns `0 … 63` read the
  aggregate, columns `64 … 127` read `x`), which is `Cert.Spec.pre`. No finiteness is needed: both sides are the same
  sums of the same products.
-/
import proofs.«138981_j12025908429033_2_alg».proof.Proof.Gen.ReferenceIdeal.Read
import proofs.«138981_j12025908429033_2_alg».proof.Proof.LibERealSums
import proofs.«138981_j12025908429033_2_alg».proof.Proof.Spec

noncomputable section

open scoped BigOperators

namespace Cert.RefSpec

open Cert.ReferenceIdeal Cert.ReferenceIdeal.Gen Cert.ReferenceIdeal.Read
open Idealize.ShloMosaic Idealize.ShloMosaic.ValueIdx
open Cert.Spec Cert.LibERealSums

/-! ## Indices -/

/-- Two rank-2 indices with the same coordinates are equal. -/
theorem idx2_ext {n0 n1 : Nat} (i j : (⟨2, ![n0, n1]⟩ : Shape).Idx) (h0 : (i 0).val = (j 0).val)
    (h1 : (i 1).val = (j 1).val) : i = j :=
  funext fun a => Fin.ext (by
    match a with
    | ⟨0, _⟩ => exact h0
    | ⟨1, _⟩ => exact h1)

/-- Two rank-3 indices with the same coordinates are equal. -/
theorem idx3_ext {n0 n1 n2 : Nat} (i j : (⟨3, ![n0, n1, n2]⟩ : Shape).Idx) (h0 : (i 0).val = (j 0).val)
    (h1 : (i 1).val = (j 1).val) (h2 : (i 2).val = (j 2).val) : i = j :=
  funext fun a => Fin.ext (by
    match a with
    | ⟨0, _⟩ => exact h0
    | ⟨1, _⟩ => exact h1
    | ⟨2, _⟩ => exact h2)

/-! ## The product `adj · y` at an entry -/

/-- The reference's first product at `(r, k)`, for any right operand `y`, is the aggregate `∑ l, adj (r, l) * y (l, k)`. -/
theorem dot_agg (adj : (⟨S16384x16384, .f32⟩ : BufTy).Contents (Elt Ideal)) (y : (⟨S16384x64, .f32⟩ : BufTy).Contents (Elt Ideal))
    (r : Fin 16384) (k : Fin 64) :
    val_main_v0 (F := Ideal) y adj (ix2 r k) = agg adj y r k := by
  rw [val_main_v0_apply]
  unfold agg
  refine Finset.sum_congr rfl fun l _ => ?_
  rw [show lidx_main_v0 (ix2 r k) l = ix2 r l from idx2_ext _ _ rfl rfl,
    show ridx_main_v0 (ix2 r k) l = ix2 l k from idx2_ext _ _ rfl rfl]

/-! ## The concatenation `[a | b]` at an entry -/

/-- The concatenation of two `[16384, 64]` arrays along the columns, at a column below 64, is the first array there. -/
theorem concat_left {α : Type} (a b : S16384x64.Idx → α) (r : Fin 16384) (k : Fin 64) :
    concatenate S16384x128 1 [⟨S16384x64, a⟩, ⟨S16384x64, b⟩] Facts₀.concatenates_S16384x64_S16384x64_S16384x128_d1
        (ix2 r (⟨k.val, by have := k.isLt; omega⟩ : Fin 128))
      = a (ix2 r k) :=
  concatenate_pair_apply_left (t := S16384x128) (s₁ := S16384x64) (s₂ := S16384x64) 1 a b _ _ rfl (ix2 r k) (fun c => by
    match c with
    | ⟨0, _⟩ => rfl
    | ⟨1, _⟩ => rfl)

/-- … and at column `64 + k` it is the second array at column `k`. -/
theorem concat_right {α : Type} (a b : S16384x64.Idx → α) (r : Fin 16384) (k : Fin 64) :
    concatenate S16384x128 1 [⟨S16384x64, a⟩, ⟨S16384x64, b⟩] Facts₀.concatenates_S16384x64_S16384x64_S16384x128_d1
        (ix2 r (⟨64 + k.val, by have := k.isLt; omega⟩ : Fin 128))
      = b (ix2 r k) :=
  concatenate_pair_apply_right (t := S16384x128) (s₁ := S16384x64) (s₂ := S16384x64) 1 a b _ _ rfl rfl (ix2 r k)
    (fun c hc => by
      match c with
      | ⟨0, _⟩ => rfl
      | ⟨1, _⟩ => exact absurd rfl hc)
    (by show k.val + 64 = 64 + k.val; omega)

/-! ## The two weight matrices at an entry -/

/-- The first weight matrix (slice `0` of the weights, reshaped to `[128, 64]`) at `(k, j)` is the weights at `(0, k, j)`. -/
theorem w0_apply (w : (⟨S2x128x64, .f32⟩ : BufTy).Contents (Elt Ideal)) (k : Fin 128) (j : Fin 64) :
    val_main_v3 (F := Ideal) w (ix2 k j) = w (ix3 (0 : Fin 2) k j) := by
  rw [val_main_v3_apply, val_main_v2_apply]
  refine congrArg w (idx3_ext _ _ rfl ?_ ?_)
  · show (k.val * 64 + j.val) / 64 % 128 = k.val
    have := k.isLt; have := j.isLt; omega
  · show (k.val * 64 + j.val) % 64 = j.val
    have := k.isLt; have := j.isLt; omega

/-- The second weight matrix (slice `1`) at `(k, j)` is the weights at `(1, k, j)`. -/
theorem w1_apply (w : (⟨S2x128x64, .f32⟩ : BufTy).Contents (Elt Ideal)) (k : Fin 128) (j : Fin 64) :
    val_main_v9 (F := Ideal) w (ix2 k j) = w (ix3 (1 : Fin 2) k j) := by
  rw [val_main_v9_apply, val_main_v8_apply]
  refine congrArg w (idx3_ext _ _ rfl ?_ ?_)
  · show (k.val * 64 + j.val) / 64 % 128 = k.val
    have := k.isLt; have := j.isLt; omega
  · show (k.val * 64 + j.val) % 64 = j.val
    have := k.isLt; have := j.isLt; omega

/-! ## The first hop -/

/-- The argument of the first `tanh` at `(r, j)` is `pre 0`. -/
theorem v4_apply (x : (⟨S16384x64, .f32⟩ : BufTy).Contents (Elt Ideal)) (adj : (⟨S16384x16384, .f32⟩ : BufTy).Contents (Elt Ideal))
    (w : (⟨S2x128x64, .f32⟩ : BufTy).Contents (Elt Ideal)) (r : Fin 16384) (j : Fin 64) :
    val_main_v4 (F := Ideal) x adj w (ix2 r j) = pre 0 adj w x r j := by
  rw [val_main_v4_apply, sum_halves (M := EReal)]
  unfold pre
  refine congrArg₂ (· + ·) ?_ ?_
  · refine Finset.sum_congr rfl fun k _ => ?_
    rw [show lidx_main_v4 (ix2 r j) (⟨k.val, by have := k.isLt; omega⟩ : Fin 128)
          = ix2 r (⟨k.val, by have := k.isLt; omega⟩ : Fin 128) from idx2_ext _ _ rfl rfl,
      show ridx_main_v4 (ix2 r j) (⟨k.val, by have := k.isLt; omega⟩ : Fin 128)
          = ix2 (⟨k.val, by have := k.isLt; omega⟩ : Fin 128) j from idx2_ext _ _ rfl rfl,
      w0_apply]
    unfold val_main_v1
    rw [concat_left, dot_agg]
  · refine Finset.sum_congr rfl fun k _ => ?_
    rw [show lidx_main_v4 (ix2 r j) (⟨64 + k.val, by have := k.isLt; omega⟩ : Fin 128)
          = ix2 r (⟨64 + k.val, by have := k.isLt; omega⟩ : Fin 128) from idx2_ext _ _ rfl rfl,
      show ridx_main_v4 (ix2 r j) (⟨64 + k.val, by have := k.isLt; omega⟩ : Fin 128)
          = ix2 (⟨64 + k.val, by have := k.isLt; omega⟩ : Fin 128) j from idx2_ext _ _ rfl rfl,
      w0_apply]
    unfold val_main_v1
    rw [concat_right]

/-- The reference's first hop is `hop 0`. -/
theorem v5_eq (x : (⟨S16384x64, .f32⟩ : BufTy).Contents (Elt Ideal)) (adj : (⟨S16384x16384, .f32⟩ : BufTy).Contents (Elt Ideal))
    (w : (⟨S2x128x64, .f32⟩ : BufTy).Contents (Elt Ideal)) :
    val_main_v5 (F := Ideal) x adj w = hop 0 adj w x := by
  funext i
  obtain ⟨r, j, rfl⟩ : ∃ (r : Fin 16384) (j : Fin 64), i = ix2 r j := ⟨i 0, i 1, eq_ix2 i⟩
  rw [val_main_v5_apply, Ideal.hostUnary_tanh_def, v4_apply, hop_ix2]

/-! ## The second hop -/

/-- The second product at `(r, k)` is the aggregate of the first hop's result. -/
theorem v6_apply (x : (⟨S16384x64, .f32⟩ : BufTy).Contents (Elt Ideal)) (adj : (⟨S16384x16384, .f32⟩ : BufTy).Contents (Elt Ideal))
    (w : (⟨S2x128x64, .f32⟩ : BufTy).Contents (Elt Ideal)) (r : Fin 16384) (k : Fin 64) :
    val_main_v6 (F := Ideal) x adj w (ix2 r k) = agg adj (hop 0 adj w x) r k := by
  rw [← v5_eq]
  exact dot_agg adj (val_main_v5 (F := Ideal) x adj w) r k

/-- The argument of the second `tanh` at `(r, j)` is `pre 1` of the first hop's result. -/
theorem v10_apply (x : (⟨S16384x64, .f32⟩ : BufTy).Contents (Elt Ideal)) (adj : (⟨S16384x16384, .f32⟩ : BufTy).Contents (Elt Ideal))
    (w : (⟨S2x128x64, .f32⟩ : BufTy).Contents (Elt Ideal)) (r : Fin 16384) (j : Fin 64) :
    val_main_v10 (F := Ideal) x adj w (ix2 r j) = pre 1 adj w (hop 0 adj w x) r j := by
  rw [val_main_v10_apply, sum_halves (M := EReal)]
  unfold pre
  refine congrArg₂ (· + ·) ?_ ?_
  · refine Finset.sum_congr rfl fun k _ => ?_
    rw [show lidx_main_v10 (ix2 r j) (⟨k.val, by have := k.isLt; omega⟩ : Fin 128)
          = ix2 r (⟨k.val, by have := k.isLt; omega⟩ : Fin 128) from idx2_ext _ _ rfl rfl,
      show ridx_main_v10 (ix2 r j) (⟨k.val, by have := k.isLt; omega⟩ : Fin 128)
          = ix2 (⟨k.val, by have := k.isLt; omega⟩ : Fin 128) j from idx2_ext _ _ rfl rfl,
      w1_apply]
    unfold val_main_v7
    rw [concat_left, v6_apply]
  · refine Finset.sum_congr rfl fun k _ => ?_
    rw [show lidx_main_v10 (ix2 r j) (⟨64 + k.val, by have := k.isLt; omega⟩ : Fin 128)
          = ix2 r (⟨64 + k.val, by have := k.isLt; omega⟩ : Fin 128) from idx2_ext _ _ rfl rfl,
      show ridx_main_v10 (ix2 r j) (⟨64 + k.val, by have := k.isLt; omega⟩ : Fin 128)
          = ix2 (⟨64 + k.val, by have := k.isLt; omega⟩ : Fin 128) j from idx2_ext _ _ rfl rfl,
      w1_apply]
    unfold val_main_v7
    rw [concat_right, v5_eq]

/-! ## The reference is the specification -/

/-- THE REFERENCE, read at the extended reals, is `Cert.Spec.result`: two hops of
    `tanh ([adj · x | x] · W h)`, the first with `W 0`, the second with `W 1`. -/
theorem ref_eq (x0 : (⟨S16384x64, .f32⟩ : BufTy).Contents (Elt Ideal)) (x1 : (⟨S16384x16384, .f32⟩ : BufTy).Contents (Elt Ideal))
    (x2 : (⟨S2x128x64, .f32⟩ : BufTy).Contents (Elt Ideal)) :
    val_main_v11 (F := Ideal) x0 x1 x2 = Cert.Spec.result x1 x2 x0 := by
  funext i
  obtain ⟨r, j, rfl⟩ : ∃ (r : Fin 16384) (j : Fin 64), i = ix2 r j := ⟨i 0, i 1, eq_ix2 i⟩
  rw [val_main_v11_apply, Ideal.hostUnary_tanh_def, v10_apply]
  unfold result
  rw [hop_ix2]

end Cert.RefSpec

end
-- ==== Proof.PreFin.lean ====
/-
  The precondition "every input is finite", decoded.

  The precondition is the conjunction, over the three input arrays, of "every entry `v` has `|v| < +∞`". On the
  extended reals `|v| = max v (-v)`, and `max v (-v) < ⊤` says exactly that `v` is neither `⊥` nor `⊤`:
  at `⊥` the maximum is `-⊥ = ⊤`, at `⊤` it is `⊤`, and at a real it is a real.
-/
import proofs.«138981_j12025908429033_2_alg».proof.Pre_finite_inputs
import proofs.«138981_j12025908429033_2_alg».proof.Proof.Gen.Pre_finite_inputs
import proofs.«138981_j12025908429033_2_alg».proof.Proof.LibERealSums
import Idealize.ShloMosaic.Lib.ReduceAll
import Idealize.ShloMosaic.Lib.ValueIdx

noncomputable section

namespace Cert.PreFin

open Idealize.ShloMosaic
open Cert.LibERealSums Cert.Pre_finite_inputs

/-- The scalar shape has one index. -/
instance : Subsingleton S_.Idx := ⟨fun _ _ => funext fun d => d.elim0⟩

/-- The pattern `0x7F800000` denotes `+∞`. -/
theorem ofBits_inf : Ideal.ofBits .f32 0x7F800000#32 = ⊤ := by
  simp [Ideal.ofBits, Ideal.ieee]

/-- An extended real whose absolute value `max v (-v)` is below `+∞` is finite. -/
theorem isFin_of_abs_lt_top (v : EReal) (h : max v (-v) < ⊤) : IsFin v := by
  induction v using EReal.rec with
  | bot => rw [EReal.neg_bot, max_eq_right bot_le] at h; exact absurd h (lt_irrefl _)
  | top => rw [EReal.neg_top, max_eq_left bot_le] at h; exact absurd h (lt_irrefl _)
  | coe r => exact isFin_coe r

/-- The element test of the precondition, `|v| < +∞` as a one-bit word, says that `v` is finite. -/
theorem isFin_of_cmp (v : EReal) (h : Ideal.cmp .olt (max v (-v)) (Ideal.ofBits .f32 0x7F800000#32) = 1#1) : IsFin v := by
  rw [ofBits_inf] at h
  refine isFin_of_abs_lt_top v ?_
  by_contra hn
  have h0 : Ideal.cmp .olt (max v (-v)) ⊤ = 0#1 := by
    unfold Ideal.cmp
    simp only [decide_eq_false hn]
    rfl
  rw [h0] at h
  exact absurd h (by decide)

variable [Cert.Pre_finite_inputs.Facts]

/-- THE PRECONDITION DECODED: if the finiteness test of the three inputs answers `1`, every entry of every input is
    finite. -/
theorem fin_of_pre (a0 : FVec Ideal S16384x64 .f32) (a1 : FVec Ideal S16384x16384 .f32) (a2 : FVec Ideal S2x128x64 .f32)
    (h : Cert.Pre_finite_inputs.fn (F := Ideal) a0 a1 a2 = (fun _ => 1#1)) :
    (∀ i, IsFin (a0 i)) ∧ (∀ i, IsFin (a1 i)) ∧ (∀ i, IsFin (a2 i)) := by
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact isFin_of_cmp (a0 i) (Host.reduce_andi_all _ _ _ _ _ h0' i)
  · exact isFin_of_cmp (a1 i) (Host.reduce_andi_all _ _ _ _ _ h1 i)
  · exact isFin_of_cmp (a2 i) (Host.reduce_andi_all _ _ _ _ _ h2 i)

end Cert.PreFin

end
-- ==== Proof.SpecFin.lean ====
/-
  Finiteness of the specification's values.

  With a finite adjacency matrix and finite features the aggregate `adj · x` is finite (a finite sum of products of
  finite extended reals); with finite weights too, so is the argument of `tanh`. The result of a hop is finite
  WHATEVER its operands are, because the hyperbolic tangent of an extended real is finite.
-/
import proofs.«138981_j12025908429033_2_alg».proof.Proof.LibERealSums
import proofs.«138981_j12025908429033_2_alg».proof.Proof.Spec

noncomputable section

open scoped BigOperators

namespace Cert.Spec

open Idealize.ShloMosaic Idealize.ShloMosaic.ValueIdx
open Cert.LibERealSums

/-- A hop's value is finite at every entry, whatever the operands: it is a hyperbolic tangent. -/
theorem hop_isFin (h : Fin 2) (adj : SNN.Idx → EReal) (w : SW.Idx → EReal) (x : SNH.Idx → EReal) (i : SNH.Idx) :
    IsFin (hop h adj w x i) :=
  isFin_tanh _

/-- The result is finite at every entry. -/
theorem result_isFin (adj : SNN.Idx → EReal) (w : SW.Idx → EReal) (x : SNH.Idx → EReal) (i : SNH.Idx) :
    IsFin (result adj w x i) :=
  hop_isFin 1 adj w _ i

/-- The aggregate of finite operands is finite. -/
theorem agg_isFin (adj : SNN.Idx → EReal) (x : SNH.Idx → EReal) (hadj : ∀ i, IsFin (adj i)) (hx : ∀ i, IsFin (x i))
    (r : Fin 16384) (k : Fin 64) : IsFin (agg adj x r k) :=
  isFin_sum_univ _ fun l => (hadj _).mul (hx _)

/-- The argument of `tanh` is finite when the adjacency matrix, the weights and the features are. -/
theorem pre_isFin (h : Fin 2) (adj : SNN.Idx → EReal) (w : SW.Idx → EReal) (x : SNH.Idx → EReal)
    (hadj : ∀ i, IsFin (adj i)) (hw : ∀ i, IsFin (w i)) (hx : ∀ i, IsFin (x i)) (r : Fin 16384) (j : Fin 64) :
    IsFin (pre h adj w x r j) :=
  (isFin_sum_univ _ fun k => (agg_isFin adj x hadj hx r k).mul (hw _)).add
    (isFin_sum_univ _ fun k => (hx _).mul (hw _))

end Cert.Spec

end
-- ==== Proof.KIAlg.lean ====
/-
  The value claim assembled.

  Each hop's region leaves in its result array the specification's hop of what it was given (hypotheses `F0`, `F1`
  below, one per region, under finiteness of the adjacency matrix, the weights and the hop's input features). The
  precondition gives the finiteness of the arguments; the first hop's result, being a hyperbolic tangent, is finite
  whatever its operands, which is the finiteness the second hop asks of its input. So the kernel's program ends with its result array at  `hop 1 (hop 0 x)`,  which is
  `Cert.Spec.result`; the reference's program ends with its result at the same function of its own arguments, and the
  two programs' arguments agree.
-/
import proofs.«138981_j12025908429033_2_alg».proof.Defs
import proofs.«138981_j12025908429033_2_alg».proof.Proof.KIHost
import proofs.«138981_j12025908429033_2_alg».proof.Proof.RefSpec
import proofs.«138981_j12025908429033_2_alg».proof.Proof.PreFin
import proofs.«138981_j12025908429033_2_alg».proof.Proof.SpecFin
import proofs.«138981_j12025908429033_2_alg».proof.Proof.Gen.ReferenceIdeal.Read
import proofs.«138981_j12025908429033_2_alg».proof.Proof.Gen.ReferenceIdeal
import proofs.«138981_j12025908429033_2_alg».proof.Proof.Gen.Pre_finite_inputs
import proofs.«138981_j12025908429033_2_alg».proof.Proof.Gen.KernelIdeal

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Idealize.ShloMosaic.ValueIdx
open Cert.LibERealSums

/-- The precondition, decoded on one device: the features, the adjacency matrix and the weights are finite. -/
theorem fin_of_pre_kernel (m : (ℓ : Loc nD τ sig) → Buf (Elt Ideal) ℓ) (hpre : Cert.Pre_KernelIdeal m) (c : Dev nD) :
    (∀ i, IsFin (argX m c i)) ∧ (∀ i, IsFin (argAdj m c i)) ∧ (∀ i, IsFin (argW m c i)) :=
  Cert.PreFin.fin_of_pre _ _ _ (hpre c)

/-- THE KERNEL'S RESULT: given what each region leaves in its result array (`F0`, `F1`) and finite arguments, the
    program's last boundary has the result array at `Cert.Spec.result` of the arguments. -/
theorem w4_result
    (F0 : ∀ (m : (ℓ : Loc nD τ sig) → Buf (Elt Ideal) ℓ) (c : Dev nD), (∀ i, IsFin (argAdj m c i)) → (∀ i, IsFin (argW m c i)) →
      (∀ i, IsFin (argX m c i)) →
      (dat0 (E1 m) c).arrAt 7 cfg0.N = Cert.Spec.hop 0 (argAdj m c) (argW m c) (argX m c))
    (F1 : ∀ (m : (ℓ : Loc nD τ sig) → Buf (Elt Ideal) ℓ) (c : Dev nD), (∀ i, IsFin (argAdj m c i)) → (∀ i, IsFin (argW m c i)) →
      (∀ i, IsFin (hop1Out m c i)) →
      (dat1 (E3 m) c).arrAt 7 cfg1.N = Cert.Spec.hop 1 (argAdj m c) (argW m c) (hop1Out m c))
    (m : (ℓ : Loc nD τ sig) → Buf (Elt Ideal) ℓ) (c : Dev nD)
    (hx : ∀ i, IsFin (argX m c i)) (hadj : ∀ i, IsFin (argAdj m c i)) (hw : ∀ i, IsFin (argW m c i)) :
    W4 m c (Proc.devRef .tc main_v33) = Cert.Spec.result (argAdj m c) (argW m c) (argX m c) := by
  have h1 : hop1Out m c = Cert.Spec.hop 0 (argAdj m c) (argW m c) (argX m c) :=
    (W2_arr m c 7).trans (F0 m c hadj hw hx)
  have hx1 : ∀ i, IsFin (hop1Out m c i) := fun i => by
    rw [h1]; exact Cert.Spec.hop_isFin 0 _ _ _ i
  refine (W4_arr m c 7).trans ((F1 m c hadj hw hx1).trans ?_)
  rw [h1]
  rfl

/-- THE VALUE CLAIM, from what each region leaves in its result array. -/
theorem algebraic_of
    (F0 : ∀ (m : (ℓ : Loc nD τ sig) → Buf (Elt Ideal) ℓ) (c : Dev nD), (∀ i, IsFin (argAdj m c i)) → (∀ i, IsFin (argW m c i)) →
      (∀ i, IsFin (argX m c i)) →
      (dat0 (E1 m) c).arrAt 7 cfg0.N = Cert.Spec.hop 0 (argAdj m c) (argW m c) (argX m c))
    (F1 : ∀ (m : (ℓ : Loc nD τ sig) → Buf (Elt Ideal) ℓ) (c : Dev nD), (∀ i, IsFin (argAdj m c i)) → (∀ i, IsFin (argW m c i)) →
      (∀ i, IsFin (hop1Out m c i)) →
      (dat1 (E3 m) c).arrAt 7 cfg1.N = Cert.Spec.hop 1 (argAdj m c) (argW m c) (hop1Out m c)) :
    Cert.algebraic_KernelIdeal_ReferenceIdeal := by
  intro m ρ m' ρ' hpre hagree
  refine ⟨fun c => Cert.Spec.result (argAdj m c) (argW m c) (argX m c), ?_, ?_⟩
  · refine (θ_run defs _ _).mono (fun r h c => ⟨?_, ?_, ?_, ?_⟩) (run_all m ρ)
    · obtain ⟨hx, hadj, hw⟩ := fin_of_pre_kernel m hpre c
      exact (h c _ (mem_uc main_v33 (by decide))).trans (w4_result F0 F1 m c hx hadj hw)
    · exact (h c _ (mem_uc main_arg0 (by decide))).trans (W4_main_arg0 m c)
    · exact (h c _ (mem_uc main_arg1 (by decide))).trans (W4_main_arg1 m c)
    · exact (h c _ (mem_uc main_arg2 (by decide))).trans (W4_main_arg2 m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v11_eq, Cert.RefSpec.ref_eq, (hagree c).1, (hagree c).2.1, (hagree c).2.2]

end Cert.KernelIdeal.Fr

end
-- ==== Proof.KIPay.lean ====
/-
  The kernel's payloads read at an index, at the ideal instance: each value the two regions store or
  carry, as a function of the loaded values, written out as sums over the contraction coordinate.
-/
import proofs.«138981_j12025908429033_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The two matrix products at an index -/

/-- The [2048,1024] × [1024,64] product's left operand index at output (r, ·) and contraction position q: row r. -/
theorem lhsA_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhsA_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhsA_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhsA_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- The [2048,1024] × [1024,64] product into the zero splat, at (r, j): the sum over l of lhs (r, l) · rhs (l, j). -/
theorem mmA_apply {φ₁ φ₂ : FTy} (lhs : FVec Ideal S2048x1024 φ₁) (rhs : FVec Ideal S1024x64 φ₂) (r : Fin 2048) (j : Fin 64) :
    matmul dot_S2048x1024_S1024x64_S2048x64_1_0_0_1_n_n none lhs rhs (constant (F := Ideal) S2048x64 .f32 0x00000000#32) (ix2 r j)
      = ∑ l : Fin 1024, lhs (ix2 r l) * rhs (ix2 l j) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 r j) ((contrEquiv1 dot_S2048x1024_S1024x64_S2048x64_1_0_0_1_n_n 1024 rfl rfl).symm k) = ix2 r k := funext fun a => Fin.ext (by
    match a with
    | ⟨0, _⟩ => exact lhsA_0 _ _
    | ⟨1, _⟩ => exact (lhsA_1 _ _).trans hk)
  have er : dot_S2048x1024_S1024x64_S2048x64_1_0_0_1_n_n.rhsIdx (ix2 r j) ((contrEquiv1 dot_S2048x1024_S1024x64_S2048x64_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

/-- The [2048,64] × [64,64] product's operand indices at output (r, j) and contraction position q. -/
theorem lhsB_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhsB_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhsB_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhsB_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The [2048,64] × [64,64] product into the zero splat, at (r, j): the sum over k of lhs (r, k) · rhs (k, j). -/
theorem mmB_apply {φ₁ φ₂ : FTy} (lhs : FVec Ideal S2048x64 φ₁) (rhs : FVec Ideal S64x64 φ₂) (r : Fin 2048) (j : Fin 64) :
    matmul dot_S2048x64_S64x64_S2048x64_1_0_0_1_n_n none lhs rhs (constant (F := Ideal) S2048x64 .f32 0x00000000#32) (ix2 r j)
      = ∑ k : Fin 64, lhs (ix2 r k) * rhs (ix2 k j) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r j) ((contrEquiv1 dot_S2048x64_S64x64_S2048x64_1_0_0_1_n_n 64 rfl rfl).symm k) = ix2 r k := funext fun a => Fin.ext (by
    match a with
    | ⟨0, _⟩ => exact lhsB_0 _ _
    | ⟨1, _⟩ => exact (lhsB_1 _ _).trans hk)
  have er : dot_S2048x64_S64x64_S2048x64_1_0_0_1_n_n.rhsIdx (ix2 r j) ((contrEquiv1 dot_S2048x64_S64x64_S2048x64_1_0_0_1_n_n 64 rfl rfl).symm k) = ix2 k j := funext fun a => Fin.ext (by
    match a with
    | ⟨0, _⟩ => exact (rhsB_0 _ _).trans hk
    | ⟨1, _⟩ => exact rhsB_1 _ _)
  rw [el, er]

/-- The hyperbolic tangent of a vector at an index is the extended reals' one of the element. -/
theorem tanh_apply {s : Shape} {φ : FTy} (a : FVec Ideal s φ) (i : s.Idx) : tanh a i = Ideal.tanh (a i) := rfl

/-! ## The payloads at an index -/

/-- The value the first store of the region writes: zero everywhere. -/
theorem pay1_apply (r : Fin 2048) (j : Fin 64) : k0_pay1 (F := Ideal) (ix2 r j) = 0 := by
  unfold k0_pay1
  rw [shapeCast_self, broadcast_apply]
  exact Ideal.ofBits_zero_f32

/-- The accumulated block: the old value plus the three partial products (high·high, high·low, and the
    product of the left operand's residue, which at the extended reals is x − x, with the high part). -/
theorem pay2_apply (v5 : Vec Ideal S2048x1024 .f32) (v11 v14 : Vec Ideal S1024x64 .bf16) (v16 : Vec Ideal S2048x64 .f32) (r : Fin 2048) (j : Fin 64) :
    k0_pay2 v5 v11 v14 v16 (ix2 r j) = v16 (ix2 r j) + (((∑ l : Fin 1024, v5 (ix2 r l) * v11 (ix2 l j)) + (∑ l : Fin 1024, v5 (ix2 r l) * v14 (ix2 l j))) + (∑ l : Fin 1024, (v5 (ix2 r l) - v5 (ix2 r l)) * v11 (ix2 l j))) := by
  unfold k0_pay2
  simp only [shapeCast_self, addf_apply, mmA_apply, truncf_apply, subf_apply]

/-- The second stage's value: the hyperbolic tangent of the six partial products' sum. -/
theorem pay3_apply (v31 : Vec Ideal S2048x64 .f32) (v37 v40 : Vec Ideal S2048x64 .bf16) (v42 v45 v49 v53 v57 v61 : Vec Ideal S64x64 .bf16) (r : Fin 2048) (j : Fin 64) :
    k0_pay3 v31 v37 v40 v42 v45 v49 v53 v57 v61 (ix2 r j) = Ideal.tanh ((((((∑ k : Fin 64, v31 (ix2 r k) * v42 (ix2 k j)) + (∑ k : Fin 64, v31 (ix2 r k) * v45 (ix2 k j))) + (∑ k : Fin 64, (v31 (ix2 r k) - v31 (ix2 r k)) * v49 (ix2 k j))) + (∑ k : Fin 64, v37 (ix2 r k) * v53 (ix2 k j))) + (∑ k : Fin 64, v37 (ix2 r k) * v57 (ix2 k j))) + (∑ k : Fin 64, v40 (ix2 r k) * v61 (ix2 k j))) := by
  unfold k0_pay3
  simp only [shapeCast_self, tanh_apply, addf_apply, mmB_apply, truncf_apply, subf_apply]

namespace R1

/-- The value the first store of the region writes: zero everywhere. -/
theorem pay1_apply (r : Fin 2048) (j : Fin 64) : k1_pay1 (F := Ideal) (ix2 r j) = 0 := by
  unfold k1_pay1
  rw [shapeCast_self, broadcast_apply]
  exact Ideal.ofBits_zero_f32

/-- The accumulated block: the old value plus the three partial products (high·high, high·low, and the
    product of the left operand's residue, which at the extended reals is x − x, with the high part). -/
theorem pay2_apply (v5 : Vec Ideal S2048x1024 .f32) (v11 v14 : Vec Ideal S1024x64 .bf16) (v16 : Vec Ideal S2048x64 .f32) (r : Fin 2048) (j : Fin 64) :
    k1_pay2 v5 v11 v14 v16 (ix2 r j) = v16 (ix2 r j) + (((∑ l : Fin 1024, v5 (ix2 r l) * v11 (ix2 l j)) + (∑ l : Fin 1024, v5 (ix2 r l) * v14 (ix2 l j))) + (∑ l : Fin 1024, (v5 (ix2 r l) - v5 (ix2 r l)) * v11 (ix2 l j))) := by
  unfold k1_pay2
  simp only [shapeCast_self, addf_apply, mmA_apply, truncf_apply, subf_apply]

/-- The second stage's value: the hyperbolic tangent of the six partial products' sum. -/
theorem pay3_apply (v31 : Vec Ideal S2048x64 .f32) (v37 v40 : Vec Ideal S2048x64 .bf16) (v42 v45 v49 v53 v57 v61 : Vec Ideal S64x64 .bf16) (r : Fin 2048) (j : Fin 64) :
    k1_pay3 v31 v37 v40 v42 v45 v49 v53 v57 v61 (ix2 r j) = Ideal.tanh ((((((∑ k : Fin 64, v31 (ix2 r k) * v42 (ix2 k j)) + (∑ k : Fin 64, v31 (ix2 r k) * v45 (ix2 k j))) + (∑ k : Fin 64, (v31 (ix2 r k) - v31 (ix2 r k)) * v49 (ix2 k j))) + (∑ k : Fin 64, v37 (ix2 r k) * v53 (ix2 k j))) + (∑ k : Fin 64, v37 (ix2 r k) * v57 (ix2 k j))) + (∑ k : Fin 64, v40 (ix2 r k) * v61 (ix2 k j))) := by
  unfold k1_pay3
  simp only [shapeCast_self, tanh_apply, addf_apply, mmB_apply, truncf_apply, subf_apply]

end R1

end Cert.KernelIdeal.Pay

end
-- ==== Proof.KIStep.lean ====
/-
  The two stages of the kernel at one output coordinate, as functions of the blocks they read: what one reduction
  step adds to the running total, and the dense layer with tanh applied to the finished total. The payloads of
  both regions at an index are these.
-/
import proofs.«138981_j12025908429033_2_alg».proof.Proof.KIPay

noncomputable section

namespace Cert.KernelIdeal.Pay

open Cert.KernelIdeal Cert.KernelIdeal.Gen Idealize.ShloMosaic Idealize.ShloMosaic.ValueIdx

/-- What one reduction step adds to the running total at (r, j), from the step's block a of the adjacency and its
    rows b1, b2 of the two tables: a·b1 + a·b2 + (a − a)·b1, each a sum over the 1024 contracted coordinates. -/
def stepOf (a : Vec Ideal S2048x1024 .f32) (b1 b2 : Vec Ideal S1024x64 .bf16) (r : Fin 2048) (j : Fin 64) : EReal :=
  ((∑ l : Fin 1024, a (ix2 r l) * b1 (ix2 l j)) + (∑ l : Fin 1024, a (ix2 r l) * b2 (ix2 l j))) + (∑ l : Fin 1024, (a (ix2 r l) - a (ix2 r l)) * b1 (ix2 l j))

/-- The second stage at (r, j), from the finished total x, the row tile's rows y1, y2 of the two tables and the four
    weight blocks: tanh of x·w3 + x·w4 + (x − x)·w3 + y1·w5 + y1·w6 + y2·w5, each a sum over 64 coordinates. -/
def denseOf (x : Vec Ideal S2048x64 .f32) (y1 y2 : Vec Ideal S2048x64 .bf16) (w3 w4 w5 w6 : Vec Ideal S64x64 .bf16) (r : Fin 2048) (j : Fin 64) : EReal :=
  Ideal.tanh ((((((∑ k : Fin 64, x (ix2 r k) * w3 (ix2 k j)) + (∑ k : Fin 64, x (ix2 r k) * w4 (ix2 k j))) + (∑ k : Fin 64, (x (ix2 r k) - x (ix2 r k)) * w3 (ix2 k j))) + (∑ k : Fin 64, y1 (ix2 r k) * w5 (ix2 k j))) + (∑ k : Fin 64, y1 (ix2 r k) * w6 (ix2 k j))) + (∑ k : Fin 64, y2 (ix2 r k) * w5 (ix2 k j)))

/-- The accumulated block at an index: the old value plus the step's term. -/
theorem pay2_eq_stepOf (v5 : Vec Ideal S2048x1024 .f32) (v11 v14 : Vec Ideal S1024x64 .bf16) (v16 : Vec Ideal S2048x64 .f32) (r : Fin 2048) (j : Fin 64) :
    k0_pay2 v5 v11 v14 v16 (ix2 r j) = v16 (ix2 r j) + stepOf v5 v11 v14 r j :=
  pay2_apply v5 v11 v14 v16 r j

/-- The second stage's payload at an index, with the weight blocks it reads twice named once. -/
theorem pay3_eq_denseOf (v31 : Vec Ideal S2048x64 .f32) (v37 v40 : Vec Ideal S2048x64 .bf16) (w3 w4 w5 w6 : Vec Ideal S64x64 .bf16) (r : Fin 2048) (j : Fin 64) :
    k0_pay3 v31 v37 v40 w3 w4 w3 w5 w6 w5 (ix2 r j) = denseOf v31 v37 v40 w3 w4 w5 w6 r j :=
  pay3_apply v31 v37 v40 w3 w4 w3 w5 w6 w5 r j

namespace R1

theorem pay2_eq_stepOf (v5 : Vec Ideal S2048x1024 .f32) (v11 v14 : Vec Ideal S1024x64 .bf16) (v16 : Vec Ideal S2048x64 .f32) (r : Fin 2048) (j : Fin 64) :
    k1_pay2 v5 v11 v14 v16 (ix2 r j) = v16 (ix2 r j) + stepOf v5 v11 v14 r j :=
  R1.pay2_apply v5 v11 v14 v16 r j

theorem pay3_eq_denseOf (v31 : Vec Ideal S2048x64 .f32) (v37 v40 : Vec Ideal S2048x64 .bf16) (w3 w4 w5 w6 : Vec Ideal S64x64 .bf16) (r : Fin 2048) (j : Fin 64) :
    k1_pay3 v31 v37 v40 w3 w4 w3 w5 w6 w5 (ix2 r j) = denseOf v31 v37 v40 w3 w4 w5 w6 r j :=
  R1.pay3_apply v31 v37 v40 w3 w4 w3 w5 w6 w5 r j

end R1

end Cert.KernelIdeal.Pay

end
-- ==== Proof.KIVal0.lean ====
/-
  Region 0: the values its three control cases leave, as the payload functions of the point's blocks, and the
  recursion of the running total along a row tile read at an index at the extended reals.
-/
import proofs.«138981_j12025908429033_2_alg».proof.Proof.KIHalf0
import proofs.«138981_j12025908429033_2_alg».proof.Proof.KIStep

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem hz2 : (![0, 0] : Fin 2 → Nat) = fun _ => 0 := funext fun a => by fin_cases a <;> rfl

/-- The 1024 rows of the two feature tables that the point's reduction step reads. -/
abbrev rowsK0 (t : Fin cfg0.N) : Rect S16384x64 :=
  Rect.unit (s := S16384x64) (k0_off1 (grid0.coords t)) S1024x64.size (k0_off1_inb (grid0.coords t))

/-- The 2048 rows of the two feature tables that belong to the point's row tile, read at the last reduction step. -/
abbrev rowsI0 (t : Fin cfg0.N) (h1 : t.val % 16 = 15) : Rect S16384x64 :=
  Rect.unit (s := S16384x64) (k0_off2 (grid0.coords t)) S2048x64.size (k0_off2_inb (grid0.coords t) ((hcond0_1 t).mpr h1))

/-- At k = 0 the scratch is left at the first partial product added to the zero block. -/
theorem soutA0_eq (c : Dev nD) (t : Fin cfg0.N) (h0 : t.val % 16 = 0) (h1 : ¬t.val % 16 = 15) :
    soutA0 V c t h0 h1 = k0_pay2 (iblk0 V c 0 t) (View.ld (iblk0 V c 1 t) (rowsK0 t)) (View.ld (iblk0 V c 2 t) (rowsK0 t)) k0_pay1 := by
  unfold soutA0
  rw [View.read_writes_eq_canon _ _ _ (scoverA0 V c t h0 h1)]
  unfold runA0 kernelRun0_A
  dsimp only
  sl_unfold_run_names
  rw [View.canon_cons_unit_zero (S := S2048x64) hz2, View.readCov_unit_zero (S := S2048x64) _ hz2]
  simp only [View.readAt_eq_ld, (hs0_0 t).read_unread, (hs0_1 t).read_unread, (hs0_2 t).read_unread, View.ld_unit_zero (S := S2048x1024) hz2]
  rfl

/-- At 0 < k < 15 the scratch is left at the step's partial product added to what it held. -/
theorem soutB0_eq (c : Dev nD) (t : Fin cfg0.N) (h0 : ¬t.val % 16 = 0) (h1 : ¬t.val % 16 = 15) (xs : Vec F S2048x64 .f32) :
    soutB0 V c t h0 h1 xs = k0_pay2 (iblk0 V c 0 t) (View.ld (iblk0 V c 1 t) (rowsK0 t)) (View.ld (iblk0 V c 2 t) (rowsK0 t)) xs := by
  unfold soutB0
  rw [View.read_writes_eq_canon _ _ _ (scoverB0 V c t h0 h1 xs)]
  unfold runB0 kernelRun0_B
  dsimp only
  sl_unfold_run_names
  rw [View.canon_unit_zero (S := S2048x64) hz2]
  simp only [View.readAt_eq_ld, (hs0_0 t).read_unread, (hs0_1 t).read_unread, (hs0_2 t).read_unread, (Memref.isWhole_whole cc0_scratch0).read_unread, View.ld_unit_zero (S := S2048x1024) hz2, View.ld_unit_zero (S := S2048x64) hz2]
  rfl

/-- At k = 15 the scratch is left likewise. -/
theorem soutC0_eq (c : Dev nD) (t : Fin cfg0.N) (h0 : ¬t.val % 16 = 0) (h1 : t.val % 16 = 15) (xs : Vec F S2048x64 .f32) :
    soutC0 V c t h0 h1 xs = k0_pay2 (iblk0 V c 0 t) (View.ld (iblk0 V c 1 t) (rowsK0 t)) (View.ld (iblk0 V c 2 t) (rowsK0 t)) xs := by
  unfold soutC0
  rw [View.read_writes_eq_canon _ _ _ (scoverC0 V c t h0 h1 xs)]
  unfold runC0 kernelRun0_C
  dsimp only
  sl_unfold_run_names
  rw [View.canon_unit_zero (S := S2048x64) hz2]
  simp only [View.readAt_eq_ld, (hs0_0 t).read_unread, (hs0_1 t).read_unread, (hs0_2 t).read_unread, (Memref.isWhole_whole cc0_scratch0).read_unread, View.ld_unit_zero (S := S2048x1024) hz2, View.ld_unit_zero (S := S2048x64) hz2]
  rfl

/-- At k = 15 the output window's buffer is left at the second stage of the finished sum, the row tile's own rows of
    the two tables and the four weight blocks. -/
theorem outC0_eq (c : Dev nD) (t : Fin cfg0.N) (h0 : ¬t.val % 16 = 0) (h1 : t.val % 16 = 15) (xs : Vec F S2048x64 .f32) :
    outC0 V c t h0 h1 xs = k0_pay3 (soutC0 V c t h0 h1 xs) (View.ld (iblk0 V c 1 t) (rowsI0 t h1)) (View.ld (iblk0 V c 2 t) (rowsI0 t h1))
      (iblk0 V c 3 t) (iblk0 V c 4 t) (iblk0 V c 3 t) (iblk0 V c 5 t) (iblk0 V c 6 t) (iblk0 V c 5 t) := by
  rw [soutC0_eq V c t h0 h1 xs]
  unfold outC0
  rw [View.read_writes_eq_canon _ _ _ (coverC0 V c t h0 h1 xs)]
  unfold runC0 kernelRun0_C
  dsimp only
  sl_unfold_run_names
  rw [View.canon_unit_zero (S := S2048x64) hz2, View.readCov_unit_zero (S := S2048x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, View.ld_unit_zero (S := S2048x1024) hz2, View.ld_unit_zero (S := S2048x64) hz2, View.ld_unit_zero (S := S64x64) hz2]
  rfl

end

/-! ## The running total along a row tile, at the extended reals -/

section
open Idealize.ShloMosaic.ValueIdx
variable (V : (c : Dev nD) → (b : Ref sig .tc) → Buf (Elt Ideal) ((c : Thread nD τ).loc b))

/-- What the reduction step at point t adds to the running total at (r, j). -/
def stepT0 (c : Dev nD) (t : Fin cfg0.N) (r : Fin 2048) (j : Fin 64) : EReal :=
  Pay.stepOf (iblk0 V c 0 t) (View.ld (iblk0 V c 1 t) (rowsK0 t)) (View.ld (iblk0 V c 2 t) (rowsK0 t)) r j

/-- At the first step of a row tile the running total is the step's term added to zero. -/
theorem tot_zero0 (c : Dev nD) (t : Fin cfg0.N) (h0 : t.val % 16 = 0) (r : Fin 2048) (j : Fin 64) :
    (outsAt0 V c t.val t.isLt).2 (ix2 r j) = 0 + stepT0 V c t r j := by
  have h1 : ¬t.val % 16 = 15 := by omega
  rw [outsAt0_A V c t h0 h1]
  dsimp only
  rw [soutA0_eq V c t h0 h1]
  refine (Pay.pay2_eq_stepOf (iblk0 V c 0 t) (View.ld (iblk0 V c 1 t) (rowsK0 t)) (View.ld (iblk0 V c 2 t) (rowsK0 t)) (k0_pay1 (F := Ideal)) r j).trans ?_
  rw [Pay.pay1_apply]
  rfl

/-- At every later step it is the step's term added to the total the step before left. -/
theorem tot_succ0 (c : Dev nD) (t : Fin cfg0.N) (h0 : ¬t.val % 16 = 0) (r : Fin 2048) (j : Fin 64) :
    (outsAt0 V c t.val t.isLt).2 (ix2 r j) = (outsAt0 V c (t.val - 1) (Nat.lt_of_le_of_lt (Nat.sub_le _ _) t.isLt)).2 (ix2 r j) + stepT0 V c t r j := by
  by_cases h1 : t.val % 16 = 15
  · rw [outsAt0_C V c t h0 h1]
    dsimp only
    rw [soutC0_eq V c t h0 h1]
    exact Pay.pay2_eq_stepOf (iblk0 V c 0 t) (View.ld (iblk0 V c 1 t) (rowsK0 t)) (View.ld (iblk0 V c 2 t) (rowsK0 t)) (outsAt0 V c (t.val - 1) (Nat.lt_of_le_of_lt (Nat.sub_le _ _) t.isLt)).2 r j
  · rw [outsAt0_B V c t h0 h1]
    dsimp only
    rw [soutB0_eq V c t h0 h1]
    exact Pay.pay2_eq_stepOf (iblk0 V c 0 t) (View.ld (iblk0 V c 1 t) (rowsK0 t)) (View.ld (iblk0 V c 2 t) (rowsK0 t)) (outsAt0 V c (t.val - 1) (Nat.lt_of_le_of_lt (Nat.sub_le _ _) t.isLt)).2 r j

/-- At the last step the output window's buffer holds the second stage of the finished total. -/
theorem out_last0 (c : Dev nD) (t : Fin cfg0.N) (h1 : t.val % 16 = 15) (r : Fin 2048) (j : Fin 64) :
    (outsAt0 V c t.val t.isLt).1 (ix2 r j)
      = Pay.denseOf (outsAt0 V c t.val t.isLt).2 (View.ld (iblk0 V c 1 t) (rowsI0 t h1)) (View.ld (iblk0 V c 2 t) (rowsI0 t h1))
          (iblk0 V c 3 t) (iblk0 V c 4 t) (iblk0 V c 5 t) (iblk0 V c 6 t) r j := by
  have h0 : ¬t.val % 16 = 0 := by omega
  rw [outsAt0_C V c t h0 h1]
  dsimp only
  rw [outC0_eq V c t h0 h1]
  exact Pay.pay3_eq_denseOf (soutC0 V c t h0 h1 (outsAt0 V c (t.val - 1) (Nat.lt_of_le_of_lt (Nat.sub_le _ _) t.isLt)).2) (View.ld (iblk0 V c 1 t) (rowsI0 t h1)) (View.ld (iblk0 V c 2 t) (rowsI0 t h1)) (iblk0 V c 3 t) (iblk0 V c 4 t) (iblk0 V c 5 t) (iblk0 V c 6 t) r j

end

end Cert.KernelIdeal.Fr

end
-- ==== Proof.KIBlk0.lean ====
/-
  Region 0: the blocks the body reads, as entries of the arrays the region is entered with. At position
  t = 16·i + k the adjacency tile is rows 2048·i … and columns 1024·k … of the matrix; the two embedding operands
  are resident whole, and the body reads their rows 1024·k … (the reduction slice) and 2048·i … (the row tile);
  the four weight operands are resident whole.
-/
import proofs.«138981_j12025908429033_2_alg».proof.Proof.KIHalf0
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `rr` of row tile `t / 16`, as a row of the whole matrix. -/
def rowOf0 (t : ℕ) (ht : t < 128) (rr : Fin 2048) : Fin 16384 := ⟨t / 16 * 2048 + rr.val, by omega⟩
/-- Column `l` of reduction step `t % 16`, as a column of the whole matrix. -/
def colOf0 (t : ℕ) (l : Fin 1024) : Fin 16384 := ⟨t % 16 * 1024 + l.val, by omega⟩

/-- The windows' index maps and the body's two row offsets, decided over the grid. -/
theorem idx_facts0 : ∀ t : Fin cfg0.N,
    win0_0.index t (0 : Fin 2) = t.val / 16 ∧ win0_0.index t (1 : Fin 2) = t.val % 16
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 16 ∧ win0_7.index t (1 : Fin 2) = 0 :=
  (by decide +kernel : ∀ t : Fin grid0.N, _)
theorem off_facts0 : ∀ t : Fin cfg0.N,
    k0_off1 (grid0.coords t) (0 : Fin 2) = 1024 * (t.val % 16) ∧ k0_off1 (grid0.coords t) (1 : Fin 2) = 0
    ∧ k0_off2 (grid0.coords t) (0 : Fin 2) = 2048 * (t.val / 16) ∧ k0_off2 (grid0.coords t) (1 : Fin 2) = 0 :=
  (by decide +kernel : ∀ t : Fin grid0.N, _)

theorem tlt0 (t : Fin cfg0.N) : t.val < 128 := lt_of_lt_of_eq t.isLt (show cfg0.N = 128 from N_0)

section
variable (V : (c : Dev nD) → (b : Ref sig .tc) → Buf (Elt F) ((c : Thread nD τ).loc b))

/-- The adjacency tile. -/
theorem blk0_adj (c : Dev nD) (t : Fin cfg0.N) (rr : Fin 2048) (l : Fin 1024) :
    (iblk0 V c 0 t : Vec F S2048x1024 .f32) (ix2 rr l) = V c main_arg1 (ix2 (rowOf0 t.val (tlt0 t) rr) (colOf0 t.val l)) := by
  show V c main_arg1 (((cfg0.win 0).blk t).view.emb (ix2 rr l)) = _
  refine congrArg (V c main_arg1) ?_
  obtain ⟨e0, e1, -⟩ := idx_facts0 t
  funext a; apply Fin.ext
  match a with
  | ⟨0, _⟩ => show win0_0.index t (0 : Fin 2) * 2048 + 1 * rr.val = t.val / 16 * 2048 + rr.val; rw [e0]; omega
  | ⟨1, _⟩ => show win0_0.index t (1 : Fin 2) * 1024 + 1 * l.val = t.val % 16 * 1024 + l.val; rw [e1]; omega

/-- The rows of the reduction slice, read off a resident embedding operand (window 1 or 2). -/
theorem ld0_xh_step (c : Dev nD) (t : Fin cfg0.N) (inb) (l : Fin 1024) (k : Fin 64) :
    View.ld (iblk0 V c 1 t : Vec F S16384x64 .bf16) (Rect.unit (s := S16384x64) (k0_off1 (grid0.coords t)) S1024x64.size inb) (ix2 l k)
      = V c main_v2 (ix2 (colOf0 t.val l) k) := by
  show V c main_v2 (((cfg0.win 1).blk t).view.emb ((Rect.unit (s := S16384x64) (k0_off1 (grid0.coords t)) S1024x64.size inb).emb (ix2 l k))) = _
  refine congrArg (V c main_v2) ?_
  obtain ⟨-, -, e0, e1, -⟩ := idx_facts0 t
  obtain ⟨o0, o1, -, -⟩ := off_facts0 t
  funext a; apply Fin.ext
  match a with
  | ⟨0, _⟩ => show win0_1.index t (0 : Fin 2) * 16384 + 1 * (k0_off1 (grid0.coords t) (0 : Fin 2) + 1 * l.val) = t.val % 16 * 1024 + l.val; rw [e0, o0]; omega
  | ⟨1, _⟩ => show win0_1.index t (1 : Fin 2) * 64 + 1 * (k0_off1 (grid0.coords t) (1 : Fin 2) + 1 * k.val) = k.val; rw [e1, o1]; omega
theorem ld0_xl_step (c : Dev nD) (t : Fin cfg0.N) (inb) (l : Fin 1024) (k : Fin 64) :
    View.ld (iblk0 V c 2 t : Vec F S16384x64 .bf16) (Rect.unit (s := S16384x64) (k0_off1 (grid0.coords t)) S1024x64.size inb) (ix2 l k)
      = V c main_v5 (ix2 (colOf0 t.val l) k) := by
  show V c main_v5 (((cfg0.win 2).blk t).view.emb ((Rect.unit (s := S16384x64) (k0_off1 (grid0.coords t)) S1024x64.size inb).emb (ix2 l k))) = _
  refine congrArg (V c main_v5) ?_
  obtain ⟨-, -, -, -, e0, e1, -⟩ := idx_facts0 t
  obtain ⟨o0, o1, -, -⟩ := off_facts0 t
  funext a; apply Fin.ext
  match a with
  | ⟨0, _⟩ => show win0_2.index t (0 : Fin 2) * 16384 + 1 * (k0_off1 (grid0.coords t) (0 : Fin 2) + 1 * l.val) = t.val % 16 * 1024 + l.val; rw [e0, o0]; omega
  | ⟨1, _⟩ => show win0_2.index t (1 : Fin 2) * 64 + 1 * (k0_off1 (grid0.coords t) (1 : Fin 2) + 1 * k.val) = k.val; rw [e1, o1]; omega

/-- The rows of the row tile, read off a resident embedding operand. -/
theorem ld0_xh_tile (c : Dev nD) (t : Fin cfg0.N) (inb) (rr : Fin 2048) (k : Fin 64) :
    View.ld (iblk0 V c 1 t : Vec F S16384x64 .bf16) (Rect.unit (s := S16384x64) (k0_off2 (grid0.coords t)) S2048x64.size inb) (ix2 rr k)
      = V c main_v2 (ix2 (rowOf0 t.val (tlt0 t) rr) k) := by
  show V c main_v2 (((cfg0.win 1).blk t).view.emb ((Rect.unit (s := S16384x64) (k0_off2 (grid0.coords t)) S2048x64.size inb).emb (ix2 rr k))) = _
  refine congrArg (V c main_v2) ?_
  obtain ⟨-, -, e0, e1, -⟩ := idx_facts0 t
  obtain ⟨-, -, o0, o1⟩ := off_facts0 t
  funext a; apply Fin.ext
  match a with
  | ⟨0, _⟩ => show win0_1.index t (0 : Fin 2) * 16384 + 1 * (k0_off2 (grid0.coords t) (0 : Fin 2) + 1 * rr.val) = t.val / 16 * 2048 + rr.val; rw [e0, o0]; omega
  | ⟨1, _⟩ => show win0_1.index t (1 : Fin 2) * 64 + 1 * (k0_off2 (grid0.coords t) (1 : Fin 2) + 1 * k.val) = k.val; rw [e1, o1]; omega
theorem ld0_xl_tile (c : Dev nD) (t : Fin cfg0.N) (inb) (rr : Fin 2048) (k : Fin 64) :
    View.ld (iblk0 V c 2 t : Vec F S16384x64 .bf16) (Rect.unit (s := S16384x64) (k0_off2 (grid0.coords t)) S2048x64.size inb) (ix2 rr k)
      = V c main_v5 (ix2 (rowOf0 t.val (tlt0 t) rr) k) := by
  show V c main_v5 (((cfg0.win 2).blk t).view.emb ((Rect.unit (s := S16384x64) (k0_off2 (grid0.coords t)) S2048x64.size inb).emb (ix2 rr k))) = _
  refine congrArg (V c main_v5) ?_
  obtain ⟨-, -, -, -, e0, e1, -⟩ := idx_facts0 t
  obtain ⟨-, -, o0, o1⟩ := off_facts0 t
  funext a; apply Fin.ext
  match a with
  | ⟨0, _⟩ => show win0_2.index t (0 : Fin 2) * 16384 + 1 * (k0_off2 (grid0.coords t) (0 : Fin 2) + 1 * rr.val) = t.val / 16 * 2048 + rr.val; rw [e0, o0]; omega
  | ⟨1, _⟩ => show win0_2.index t (1 : Fin 2) * 64 + 1 * (k0_off2 (grid0.coords t) (1 : Fin 2) + 1 * k.val) = k.val; rw [e1, o1]; omega

/-- A resident weight operand is its whole array. -/
theorem blk0_w3 (c : Dev nD) (t : Fin cfg0.N) (k j : Fin 64) :
    (iblk0 V c 3 t : Vec F S64x64 .bf16) (ix2 k j) = V c main_v8 (ix2 k j) := by
  show V c main_v8 (((cfg0.win 3).blk t).view.emb (ix2 k j)) = _
  refine congrArg (V c main_v8) ?_
  obtain ⟨-, -, -, -, -, -, e0, e1, -⟩ := idx_facts0 t
  funext a; apply Fin.ext
  match a with
  | ⟨0, _⟩ => show win0_3.index t (0 : Fin 2) * 64 + 1 * k.val = k.val; rw [e0]; omega
  | ⟨1, _⟩ => show win0_3.index t (1 : Fin 2) * 64 + 1 * j.val = j.val; rw [e1]; omega

/-- A resident weight operand is its whole array. -/
theorem blk0_w4 (c : Dev nD) (t : Fin cfg0.N) (k j : Fin 64) :
    (iblk0 V c 4 t : Vec F S64x64 .bf16) (ix2 k j) = V c main_v11 (ix2 k j) := by
  show V c main_v11 (((cfg0.win 4).blk t).view.emb (ix2 k j)) = _
  refine congrArg (V c main_v11) ?_
  obtain ⟨-, -, -, -, -, -, -, -, e0, e1, -⟩ := idx_facts0 t
  funext a; apply Fin.ext
  match a with
  | ⟨0, _⟩ => show win0_4.index t (0 : Fin 2) * 64 + 1 * k.val = k.val; rw [e0]; omega
  | ⟨1, _⟩ => show win0_4.index t (1 : Fin 2) * 64 + 1 * j.val = j.val; rw [e1]; omega

/-- A resident weight operand is its whole array. -/
theorem blk0_w5 (c : Dev nD) (t : Fin cfg0.N) (k j : Fin 64) :
    (iblk0 V c 5 t : Vec F S64x64 .bf16) (ix2 k j) = V c main_v12 (ix2 k j) := by
  show V c main_v12 (((cfg0.win 5).blk t).view.emb (ix2 k j)) = _
  refine congrArg (V c main_v12) ?_
  obtain ⟨-, -, -, -, -, -, -, -, -, -, e0, e1, -⟩ := idx_facts0 t
  funext a; apply Fin.ext
  match a with
  | ⟨0, _⟩ => show win0_5.index t (0 : Fin 2) * 64 + 1 * k.val = k.val; rw [e0]; omega
  | ⟨1, _⟩ => show win0_5.index t (1 : Fin 2) * 64 + 1 * j.val = j.val; rw [e1]; omega

/-- A resident weight operand is its whole array. -/
theorem blk0_w6 (c : Dev nD) (t : Fin cfg0.N) (k j : Fin 64) :
    (iblk0 V c 6 t : Vec F S64x64 .bf16) (ix2 k j) = V c main_v15 (ix2 k j) := by
  show V c main_v15 (((cfg0.win 6).blk t).view.emb (ix2 k j)) = _
  refine congrArg (V c main_v15) ?_
  obtain ⟨-, -, -, -, -, -, -, -, -, -, -, -, e0, e1, -⟩ := idx_facts0 t
  funext a; apply Fin.ext
  match a with
  | ⟨0, _⟩ => show win0_6.index t (0 : Fin 2) * 64 + 1 * k.val = k.val; rw [e0]; omega
  | ⟨1, _⟩ => show win0_6.index t (1 : Fin 2) * 64 + 1 * j.val = j.val; rw [e1]; omega

end

end Cert.KernelIdeal.Fr

end
-- ==== Proof.KIOut0.lean ====
/-
  Region 0: the output window. The block written back at the last reduction step of row tile i is rows
  2048·i … 2048·i + 2047 of the result array, and those eight blocks cover it.
-/
import proofs.«138981_j12025908429033_2_alg».proof.Proof.KIBlk0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rows of the output block at position `t` are rows of the result array. -/
theorem emb0_out (t : Fin cfg0.N) (rr : Fin 2048) (j : Fin 64) :
    ((cfg0.win 7).blk t).view.emb (ix2 rr j) = ix2 (rowOf0 t.val (tlt0 t) rr) j := by
  obtain ⟨-, -, -, -, -, -, -, -, -, -, -, -, -, -, e0, e1⟩ := idx_facts0 t
  funext a; apply Fin.ext
  match a with
  | ⟨0, _⟩ => show win0_7.index t (0 : Fin 2) * 2048 + 1 * rr.val = t.val / 16 * 2048 + rr.val; rw [e0]; omega
  | ⟨1, _⟩ => show win0_7.index t (1 : Fin 2) * 64 + 1 * j.val = j.val; rw [e1]; omega

/-- An entry of the result array is in the block of position `t` iff its row is in that block's row range. -/
theorem mem_blk0 (t : Fin cfg0.N) (i : S16384x64.Idx) :
    i ∈ ((cfg0.win 7).blk t).view.set ↔ ∀ a : Fin 2, win0_7.index t a * S2048x64.size a ≤ (i a).val ∧ (i a).val < win0_7.index t a * S2048x64.size a + S2048x64.size a := by
  show i ∈ ((View.whole main_v16).slice (win0_7.rect t)).set ↔ _
  rw [View.set_slice_whole, Rect.mem_set_unit]
  exact Iff.rfl

/-- The last reduction step of row tile `q`. -/
def lastOf0 (q : ℕ) (hq : q < 8) : Fin cfg0.N := ⟨16 * q + 15, by rw [show cfg0.N = 128 from N_0]; omega⟩

/-- Every entry of the result array lies in the block some write-back writes. -/
theorem cover0 (i : S16384x64.Idx) : ∃ t : Fin cfg0.N, (cfg0.win 7).flush t = true ∧ i ∈ ((cfg0.win 7).blk t).view.set := by
  have hi0 : (i 0).val < 16384 := idx2_lt0 i
  have hi1 : (i 1).val < 64 := idx2_lt1 i
  have hq : (i 0).val / 2048 < 8 := by omega
  refine ⟨lastOf0 ((i 0).val / 2048) hq, (flush0_7 _).mpr (by show (16 * ((i 0).val / 2048) + 15) % 16 = 15; omega), ?_⟩
  rw [mem_blk0]
  obtain ⟨-, -, -, -, -, -, -, -, -, -, -, -, -, -, e0, e1⟩ := idx_facts0 (lastOf0 ((i 0).val / 2048) hq)
  have e0' : win0_7.index (lastOf0 ((i 0).val / 2048) hq) (0 : Fin 2) = (16 * ((i 0).val / 2048) + 15) / 16 := e0
  intro a
  match a with
  | ⟨0, _⟩ => show win0_7.index (lastOf0 ((i 0).val / 2048) hq) (0 : Fin 2) * 2048 ≤ (i 0).val ∧ (i 0).val < win0_7.index (lastOf0 ((i 0).val / 2048) hq) (0 : Fin 2) * 2048 + 2048; rw [e0']; omega
  | ⟨1, _⟩ => show win0_7.index (lastOf0 ((i 0).val / 2048) hq) (1 : Fin 2) * 64 ≤ (i 1).val ∧ (i 1).val < win0_7.index (lastOf0 ((i 0).val / 2048) hq) (1 : Fin 2) * 64 + 64; rw [e1]; omega

end Cert.KernelIdeal.Fr

end
-- ==== Proof.HopMath.lean ====
/-
  The arithmetic of one hop as the kernel performs it, against the specification.

  The kernel forms the aggregate `adj · x` at `(r, k)` as a running total over 16 blocks of 1024 columns, each
  block's contribution a three-pass product  `∑ a·b + ∑ a·(b - b) + ∑ (a - a)·b`;  then the argument of `tanh` at
  `(r, j)` as two three-pass products added in one chain, the aggregate's row against the upper 64 weight rows and
  `x`'s row against the lower 64. On finite entries every correction sum is zero, so the running total is
  `Cert.Spec.agg` and the chain is `Cert.Spec.pre`.
-/
import proofs.«138981_j12025908429033_2_alg».proof.Proof.LibERealSums
import proofs.«138981_j12025908429033_2_alg».proof.Proof.Spec
import proofs.«138981_j12025908429033_2_alg».proof.Proof.SpecFin

noncomputable section

open scoped BigOperators

namespace Cert.HopMath

open Idealize.ShloMosaic Idealize.ShloMosaic.ValueIdx
open Cert.LibERealSums Cert.Spec

/-- Column `l` of block `s` (of 16 blocks of 1024) as a row/column number below 16384. -/
def col (s : Fin 16) (l : Fin 1024) : Fin 16384 := ⟨s.val * 1024 + l.val, by have := s.isLt; have := l.isLt; omega⟩

/-- The three-pass contribution of block `s` to the aggregate at `(r, k)`. -/
def blockTerm (adj : SNN.Idx → EReal) (x : SNH.Idx → EReal) (r : Fin 16384) (k : Fin 64) (s : Fin 16) : EReal :=
  ((∑ l : Fin 1024, adj (ix2 r (col s l)) * x (ix2 (col s l) k))
      + (∑ l : Fin 1024, adj (ix2 r (col s l)) * (x (ix2 (col s l) k) - x (ix2 (col s l) k))))
    + (∑ l : Fin 1024, (adj (ix2 r (col s l)) - adj (ix2 r (col s l))) * x (ix2 (col s l) k))

/-- On finite entries a block's three-pass contribution is the plain sum of products over the block. -/
theorem blockTerm_eq (adj : SNN.Idx → EReal) (x : SNH.Idx → EReal) (hadj : ∀ i, IsFin (adj i)) (hx : ∀ i, IsFin (x i))
    (r : Fin 16384) (k : Fin 64) (s : Fin 16) :
    blockTerm adj x r k s = ∑ l : Fin 1024, adj (ix2 r (col s l)) * x (ix2 (col s l) k) :=
  three_pass (fun l => adj (ix2 r (col s l))) (fun l => x (ix2 (col s l) k)) (fun _ => hadj _) (fun _ => hx _)

/-- The aggregate is the sum of the 16 blocks' plain sums. -/
theorem agg_eq_sum_blocks (adj : SNN.Idx → EReal) (x : SNH.Idx → EReal) (r : Fin 16384) (k : Fin 64) :
    agg adj x r k = ∑ s : Fin 16, ∑ l : Fin 1024, adj (ix2 r (col s l)) * x (ix2 (col s l) k) :=
  (sum_blocks_16_1024_fin (M := EReal) fun n => adj (ix2 r n) * x (ix2 n k)).symm

/-- On finite entries the aggregate is the sum of the 16 blocks' three-pass contributions. -/
theorem agg_eq_sum_blockTerm (adj : SNN.Idx → EReal) (x : SNH.Idx → EReal) (hadj : ∀ i, IsFin (adj i))
    (hx : ∀ i, IsFin (x i)) (r : Fin 16384) (k : Fin 64) :
    agg adj x r k = ∑ s : Fin 16, blockTerm adj x r k s := by
  rw [agg_eq_sum_blocks]
  exact Finset.sum_congr rfl fun s _ => (blockTerm_eq adj x hadj hx r k s).symm

/-- THE RUNNING TOTAL: a total over the block steps `0, …, 15` that starts at `0 + (block 0's contribution)` and adds
    block `s + 1`'s contribution at step `s + 1` is, after step 15, the aggregate. The contributions are given as a
    function `t` of the step number, known to be the block's three-pass contribution at each step below 16. -/
theorem acc_eq_agg (adj : SNN.Idx → EReal) (x : SNH.Idx → EReal) (hadj : ∀ i, IsFin (adj i)) (hx : ∀ i, IsFin (x i))
    (r : Fin 16384) (k : Fin 64) (t acc : ℕ → EReal)
    (ht : ∀ (s : ℕ) (hs : s < 16), t s = blockTerm adj x r k ⟨s, hs⟩)
    (h0 : acc 0 = 0 + t 0) (hstep : ∀ s, s + 1 ≤ 15 → acc (s + 1) = acc s + t (s + 1)) :
    acc 15 = agg adj x r k := by
  rw [acc_eq_sum_le t acc 15 h0 hstep 15 (le_refl _), agg_eq_sum_blockTerm adj x hadj hx,
    ← Fin.sum_univ_eq_sum_range t 16]
  exact Finset.sum_congr rfl fun s _ => ht s.val s.isLt

/-- THE TWO DENSE PRODUCTS IN ONE CHAIN: with `A k` the aggregate at `(r, k)`, the chain of six sums the kernel adds
    (the aggregate's row against weight rows `0 … 63` in three passes, then `x`'s row against weight rows
    `64 … 127` in three passes) is the specification's argument of `tanh`, on finite entries. -/
theorem chain_eq_pre (h : Fin 2) (adj : SNN.Idx → EReal) (w : SW.Idx → EReal) (x : SNH.Idx → EReal)
    (hadj : ∀ i, IsFin (adj i)) (hw : ∀ i, IsFin (w i)) (hx : ∀ i, IsFin (x i)) (r : Fin 16384) (j : Fin 64)
    (A : Fin 64 → EReal) (hA : ∀ k, A k = agg adj x r k) (wt wb : Fin 64 → EReal)
    (hwt : ∀ k : Fin 64, wt k = w (ix3 h (⟨k.val, by have := k.isLt; omega⟩ : Fin 128) j))
    (hwb : ∀ k : Fin 64, wb k = w (ix3 h (⟨64 + k.val, by have := k.isLt; omega⟩ : Fin 128) j)) :
    (((((∑ k, A k * wt k) + (∑ k, A k * (wt k - wt k))) + (∑ k, (A k - A k) * wt k))
          + (∑ k, x (ix2 r k) * wb k)) + (∑ k, x (ix2 r k) * (wb k - wb k)))
        + (∑ k, (x (ix2 r k) - x (ix2 r k)) * wb k)
      = pre h adj w x r j := by
  rw [six_pass A wt (fun k => x (ix2 r k)) wb (fun k => by rw [hA]; exact agg_isFin adj x hadj hx r k)
    (fun k => by rw [hwt]; exact hw _) (fun _ => hx _) (fun k => by rw [hwb]; exact hw _)]
  unfold pre
  refine congrArg₂ (· + ·) ?_ ?_
  · exact Finset.sum_congr rfl fun k _ => by rw [hA, hwt]
  · exact Finset.sum_congr rfl fun k _ => by rw [hwb]

/-! ## The same over abstract matrices

`A` is the adjacency matrix, `X` the features, `WT` and `WB` the upper and lower 64 rows of one weight matrix, all as
functions of their row and column. The column of block `s`, entry `l` is given by any function `c` with
`(c s _ l).val = s * 1024 + l`. -/

/-- THE RUNNING TOTAL, abstractly: with `t s k` the three-pass contribution of block `s` to entry `(r, k)` of
    `A · X`, a total that starts at `0 + t 0 k` and adds `t (s + 1) k` at step `s + 1` is, after step 15, the
    entry `∑ l, A r l * X l k`. -/
theorem tot_eq_sum (A : Fin 16384 → Fin 16384 → EReal) (X : Fin 16384 → Fin 64 → EReal)
    (hA : ∀ r l, IsFin (A r l)) (hX : ∀ l k, IsFin (X l k)) (r : Fin 16384)
    (c : (s : ℕ) → s < 16 → Fin 1024 → Fin 16384) (hc : ∀ s hs l, (c s hs l).val = s * 1024 + l.val)
    (t tot : ℕ → Fin 64 → EReal)
    (ht : ∀ (s : ℕ) (hs : s < 16) (k : Fin 64), t s k
      = ((∑ l : Fin 1024, A r (c s hs l) * X (c s hs l) k)
          + (∑ l : Fin 1024, A r (c s hs l) * (X (c s hs l) k - X (c s hs l) k)))
        + (∑ l : Fin 1024, (A r (c s hs l) - A r (c s hs l)) * X (c s hs l) k))
    (h0 : ∀ k, tot 0 k = 0 + t 0 k) (hstep : ∀ s k, s + 1 ≤ 15 → tot (s + 1) k = tot s k + t (s + 1) k)
    (k : Fin 64) :
    tot 15 k = ∑ l : Fin 16384, A r l * X l k := by
  rw [acc_eq_sum_le (fun s => t s k) (fun s => tot s k) 15 (h0 k) (fun s hs => hstep s k hs) 15 (le_refl _)]
  refine Eq.trans ?_ (sum_blocks_16_1024 (M := EReal) (fun n => A r n * X n k)
    (fun s l => if hs : s < 16 then A r (c s hs l) * X (c s hs l) k else 0) ?_)
  · refine Finset.sum_congr rfl fun s hs => ?_
    have hs' : s < 16 := Finset.mem_range.1 hs
    refine (ht s hs' k).trans ?_
    refine (three_pass (fun l => A r (c s hs' l)) (fun l => X (c s hs' l) k) (fun _ => hA _ _) (fun _ => hX _ _)).trans ?_
    exact Finset.sum_congr rfl fun l _ => by rw [dif_pos hs']
  · intro s hs l
    rw [dif_pos hs, show c s hs l = ⟨s * 1024 + l.val, by have := l.isLt; omega⟩ from Fin.ext (hc s hs l)]

/-- ONE HOP, abstractly: the chain of six sums over the finished total `tot 15`, the row `X r` and its correction
    `X r - X r`, the weights `WT`, `WB` and their corrections, is  `∑ k, (A · X) r k * WT k j + ∑ k, X r k * WB k j`. -/
theorem kernel_hop (A : Fin 16384 → Fin 16384 → EReal) (X : Fin 16384 → Fin 64 → EReal) (WT WB : Fin 64 → Fin 64 → EReal)
    (hA : ∀ r l, IsFin (A r l)) (hX : ∀ l k, IsFin (X l k)) (hWT : ∀ k j, IsFin (WT k j)) (hWB : ∀ k j, IsFin (WB k j))
    (r : Fin 16384) (j : Fin 64)
    (c : (s : ℕ) → s < 16 → Fin 1024 → Fin 16384) (hc : ∀ s hs l, (c s hs l).val = s * 1024 + l.val)
    (t tot : ℕ → Fin 64 → EReal)
    (ht : ∀ (s : ℕ) (hs : s < 16) (k : Fin 64), t s k
      = ((∑ l : Fin 1024, A r (c s hs l) * X (c s hs l) k)
          + (∑ l : Fin 1024, A r (c s hs l) * (X (c s hs l) k - X (c s hs l) k)))
        + (∑ l : Fin 1024, (A r (c s hs l) - A r (c s hs l)) * X (c s hs l) k))
    (h0 : ∀ k, tot 0 k = 0 + t 0 k) (hstep : ∀ s k, s + 1 ≤ 15 → tot (s + 1) k = tot s k + t (s + 1) k) :
    (((((∑ k : Fin 64, tot 15 k * WT k j) + (∑ k : Fin 64, tot 15 k * (WT k j - WT k j)))
            + (∑ k : Fin 64, (tot 15 k - tot 15 k) * WT k j))
          + (∑ k : Fin 64, X r k * WB k j)) + (∑ k : Fin 64, X r k * (WB k j - WB k j)))
        + (∑ k : Fin 64, (X r k - X r k) * WB k j)
      = (∑ k : Fin 64, (∑ l : Fin 16384, A r l * X l k) * WT k j) + (∑ k : Fin 64, X r k * WB k j) := by
  have hT : ∀ k, tot 15 k = ∑ l : Fin 16384, A r l * X l k :=
    tot_eq_sum A X hA hX r c hc t tot ht h0 hstep
  have hTfin : ∀ k, IsFin (tot 15 k) := fun k => by
    rw [hT k]; exact isFin_sum_univ _ fun l => (hA _ _).mul (hX _ _)
  refine (six_pass (fun k => tot 15 k) (fun k => WT k j) (fun k => X r k) (fun k => WB k j) hTfin (fun k => hWT k j)
    (fun k => hX r k) (fun k => hWB k j)).trans ?_
  refine congrArg₂ (· + ·) ?_ rfl
  exact Finset.sum_congr rfl fun k _ => by rw [hT k]

/-- ONE HOP against the specification: the same chain, with `A`, `X`, `WT`, `WB` read off `adj`, `x` and the
    `h`-th weight matrix, is `Cert.Spec.pre h adj w x r j`. -/
theorem kernel_hop_pre (h : Fin 2) (adj : SNN.Idx → EReal) (w : SW.Idx → EReal) (x : SNH.Idx → EReal)
    (hadj : ∀ i, IsFin (adj i)) (hw : ∀ i, IsFin (w i)) (hx : ∀ i, IsFin (x i)) (r : Fin 16384) (j : Fin 64)
    (c : (s : ℕ) → s < 16 → Fin 1024 → Fin 16384) (hc : ∀ s hs l, (c s hs l).val = s * 1024 + l.val)
    (t tot : ℕ → Fin 64 → EReal)
    (ht : ∀ (s : ℕ) (hs : s < 16) (k : Fin 64), t s k
      = ((∑ l : Fin 1024, adj (ix2 r (c s hs l)) * x (ix2 (c s hs l) k))
          + (∑ l : Fin 1024, adj (ix2 r (c s hs l)) * (x (ix2 (c s hs l) k) - x (ix2 (c s hs l) k))))
        + (∑ l : Fin 1024, (adj (ix2 r (c s hs l)) - adj (ix2 r (c s hs l))) * x (ix2 (c s hs l) k)))
    (h0 : ∀ k, tot 0 k = 0 + t 0 k) (hstep : ∀ s k, s + 1 ≤ 15 → tot (s + 1) k = tot s k + t (s + 1) k) :
    (((((∑ k : Fin 64, tot 15 k * w (ix3 h (⟨k.val, by have := k.isLt; omega⟩ : Fin 128) j))
              + (∑ k : Fin 64, tot 15 k * (w (ix3 h (⟨k.val, by have := k.isLt; omega⟩ : Fin 128) j)
                  - w (ix3 h (⟨k.val, by have := k.isLt; omega⟩ : Fin 128) j))))
            + (∑ k : Fin 64, (tot 15 k - tot 15 k) * w (ix3 h (⟨k.val, by have := k.isLt; omega⟩ : Fin 128) j)))
          + (∑ k : Fin 64, x (ix2 r k) * w (ix3 h (⟨64 + k.val, by have := k.isLt; omega⟩ : Fin 128) j)))
        + (∑ k : Fin 64, x (ix2 r k) * (w (ix3 h (⟨64 + k.val, by have := k.isLt; omega⟩ : Fin 128) j)
            - w (ix3 h (⟨64 + k.val, by have := k.isLt; omega⟩ : Fin 128) j))))
      + (∑ k : Fin 64, (x (ix2 r k) - x (ix2 r k)) * w (ix3 h (⟨64 + k.val, by have := k.isLt; omega⟩ : Fin 128) j))
      = pre h adj w x r j :=
  chain_eq_pre h adj w x hadj hw hx r j (fun k => tot 15 k)
    (fun k => tot_eq_sum (fun a b => adj (ix2 a b)) (fun a b => x (ix2 a b)) (fun _ _ => hadj _) (fun _ _ => hx _) r c hc
      t tot ht h0 hstep k)
    (fun k => w (ix3 h (⟨k.val, by have := k.isLt; omega⟩ : Fin 128) j))
    (fun k => w (ix3 h (⟨64 + k.val, by have := k.isLt; omega⟩ : Fin 128) j)) (fun _ => rfl) (fun _ => rfl)

end Cert.HopMath

end
-- ==== Proof.KIFin0.lean ====
/-
  Region 0 computes one hop of the message passing. Along a row tile the scratch accumulates, step by step, the
  three-pass products of the adjacency tile with the embedding rows of the step; on finite entries each three-pass
  product is the plain product (the low parts are x − x = 0), so after the sixteenth step the scratch holds the
  aggregate adj · x of the tile's rows. The last step then applies the two dense products, again in three passes
  each, and tanh: the specification's hop. The eight write-backs cover the result array.
-/
import proofs.«138981_j12025908429033_2_alg».proof.Proof.KIVal0
import proofs.«138981_j12025908429033_2_alg».proof.Proof.KIOut0
import proofs.«138981_j12025908429033_2_alg».proof.Proof.HopMath
import proofs.«138981_j12025908429033_2_alg».proof.Proof.SpecFin

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibERealSums Cert.Spec Cert.HopMath

section
variable (V : (c : Dev nD) → (b : Ref sig .tc) → Buf (Elt Ideal) ((c : Thread nD τ).loc b))

theorem outsAt0_congr (c : Dev nD) {n n' : ℕ} (e : n = n') (hn : n < cfg0.N) (hn' : n' < cfg0.N) :
    outsAt0 V c n hn = outsAt0 V c n' hn' := by subst e; rfl

/-- After the last reduction step of a row tile the scratch holds the aggregate of the tile's rows. -/
theorem agg_last0 (c : Dev nD) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v2 : S16384x64.Idx → EReal) i = x i)
    (hxl : ∀ i : S16384x64.Idx, (V c main_v5 : S16384x64.Idx → EReal) i = x i - x i)
    (t : Fin cfg0.N) (h1 : t.val % 16 = 15) (rr : Fin 2048) (k : Fin 64) :
    (outsAt0 V c t.val t.isLt).2 (ix2 rr k) = agg adj x (rowOf0 t.val (tlt0 t) rr) k := by
  have hN := tlt0 t
  have hp : ∀ s, s < 16 → t.val - 15 + s < cfg0.N := fun s hs => by have hc : cfg0.N = 128 := N_0; omega
  let acc : ℕ → EReal := fun s => if hs : s < 16 then (outsAt0 V c (t.val - 15 + s) (hp s hs)).2 (ix2 rr k) else 0
  let tt : ℕ → EReal := fun s => if hs : s < 16 then stepT0 V c ⟨t.val - 15 + s, hp s hs⟩ rr k else 0
  have h15 : acc 15 = (outsAt0 V c t.val t.isLt).2 (ix2 rr k) := by
    show (if hs : 15 < 16 then (outsAt0 V c (t.val - 15 + 15) (hp 15 hs)).2 (ix2 rr k) else 0) = _
    rw [dif_pos (by decide)]
    exact congrArg (fun p => p.2 (ix2 rr k)) (outsAt0_congr V c (show t.val - 15 + 15 = t.val by omega) _ _)
  rw [← h15]
  refine acc_eq_agg adj x hadj hx _ k tt acc ?ht ?h0 ?hstep
  case h0 =>
    show (if hs : 0 < 16 then (outsAt0 V c (t.val - 15 + 0) (hp 0 hs)).2 (ix2 rr k) else 0)
      = 0 + (if hs : 0 < 16 then stepT0 V c ⟨t.val - 15 + 0, hp 0 hs⟩ rr k else 0)
    rw [dif_pos (by decide), dif_pos (by decide)]
    exact tot_zero0 V c ⟨t.val - 15 + 0, hp 0 (by decide)⟩ (by show (t.val - 15 + 0) % 16 = 0; omega) rr k
  case hstep =>
    intro s hs
    show (if h : s + 1 < 16 then (outsAt0 V c (t.val - 15 + (s + 1)) (hp (s + 1) h)).2 (ix2 rr k) else 0)
      = (if h : s < 16 then (outsAt0 V c (t.val - 15 + s) (hp s h)).2 (ix2 rr k) else 0)
        + (if h : s + 1 < 16 then stepT0 V c ⟨t.val - 15 + (s + 1), hp (s + 1) h⟩ rr k else 0)
    rw [dif_pos (by omega), dif_pos (by omega), dif_pos (by omega)]
    rw [tot_succ0 V c ⟨t.val - 15 + (s + 1), hp (s + 1) (by omega)⟩ (by show ¬ (t.val - 15 + (s + 1)) % 16 = 0; omega) rr k]
    refine congrArg (· + _) ?_
    exact congrArg (fun p => p.2 (ix2 rr k)) (outsAt0_congr V c (by show t.val - 15 + (s + 1) - 1 = t.val - 15 + s; omega) _ _)
  case ht =>
    intro s hs
    show (if h : s < 16 then stepT0 V c ⟨t.val - 15 + s, hp s h⟩ rr k else 0) = _
    rw [dif_pos hs]
    unfold stepT0 Pay.stepOf blockTerm
    have hrow : ∀ hh, rowOf0 (t.val - 15 + s) hh rr = rowOf0 t.val (tlt0 t) rr := fun hh =>
      Fin.ext (by show (t.val - 15 + s) / 16 * 2048 + rr.val = t.val / 16 * 2048 + rr.val; omega)
    have hcol : ∀ l : Fin 1024, colOf0 (t.val - 15 + s) l = col ⟨s, hs⟩ l := fun l =>
      Fin.ext (by show (t.val - 15 + s) % 16 * 1024 + l.val = s * 1024 + l.val; omega)
    refine congrArg₂ (· + ·) (congrArg₂ (· + ·) ?_ ?_) ?_ <;> refine Finset.sum_congr rfl fun l _ => ?_
    · rw [blk0_adj, ld0_xh_step, hV0, hxh]; simp only [hrow, hcol]
    · rw [blk0_adj, ld0_xl_step, hV0, hxl]; simp only [hrow, hcol]
    · rw [blk0_adj, ld0_xh_step, hV0, hxh]; simp only [hrow, hcol]

/-- What the last step of a row tile stores into the output window, entry by entry: the specification's hop. -/
theorem out_pt0 (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v2 : S16384x64.Idx → EReal) i = x i)
    (hxl : ∀ i : S16384x64.Idx, (V c main_v5 : S16384x64.Idx → EReal) i = x i - x i)
    (hwth : ∀ k j : Fin 64, (V c main_v8 : S64x64.Idx → EReal) (ix2 k j) = w (ix3 h (⟨k.val, by have := k.isLt; omega⟩ : Fin 128) j))
    (hwtl : ∀ k j : Fin 64, (V c main_v11 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v12 : S64x64.Idx → EReal) (ix2 k j) = w (ix3 h (⟨64 + k.val, by have := k.isLt; omega⟩ : Fin 128) j))
    (hwbl : ∀ k j : Fin 64, (V c main_v15 : S64x64.Idx → EReal) (ix2 k j) = w (ix3 h (⟨64 + k.val, by have := k.isLt; omega⟩ : Fin 128) j) - w (ix3 h (⟨64 + k.val, by have := k.isLt; omega⟩ : Fin 128) j))
    (t : Fin cfg0.N) (h1 : t.val % 16 = 15) (rr : Fin 2048) (j : Fin 64) :
    (outsAt0 V c t.val t.isLt).1 (ix2 rr j) = hop h adj w x (ix2 (rowOf0 t.val (tlt0 t) rr) j) := by
  rw [hop_ix2, out_last0 V c t h1 rr j]
  unfold Pay.denseOf
  refine congrArg Ideal.tanh ?_
  refine Eq.trans ?_ (chain_eq_pre h adj w x hadj hw hx (rowOf0 t.val (tlt0 t) rr) j
    (fun k => (outsAt0 V c t.val t.isLt).2 (ix2 rr k)) (fun k => agg_last0 V c adj w x hadj hw hx hV0 hxh hxl t h1 rr k)
    (fun k => w (ix3 h (⟨k.val, by have := k.isLt; omega⟩ : Fin 128) j))
    (fun k => w (ix3 h (⟨64 + k.val, by have := k.isLt; omega⟩ : Fin 128) j)) (fun _ => rfl) (fun _ => rfl))
  refine congrArg₂ (· + ·) (congrArg₂ (· + ·) (congrArg₂ (· + ·) (congrArg₂ (· + ·) (congrArg₂ (· + ·) ?_ ?_) ?_) ?_) ?_) ?_ <;>
    refine Finset.sum_congr rfl fun k _ => ?_
  · rw [blk0_w3, hwth]
  · rw [blk0_w4, hwtl]
  · rw [blk0_w3, hwth]
  · rw [ld0_xh_tile, hxh, blk0_w5, hwbh]
  · rw [ld0_xh_tile, hxh, blk0_w6, hwbl]
  · rw [ld0_xl_tile, hxl, blk0_w5, hwbh]

/-- A write-back writes the block of any array whose rows the output buffer holds. -/
theorem flushed0_of (c : Dev nD) (G : S16384x64.Idx → EReal) (t : Fin cfg0.N)
    (hpt : ∀ (rr : Fin 2048) (j : Fin 64), (outsAt0 V c t.val t.isLt).1 (ix2 rr j) = G (ix2 (rowOf0 t.val (tlt0 t) rr) j)) :
    (dat0 V c).flushed 7 t = ((cfg0.win 7).blk t).view.read (Elt Ideal) G := by
  show (cfg0.win 7).cut (grid0.coords t) ((dat0 V c).after 7 t) = _
  rw [after0_7]
  funext y
  show (outsAt0 V c t.val t.isLt).1 y = G (((cfg0.win 7).blk t).view.emb y)
  have hy : ix2 (y 0) (y 1) = y := (eq_ix2 y).symm
  have hemb : ((cfg0.win 7).blk t).view.emb y = ix2 (rowOf0 t.val (tlt0 t) (y 0)) (y 1) := by
    exact (congrArg ((cfg0.win 7).blk t).view.emb hy.symm).trans (emb0_out t (y 0) (y 1))
  exact (congrArg (outsAt0 V c t.val t.isLt).1 hy.symm).trans ((hpt (y 0) (y 1)).trans (congrArg G hemb.symm))

/-- What a write-back writes is the block of the specification's hop. -/
theorem flushed0_eq (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v2 : S16384x64.Idx → EReal) i = x i)
    (hxl : ∀ i : S16384x64.Idx, (V c main_v5 : S16384x64.Idx → EReal) i = x i - x i)
    (hwth : ∀ k j : Fin 64, (V c main_v8 : S64x64.Idx → EReal) (ix2 k j) = w (ix3 h (⟨k.val, by have := k.isLt; omega⟩ : Fin 128) j))
    (hwtl : ∀ k j : Fin 64, (V c main_v11 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v12 : S64x64.Idx → EReal) (ix2 k j) = w (ix3 h (⟨64 + k.val, by have := k.isLt; omega⟩ : Fin 128) j))
    (hwbl : ∀ k j : Fin 64, (V c main_v15 : S64x64.Idx → EReal) (ix2 k j) = w (ix3 h (⟨64 + k.val, by have := k.isLt; omega⟩ : Fin 128) j) - w (ix3 h (⟨64 + k.val, by have := k.isLt; omega⟩ : Fin 128) j))
    (t : Fin cfg0.N) (hf : (cfg0.win 7).flush t = true) :
    (dat0 V c).flushed 7 t = ((cfg0.win 7).blk t).view.read (Elt Ideal) (hop h adj w x) := by
  have h1 : t.val % 16 = 15 := (flush0_7 t).mp hf
  exact flushed0_of V c (hop h adj w x) t
    (fun rr j => out_pt0 V c h adj w x hadj hw hx hV0 hxh hxl hwth hwtl hwbh hwbl t h1 rr j)

/-- THE REGION'S RESULT: the result array ends holding the specification's hop of the arrays the region was entered with. -/
theorem final0 (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v2 : S16384x64.Idx → EReal) i = x i)
    (hxl : ∀ i : S16384x64.Idx, (V c main_v5 : S16384x64.Idx → EReal) i = x i - x i)
    (hwth : ∀ k j : Fin 64, (V c main_v8 : S64x64.Idx → EReal) (ix2 k j) = w (ix3 h (⟨k.val, by have := k.isLt; omega⟩ : Fin 128) j))
    (hwtl : ∀ k j : Fin 64, (V c main_v11 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v12 : S64x64.Idx → EReal) (ix2 k j) = w (ix3 h (⟨64 + k.val, by have := k.isLt; omega⟩ : Fin 128) j))
    (hwbl : ∀ k j : Fin 64, (V c main_v15 : S64x64.Idx → EReal) (ix2 k j) = w (ix3 h (⟨64 + k.val, by have := k.isLt; omega⟩ : Fin 128) j) - w (ix3 h (⟨64 + k.val, by have := k.isLt; omega⟩ : Fin 128) j)) :
    (dat0 V c).arrAt 7 cfg0.N = hop h adj w x :=
  (dat0 V c).arrAt_eq_of_cover 7 (hop h adj w x)
    (fun t hf => flushed0_eq V c h adj w x hadj hw hx hV0 hxh hxl hwth hwtl hwbh hwbl t hf) cover0

end

end Cert.KernelIdeal.Fr

end
-- ==== Proof.KIVal1.lean ====
/-
  Region 1: the values its three control cases leave, as the payload functions of the point's blocks, and the
  recursion of the running total along a row tile read at an index at the extended reals.
-/
import proofs.«138981_j12025908429033_2_alg».proof.Proof.KIHalf1
import proofs.«138981_j12025908429033_2_alg».proof.Proof.KIStep

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem hz2_1 : (![0, 0] : Fin 2 → Nat) = fun _ => 0 := funext fun a => by fin_cases a <;> rfl

/-- The 1024 rows of the two feature tables that the point's reduction step reads. -/
abbrev rowsK1 (t : Fin cfg1.N) : Rect S16384x64 :=
  Rect.unit (s := S16384x64) (k1_off1 (grid1.coords t)) S1024x64.size (k1_off1_inb (grid1.coords t))

/-- The 2048 rows of the two feature tables that belong to the point's row tile, read at the last reduction step. -/
abbrev rowsI1 (t : Fin cfg1.N) (h1 : t.val % 16 = 15) : Rect S16384x64 :=
  Rect.unit (s := S16384x64) (k1_off2 (grid1.coords t)) S2048x64.size (k1_off2_inb (grid1.coords t) ((hcond1_1 t).mpr h1))

/-- At k = 0 the scratch is left at the first partial product added to the zero block. -/
theorem soutA1_eq (c : Dev nD) (t : Fin cfg1.N) (h0 : t.val % 16 = 0) (h1 : ¬t.val % 16 = 15) :
    soutA1 V c t h0 h1 = k1_pay2 (iblk1 V c 0 t) (View.ld (iblk1 V c 1 t) (rowsK1 t)) (View.ld (iblk1 V c 2 t) (rowsK1 t)) k1_pay1 := by
  unfold soutA1
  rw [View.read_writes_eq_canon _ _ _ (scoverA1 V c t h0 h1)]
  unfold runA1 kernelRun1_A
  dsimp only
  sl_unfold_run_names
  rw [View.canon_cons_unit_zero (S := S2048x64) hz2_1, View.readCov_unit_zero (S := S2048x64) _ hz2_1]
  simp only [View.readAt_eq_ld, (hs1_0 t).read_unread, (hs1_1 t).read_unread, (hs1_2 t).read_unread, View.ld_unit_zero (S := S2048x1024) hz2_1]
  rfl

/-- At 0 < k < 15 the scratch is left at the step's partial product added to what it held. -/
theorem soutB1_eq (c : Dev nD) (t : Fin cfg1.N) (h0 : ¬t.val % 16 = 0) (h1 : ¬t.val % 16 = 15) (xs : Vec F S2048x64 .f32) :
    soutB1 V c t h0 h1 xs = k1_pay2 (iblk1 V c 0 t) (View.ld (iblk1 V c 1 t) (rowsK1 t)) (View.ld (iblk1 V c 2 t) (rowsK1 t)) xs := by
  unfold soutB1
  rw [View.read_writes_eq_canon _ _ _ (scoverB1 V c t h0 h1 xs)]
  unfold runB1 kernelRun1_B
  dsimp only
  sl_unfold_run_names
  rw [View.canon_unit_zero (S := S2048x64) hz2_1]
  simp only [View.readAt_eq_ld, (hs1_0 t).read_unread, (hs1_1 t).read_unread, (hs1_2 t).read_unread, (Memref.isWhole_whole cc1_scratch0).read_unread, View.ld_unit_zero (S := S2048x1024) hz2_1, View.ld_unit_zero (S := S2048x64) hz2_1]
  rfl

/-- At k = 15 the scratch is left likewise. -/
theorem soutC1_eq (c : Dev nD) (t : Fin cfg1.N) (h0 : ¬t.val % 16 = 0) (h1 : t.val % 16 = 15) (xs : Vec F S2048x64 .f32) :
    soutC1 V c t h0 h1 xs = k1_pay2 (iblk1 V c 0 t) (View.ld (iblk1 V c 1 t) (rowsK1 t)) (View.ld (iblk1 V c 2 t) (rowsK1 t)) xs := by
  unfold soutC1
  rw [View.read_writes_eq_canon _ _ _ (scoverC1 V c t h0 h1 xs)]
  unfold runC1 kernelRun1_C
  dsimp only
  sl_unfold_run_names
  rw [View.canon_unit_zero (S := S2048x64) hz2_1]
  simp only [View.readAt_eq_ld, (hs1_0 t).read_unread, (hs1_1 t).read_unread, (hs1_2 t).read_unread, (Memref.isWhole_whole cc1_scratch0).read_unread, View.ld_unit_zero (S := S2048x1024) hz2_1, View.ld_unit_zero (S := S2048x64) hz2_1]
  rfl

/-- At k = 15 the output window's buffer is left at the second stage of the finished sum, the row tile's own rows of
    the two tables and the four weight blocks. -/
theorem outC1_eq (c : Dev nD) (t : Fin cfg1.N) (h0 : ¬t.val % 16 = 0) (h1 : t.val % 16 = 15) (xs : Vec F S2048x64 .f32) :
    outC1 V c t h0 h1 xs = k1_pay3 (soutC1 V c t h0 h1 xs) (View.ld (iblk1 V c 1 t) (rowsI1 t h1)) (View.ld (iblk1 V c 2 t) (rowsI1 t h1))
      (iblk1 V c 3 t) (iblk1 V c 4 t) (iblk1 V c 3 t) (iblk1 V c 5 t) (iblk1 V c 6 t) (iblk1 V c 5 t) := by
  rw [soutC1_eq V c t h0 h1 xs]
  unfold outC1
  rw [View.read_writes_eq_canon _ _ _ (coverC1 V c t h0 h1 xs)]
  unfold runC1 kernelRun1_C
  dsimp only
  sl_unfold_run_names
  rw [View.canon_unit_zero (S := S2048x64) hz2_1, View.readCov_unit_zero (S := S2048x64) _ hz2_1]
  simp only [View.readAt_eq_ld, (hs1_0 t).read_unread, (hs1_1 t).read_unread, (hs1_2 t).read_unread, (hs1_3 t).read_unread, (hs1_4 t).read_unread, (hs1_5 t).read_unread, (hs1_6 t).read_unread, (Memref.isWhole_whole cc1_scratch0).read_unread, View.ld_unit_zero (S := S2048x1024) hz2_1, View.ld_unit_zero (S := S2048x64) hz2_1, View.ld_unit_zero (S := S64x64) hz2_1]
  rfl

end

/-! ## The running total along a row tile, at the extended reals -/

section
open Idealize.ShloMosaic.ValueIdx
variable (V : (c : Dev nD) → (b : Ref sig .tc) → Buf (Elt Ideal) ((c : Thread nD τ).loc b))

/-- What the reduction step at point t adds to the running total at (r, j). -/
def stepT1 (c : Dev nD) (t : Fin cfg1.N) (r : Fin 2048) (j : Fin 64) : EReal :=
  Pay.stepOf (iblk1 V c 0 t) (View.ld (iblk1 V c 1 t) (rowsK1 t)) (View.ld (iblk1 V c 2 t) (rowsK1 t)) r j

/-- At the first step of a row tile the running total is the step's term added to zero. -/
theorem tot_zero1 (c : Dev nD) (t : Fin cfg1.N) (h0 : t.val % 16 = 0) (r : Fin 2048) (j : Fin 64) :
    (outsAt1 V c t.val t.isLt).2 (ix2 r j) = 0 + stepT1 V c t r j := by
  have h1 : ¬t.val % 16 = 15 := by omega
  rw [outsAt1_A V c t h0 h1]
  dsimp only
  rw [soutA1_eq V c t h0 h1]
  refine (Pay.R1.pay2_eq_stepOf (iblk1 V c 0 t) (View.ld (iblk1 V c 1 t) (rowsK1 t)) (View.ld (iblk1 V c 2 t) (rowsK1 t)) (k1_pay1 (F := Ideal)) r j).trans ?_
  rw [Pay.R1.pay1_apply]
  rfl

/-- At every later step it is the step's term added to the total the step before left. -/
theorem tot_succ1 (c : Dev nD) (t : Fin cfg1.N) (h0 : ¬t.val % 16 = 0) (r : Fin 2048) (j : Fin 64) :
    (outsAt1 V c t.val t.isLt).2 (ix2 r j) = (outsAt1 V c (t.val - 1) (Nat.lt_of_le_of_lt (Nat.sub_le _ _) t.isLt)).2 (ix2 r j) + stepT1 V c t r j := by
  by_cases h1 : t.val % 16 = 15
  · rw [outsAt1_C V c t h0 h1]
    dsimp only
    rw [soutC1_eq V c t h0 h1]
    exact Pay.R1.pay2_eq_stepOf (iblk1 V c 0 t) (View.ld (iblk1 V c 1 t) (rowsK1 t)) (View.ld (iblk1 V c 2 t) (rowsK1 t)) (outsAt1 V c (t.val - 1) (Nat.lt_of_le_of_lt (Nat.sub_le _ _) t.isLt)).2 r j
  · rw [outsAt1_B V c t h0 h1]
    dsimp only
    rw [soutB1_eq V c t h0 h1]
    exact Pay.R1.pay2_eq_stepOf (iblk1 V c 0 t) (View.ld (iblk1 V c 1 t) (rowsK1 t)) (View.ld (iblk1 V c 2 t) (rowsK1 t)) (outsAt1 V c (t.val - 1) (Nat.lt_of_le_of_lt (Nat.sub_le _ _) t.isLt)).2 r j

/-- At the last step the output window's buffer holds the second stage of the finished total. -/
theorem out_last1 (c : Dev nD) (t : Fin cfg1.N) (h1 : t.val % 16 = 15) (r : Fin 2048) (j : Fin 64) :
    (outsAt1 V c t.val t.isLt).1 (ix2 r j)
      = Pay.denseOf (outsAt1 V c t.val t.isLt).2 (View.ld (iblk1 V c 1 t) (rowsI1 t h1)) (View.ld (iblk1 V c 2 t) (rowsI1 t h1))
          (iblk1 V c 3 t) (iblk1 V c 4 t) (iblk1 V c 5 t) (iblk1 V c 6 t) r j := by
  have h0 : ¬t.val % 16 = 0 := by omega
  rw [outsAt1_C V c t h0 h1]
  dsimp only
  rw [outC1_eq V c t h0 h1]
  exact Pay.R1.pay3_eq_denseOf (soutC1 V c t h0 h1 (outsAt1 V c (t.val - 1) (Nat.lt_of_le_of_lt (Nat.sub_le _ _) t.isLt)).2) (View.ld (iblk1 V c 1 t) (rowsI1 t h1)) (View.ld (iblk1 V c 2 t) (rowsI1 t h1)) (iblk1 V c 3 t) (iblk1 V c 4 t) (iblk1 V c 5 t) (iblk1 V c 6 t) r j

end

end Cert.KernelIdeal.Fr

end
-- ==== Proof.KIBlk1.lean ====
/-
  Region 1: the blocks the body reads, as entries of the arrays the region is entered with. At position
  t = 16·i + k the adjacency tile is rows 2048·i … and columns 1024·k … of the matrix; the two embedding operands
  are resident whole, and the body reads their rows 1024·k … (the reduction slice) and 2048·i … (the row tile);
  the four weight operands are resident whole.
-/
import proofs.«138981_j12025908429033_2_alg».proof.Proof.KIHalf1
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Row `rr` of row tile `t / 16`, as a row of the whole matrix. -/
def rowOf1 (t : ℕ) (ht : t < 128) (rr : Fin 2048) : Fin 16384 := ⟨t / 16 * 2048 + rr.val, by omega⟩
/-- Column `l` of reduction step `t % 16`, as a column of the whole matrix. -/
def colOf1 (t : ℕ) (l : Fin 1024) : Fin 16384 := ⟨t % 16 * 1024 + l.val, by omega⟩

/-- The windows' index maps and the body's two row offsets, decided over the grid. -/
theorem idx_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 16 ∧ win1_7.index t (1 : Fin 2) = 0 :=
  (by decide +kernel : ∀ t : Fin grid1.N, _)
theorem off_facts1 : ∀ t : Fin cfg1.N,
    k1_off1 (grid1.coords t) (0 : Fin 2) = 1024 * (t.val % 16) ∧ k1_off1 (grid1.coords t) (1 : Fin 2) = 0
    ∧ k1_off2 (grid1.coords t) (0 : Fin 2) = 2048 * (t.val / 16) ∧ k1_off2 (grid1.coords t) (1 : Fin 2) = 0 :=
  (by decide +kernel : ∀ t : Fin grid1.N, _)

theorem tlt1 (t : Fin cfg1.N) : t.val < 128 := lt_of_lt_of_eq t.isLt (show cfg1.N = 128 from N_1)

section
variable (V : (c : Dev nD) → (b : Ref sig .tc) → Buf (Elt F) ((c : Thread nD τ).loc b))

/-- The adjacency tile. -/
theorem blk1_adj (c : Dev nD) (t : Fin cfg1.N) (rr : Fin 2048) (l : Fin 1024) :
    (iblk1 V c 0 t : Vec F S2048x1024 .f32) (ix2 rr l) = V c main_arg1 (ix2 (rowOf1 t.val (tlt1 t) rr) (colOf1 t.val l)) := by
  show V c main_arg1 (((cfg1.win 0).blk t).view.emb (ix2 rr l)) = _
  refine congrArg (V c main_arg1) ?_
  obtain ⟨e0, e1, -⟩ := idx_facts1 t
  funext a; apply Fin.ext
  match a with
  | ⟨0, _⟩ => show win1_0.index t (0 : Fin 2) * 2048 + 1 * rr.val = t.val / 16 * 2048 + rr.val; rw [e0]; omega
  | ⟨1, _⟩ => show win1_0.index t (1 : Fin 2) * 1024 + 1 * l.val = t.val % 16 * 1024 + l.val; rw [e1]; omega

/-- The rows of the reduction slice, read off a resident embedding operand (window 1 or 2). -/
theorem ld1_xh_step (c : Dev nD) (t : Fin cfg1.N) (inb) (l : Fin 1024) (k : Fin 64) :
    View.ld (iblk1 V c 1 t : Vec F S16384x64 .bf16) (Rect.unit (s := S16384x64) (k1_off1 (grid1.coords t)) S1024x64.size inb) (ix2 l k)
      = V c main_v19 (ix2 (colOf1 t.val l) k) := by
  show V c main_v19 (((cfg1.win 1).blk t).view.emb ((Rect.unit (s := S16384x64) (k1_off1 (grid1.coords t)) S1024x64.size inb).emb (ix2 l k))) = _
  refine congrArg (V c main_v19) ?_
  obtain ⟨-, -, e0, e1, -⟩ := idx_facts1 t
  obtain ⟨o0, o1, -, -⟩ := off_facts1 t
  funext a; apply Fin.ext
  match a with
  | ⟨0, _⟩ => show win1_1.index t (0 : Fin 2) * 16384 + 1 * (k1_off1 (grid1.coords t) (0 : Fin 2) + 1 * l.val) = t.val % 16 * 1024 + l.val; rw [e0, o0]; omega
  | ⟨1, _⟩ => show win1_1.index t (1 : Fin 2) * 64 + 1 * (k1_off1 (grid1.coords t) (1 : Fin 2) + 1 * k.val) = k.val; rw [e1, o1]; omega
theorem ld1_xl_step (c : Dev nD) (t : Fin cfg1.N) (inb) (l : Fin 1024) (k : Fin 64) :
    View.ld (iblk1 V c 2 t : Vec F S16384x64 .bf16) (Rect.unit (s := S16384x64) (k1_off1 (grid1.coords t)) S1024x64.size inb) (ix2 l k)
      = V c main_v22 (ix2 (colOf1 t.val l) k) := by
  show V c main_v22 (((cfg1.win 2).blk t).view.emb ((Rect.unit (s := S16384x64) (k1_off1 (grid1.coords t)) S1024x64.size inb).emb (ix2 l k))) = _
  refine congrArg (V c main_v22) ?_
  obtain ⟨-, -, -, -, e0, e1, -⟩ := idx_facts1 t
  obtain ⟨o0, o1, -, -⟩ := off_facts1 t
  funext a; apply Fin.ext
  match a with
  | ⟨0, _⟩ => show win1_2.index t (0 : Fin 2) * 16384 + 1 * (k1_off1 (grid1.coords t) (0 : Fin 2) + 1 * l.val) = t.val % 16 * 1024 + l.val; rw [e0, o0]; omega
  | ⟨1, _⟩ => show win1_2.index t (1 : Fin 2) * 64 + 1 * (k1_off1 (grid1.coords t) (1 : Fin 2) + 1 * k.val) = k.val; rw [e1, o1]; omega

/-- The rows of the row tile, read off a resident embedding operand. -/
theorem ld1_xh_tile (c : Dev nD) (t : Fin cfg1.N) (inb) (rr : Fin 2048) (k : Fin 64) :
    View.ld (iblk1 V c 1 t : Vec F S16384x64 .bf16) (Rect.unit (s := S16384x64) (k1_off2 (grid1.coords t)) S2048x64.size inb) (ix2 rr k)
      = V c main_v19 (ix2 (rowOf1 t.val (tlt1 t) rr) k) := by
  show V c main_v19 (((cfg1.win 1).blk t).view.emb ((Rect.unit (s := S16384x64) (k1_off2 (grid1.coords t)) S2048x64.size inb).emb (ix2 rr k))) = _
  refine congrArg (V c main_v19) ?_
  obtain ⟨-, -, e0, e1, -⟩ := idx_facts1 t
  obtain ⟨-, -, o0, o1⟩ := off_facts1 t
  funext a; apply Fin.ext
  match a with
  | ⟨0, _⟩ => show win1_1.index t (0 : Fin 2) * 16384 + 1 * (k1_off2 (grid1.coords t) (0 : Fin 2) + 1 * rr.val) = t.val / 16 * 2048 + rr.val; rw [e0, o0]; omega
  | ⟨1, _⟩ => show win1_1.index t (1 : Fin 2) * 64 + 1 * (k1_off2 (grid1.coords t) (1 : Fin 2) + 1 * k.val) = k.val; rw [e1, o1]; omega
theorem ld1_xl_tile (c : Dev nD) (t : Fin cfg1.N) (inb) (rr : Fin 2048) (k : Fin 64) :
    View.ld (iblk1 V c 2 t : Vec F S16384x64 .bf16) (Rect.unit (s := S16384x64) (k1_off2 (grid1.coords t)) S2048x64.size inb) (ix2 rr k)
      = V c main_v22 (ix2 (rowOf1 t.val (tlt1 t) rr) k) := by
  show V c main_v22 (((cfg1.win 2).blk t).view.emb ((Rect.unit (s := S16384x64) (k1_off2 (grid1.coords t)) S2048x64.size inb).emb (ix2 rr k))) = _
  refine congrArg (V c main_v22) ?_
  obtain ⟨-, -, -, -, e0, e1, -⟩ := idx_facts1 t
  obtain ⟨-, -, o0, o1⟩ := off_facts1 t
  funext a; apply Fin.ext
  match a with
  | ⟨0, _⟩ => show win1_2.index t (0 : Fin 2) * 16384 + 1 * (k1_off2 (grid1.coords t) (0 : Fin 2) + 1 * rr.val) = t.val / 16 * 2048 + rr.val; rw [e0, o0]; omega
  | ⟨1, _⟩ => show win1_2.index t (1 : Fin 2) * 64 + 1 * (k1_off2 (grid1.coords t) (1 : Fin 2) + 1 * k.val) = k.val; rw [e1, o1]; omega

/-- A resident weight operand is its whole array. -/
theorem blk1_w3 (c : Dev nD) (t : Fin cfg1.N) (k j : Fin 64) :
    (iblk1 V c 3 t : Vec F S64x64 .bf16) (ix2 k j) = V c main_v25 (ix2 k j) := by
  show V c main_v25 (((cfg1.win 3).blk t).view.emb (ix2 k j)) = _
  refine congrArg (V c main_v25) ?_
  obtain ⟨-, -, -, -, -, -, e0, e1, -⟩ := idx_facts1 t
  funext a; apply Fin.ext
  match a with
  | ⟨0, _⟩ => show win1_3.index t (0 : Fin 2) * 64 + 1 * k.val = k.val; rw [e0]; omega
  | ⟨1, _⟩ => show win1_3.index t (1 : Fin 2) * 64 + 1 * j.val = j.val; rw [e1]; omega

/-- A resident weight operand is its whole array. -/
theorem blk1_w4 (c : Dev nD) (t : Fin cfg1.N) (k j : Fin 64) :
    (iblk1 V c 4 t : Vec F S64x64 .bf16) (ix2 k j) = V c main_v28 (ix2 k j) := by
  show V c main_v28 (((cfg1.win 4).blk t).view.emb (ix2 k j)) = _
  refine congrArg (V c main_v28) ?_
  obtain ⟨-, -, -, -, -, -, -, -, e0, e1, -⟩ := idx_facts1 t
  funext a; apply Fin.ext
  match a with
  | ⟨0, _⟩ => show win1_4.index t (0 : Fin 2) * 64 + 1 * k.val = k.val; rw [e0]; omega
  | ⟨1, _⟩ => show win1_4.index t (1 : Fin 2) * 64 + 1 * j.val = j.val; rw [e1]; omega

/-- A resident weight operand is its whole array. -/
theorem blk1_w5 (c : Dev nD) (t : Fin cfg1.N) (k j : Fin 64) :
    (iblk1 V c 5 t : Vec F S64x64 .bf16) (ix2 k j) = V c main_v29 (ix2 k j) := by
  show V c main_v29 (((cfg1.win 5).blk t).view.emb (ix2 k j)) = _
  refine congrArg (V c main_v29) ?_
  obtain ⟨-, -, -, -, -, -, -, -, -, -, e0, e1, -⟩ := idx_facts1 t
  funext a; apply Fin.ext
  match a with
  | ⟨0, _⟩ => show win1_5.index t (0 : Fin 2) * 64 + 1 * k.val = k.val; rw [e0]; omega
  | ⟨1, _⟩ => show win1_5.index t (1 : Fin 2) * 64 + 1 * j.val = j.val; rw [e1]; omega

/-- A resident weight operand is its whole array. -/
theorem blk1_w6 (c : Dev nD) (t : Fin cfg1.N) (k j : Fin 64) :
    (iblk1 V c 6 t : Vec F S64x64 .bf16) (ix2 k j) = V c main_v32 (ix2 k j) := by
  show V c main_v32 (((cfg1.win 6).blk t).view.emb (ix2 k j)) = _
  refine congrArg (V c main_v32) ?_
  obtain ⟨-, -, -, -, -, -, -, -, -, -, -, -, e0, e1, -⟩ := idx_facts1 t
  funext a; apply Fin.ext
  match a with
  | ⟨0, _⟩ => show win1_6.index t (0 : Fin 2) * 64 + 1 * k.val = k.val; rw [e0]; omega
  | ⟨1, _⟩ => show win1_6.index t (1 : Fin 2) * 64 + 1 * j.val = j.val; rw [e1]; omega

end

end Cert.KernelIdeal.Fr

end
-- ==== Proof.KIOut1.lean ====
/-
  Region 1: the output window. The block written back at the last reduction step of row tile i is rows
  2048·i … 2048·i + 2047 of the result array, and those eight blocks cover it.
-/
import proofs.«138981_j12025908429033_2_alg».proof.Proof.KIBlk1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The rows of the output block at position `t` are rows of the result array. -/
theorem emb1_out (t : Fin cfg1.N) (rr : Fin 2048) (j : Fin 64) :
    ((cfg1.win 7).blk t).view.emb (ix2 rr j) = ix2 (rowOf1 t.val (tlt1 t) rr) j := by
  obtain ⟨-, -, -, -, -, -, -, -, -, -, -, -, -, -, e0, e1⟩ := idx_facts1 t
  funext a; apply Fin.ext
  match a with
  | ⟨0, _⟩ => show win1_7.index t (0 : Fin 2) * 2048 + 1 * rr.val = t.val / 16 * 2048 + rr.val; rw [e0]; omega
  | ⟨1, _⟩ => show win1_7.index t (1 : Fin 2) * 64 + 1 * j.val = j.val; rw [e1]; omega

/-- An entry of the result array is in the block of position `t` iff its row is in that block's row range. -/
theorem mem_blk1 (t : Fin cfg1.N) (i : S16384x64.Idx) :
    i ∈ ((cfg1.win 7).blk t).view.set ↔ ∀ a : Fin 2, win1_7.index t a * S2048x64.size a ≤ (i a).val ∧ (i a).val < win1_7.index t a * S2048x64.size a + S2048x64.size a := by
  show i ∈ ((View.whole main_v33).slice (win1_7.rect t)).set ↔ _
  rw [View.set_slice_whole, Rect.mem_set_unit]
  exact Iff.rfl

/-- The last reduction step of row tile `q`. -/
def lastOf1 (q : ℕ) (hq : q < 8) : Fin cfg1.N := ⟨16 * q + 15, by rw [show cfg1.N = 128 from N_1]; omega⟩

/-- Every entry of the result array lies in the block some write-back writes. -/
theorem cover1 (i : S16384x64.Idx) : ∃ t : Fin cfg1.N, (cfg1.win 7).flush t = true ∧ i ∈ ((cfg1.win 7).blk t).view.set := by
  have hi0 : (i 0).val < 16384 := idx2_lt0 i
  have hi1 : (i 1).val < 64 := idx2_lt1 i
  have hq : (i 0).val / 2048 < 8 := by omega
  refine ⟨lastOf1 ((i 0).val / 2048) hq, (flush1_7 _).mpr (by show (16 * ((i 0).val / 2048) + 15) % 16 = 15; omega), ?_⟩
  rw [mem_blk1]
  obtain ⟨-, -, -, -, -, -, -, -, -, -, -, -, -, -, e0, e1⟩ := idx_facts1 (lastOf1 ((i 0).val / 2048) hq)
  have e0' : win1_7.index (lastOf1 ((i 0).val / 2048) hq) (0 : Fin 2) = (16 * ((i 0).val / 2048) + 15) / 16 := e0
  intro a
  match a with
  | ⟨0, _⟩ => show win1_7.index (lastOf1 ((i 0).val / 2048) hq) (0 : Fin 2) * 2048 ≤ (i 0).val ∧ (i 0).val < win1_7.index (lastOf1 ((i 0).val / 2048) hq) (0 : Fin 2) * 2048 + 2048; rw [e0']; omega
  | ⟨1, _⟩ => show win1_7.index (lastOf1 ((i 0).val / 2048) hq) (1 : Fin 2) * 64 ≤ (i 1).val ∧ (i 1).val < win1_7.index (lastOf1 ((i 0).val / 2048) hq) (1 : Fin 2) * 64 + 64; rw [e1]; omega

end Cert.KernelIdeal.Fr

end
-- ==== Proof.KIFin1.lean ====
/-
  Region 1 computes one hop of the message passing. Along a row tile the scratch accumulates, step by step, the
  three-pass products of the adjacency tile with the embedding rows of the step; on finite entries each three-pass
  product is the plain product (the low parts are x − x = 0), so after the sixteenth step the scratch holds the
  aggregate adj · x of the tile's rows. The last step then applies the two dense products, again in three passes
  each, and tanh: the specification's hop. The eight write-backs cover the result array.
-/
import proofs.«138981_j12025908429033_2_alg».proof.Proof.KIVal1
import proofs.«138981_j12025908429033_2_alg».proof.Proof.KIOut1
import proofs.«138981_j12025908429033_2_alg».proof.Proof.HopMath
import proofs.«138981_j12025908429033_2_alg».proof.Proof.SpecFin

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibERealSums Cert.Spec Cert.HopMath

section
variable (V : (c : Dev nD) → (b : Ref sig .tc) → Buf (Elt Ideal) ((c : Thread nD τ).loc b))

theorem outsAt1_congr (c : Dev nD) {n n' : ℕ} (e : n = n') (hn : n < cfg1.N) (hn' : n' < cfg1.N) :
    outsAt1 V c n hn = outsAt1 V c n' hn' := by subst e; rfl

/-- After the last reduction step of a row tile the scratch holds the aggregate of the tile's rows. -/
theorem agg_last1 (c : Dev nD) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v19 : S16384x64.Idx → EReal) i = x i)
    (hxl : ∀ i : S16384x64.Idx, (V c main_v22 : S16384x64.Idx → EReal) i = x i - x i)
    (t : Fin cfg1.N) (h1 : t.val % 16 = 15) (rr : Fin 2048) (k : Fin 64) :
    (outsAt1 V c t.val t.isLt).2 (ix2 rr k) = agg adj x (rowOf1 t.val (tlt1 t) rr) k := by
  have hN := tlt1 t
  have hp : ∀ s, s < 16 → t.val - 15 + s < cfg1.N := fun s hs => by have hc : cfg1.N = 128 := N_1; omega
  let acc : ℕ → EReal := fun s => if hs : s < 16 then (outsAt1 V c (t.val - 15 + s) (hp s hs)).2 (ix2 rr k) else 0
  let tt : ℕ → EReal := fun s => if hs : s < 16 then stepT1 V c ⟨t.val - 15 + s, hp s hs⟩ rr k else 0
  have h15 : acc 15 = (outsAt1 V c t.val t.isLt).2 (ix2 rr k) := by
    show (if hs : 15 < 16 then (outsAt1 V c (t.val - 15 + 15) (hp 15 hs)).2 (ix2 rr k) else 0) = _
    rw [dif_pos (by decide)]
    exact congrArg (fun p => p.2 (ix2 rr k)) (outsAt1_congr V c (show t.val - 15 + 15 = t.val by omega) _ _)
  rw [← h15]
  refine acc_eq_agg adj x hadj hx _ k tt acc ?ht ?h0 ?hstep
  case h0 =>
    show (if hs : 0 < 16 then (outsAt1 V c (t.val - 15 + 0) (hp 0 hs)).2 (ix2 rr k) else 0)
      = 0 + (if hs : 0 < 16 then stepT1 V c ⟨t.val - 15 + 0, hp 0 hs⟩ rr k else 0)
    rw [dif_pos (by decide), dif_pos (by decide)]
    exact tot_zero1 V c ⟨t.val - 15 + 0, hp 0 (by decide)⟩ (by show (t.val - 15 + 0) % 16 = 0; omega) rr k
  case hstep =>
    intro s hs
    show (if h : s + 1 < 16 then (outsAt1 V c (t.val - 15 + (s + 1)) (hp (s + 1) h)).2 (ix2 rr k) else 0)
      = (if h : s < 16 then (outsAt1 V c (t.val - 15 + s) (hp s h)).2 (ix2 rr k) else 0)
        + (if h : s + 1 < 16 then stepT1 V c ⟨t.val - 15 + (s + 1), hp (s + 1) h⟩ rr k else 0)
    rw [dif_pos (by omega), dif_pos (by omega), dif_pos (by omega)]
    rw [tot_succ1 V c ⟨t.val - 15 + (s + 1), hp (s + 1) (by omega)⟩ (by show ¬ (t.val - 15 + (s + 1)) % 16 = 0; omega) rr k]
    refine congrArg (· + _) ?_
    exact congrArg (fun p => p.2 (ix2 rr k)) (outsAt1_congr V c (by show t.val - 15 + (s + 1) - 1 = t.val - 15 + s; omega) _ _)
  case ht =>
    intro s hs
    show (if h : s < 16 then stepT1 V c ⟨t.val - 15 + s, hp s h⟩ rr k else 0) = _
    rw [dif_pos hs]
    unfold stepT1 Pay.stepOf blockTerm
    have hrow : ∀ hh, rowOf1 (t.val - 15 + s) hh rr = rowOf1 t.val (tlt1 t) rr := fun hh =>
      Fin.ext (by show (t.val - 15 + s) / 16 * 2048 + rr.val = t.val / 16 * 2048 + rr.val; omega)
    have hcol : ∀ l : Fin 1024, colOf1 (t.val - 15 + s) l = col ⟨s, hs⟩ l := fun l =>
      Fin.ext (by show (t.val - 15 + s) % 16 * 1024 + l.val = s * 1024 + l.val; omega)
    refine congrArg₂ (· + ·) (congrArg₂ (· + ·) ?_ ?_) ?_ <;> refine Finset.sum_congr rfl fun l _ => ?_
    · rw [blk1_adj, ld1_xh_step, hV0, hxh]; simp only [hrow, hcol]
    · rw [blk1_adj, ld1_xl_step, hV0, hxl]; simp only [hrow, hcol]
    · rw [blk1_adj, ld1_xh_step, hV0, hxh]; simp only [hrow, hcol]

/-- What the last step of a row tile stores into the output window, entry by entry: the specification's hop. -/
theorem out_pt1 (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v19 : S16384x64.Idx → EReal) i = x i)
    (hxl : ∀ i : S16384x64.Idx, (V c main_v22 : S16384x64.Idx → EReal) i = x i - x i)
    (hwth : ∀ k j : Fin 64, (V c main_v25 : S64x64.Idx → EReal) (ix2 k j) = w (ix3 h (⟨k.val, by have := k.isLt; omega⟩ : Fin 128) j))
    (hwtl : ∀ k j : Fin 64, (V c main_v28 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v29 : S64x64.Idx → EReal) (ix2 k j) = w (ix3 h (⟨64 + k.val, by have := k.isLt; omega⟩ : Fin 128) j))
    (hwbl : ∀ k j : Fin 64, (V c main_v32 : S64x64.Idx → EReal) (ix2 k j) = w (ix3 h (⟨64 + k.val, by have := k.isLt; omega⟩ : Fin 128) j) - w (ix3 h (⟨64 + k.val, by have := k.isLt; omega⟩ : Fin 128) j))
    (t : Fin cfg1.N) (h1 : t.val % 16 = 15) (rr : Fin 2048) (j : Fin 64) :
    (outsAt1 V c t.val t.isLt).1 (ix2 rr j) = hop h adj w x (ix2 (rowOf1 t.val (tlt1 t) rr) j) := by
  rw [hop_ix2, out_last1 V c t h1 rr j]
  unfold Pay.denseOf
  refine congrArg Ideal.tanh ?_
  refine Eq.trans ?_ (chain_eq_pre h adj w x hadj hw hx (rowOf1 t.val (tlt1 t) rr) j
    (fun k => (outsAt1 V c t.val t.isLt).2 (ix2 rr k)) (fun k => agg_last1 V c adj w x hadj hw hx hV0 hxh hxl t h1 rr k)
    (fun k => w (ix3 h (⟨k.val, by have := k.isLt; omega⟩ : Fin 128) j))
    (fun k => w (ix3 h (⟨64 + k.val, by have := k.isLt; omega⟩ : Fin 128) j)) (fun _ => rfl) (fun _ => rfl))
  refine congrArg₂ (· + ·) (congrArg₂ (· + ·) (congrArg₂ (· + ·) (congrArg₂ (· + ·) (congrArg₂ (· + ·) ?_ ?_) ?_) ?_) ?_) ?_ <;>
    refine Finset.sum_congr rfl fun k _ => ?_
  · rw [blk1_w3, hwth]
  · rw [blk1_w4, hwtl]
  · rw [blk1_w3, hwth]
  · rw [ld1_xh_tile, hxh, blk1_w5, hwbh]
  · rw [ld1_xh_tile, hxh, blk1_w6, hwbl]
  · rw [ld1_xl_tile, hxl, blk1_w5, hwbh]

/-- A write-back writes the block of any array whose rows the output buffer holds. -/
theorem flushed1_of (c : Dev nD) (G : S16384x64.Idx → EReal) (t : Fin cfg1.N)
    (hpt : ∀ (rr : Fin 2048) (j : Fin 64), (outsAt1 V c t.val t.isLt).1 (ix2 rr j) = G (ix2 (rowOf1 t.val (tlt1 t) rr) j)) :
    (dat1 V c).flushed 7 t = ((cfg1.win 7).blk t).view.read (Elt Ideal) G := by
  show (cfg1.win 7).cut (grid1.coords t) ((dat1 V c).after 7 t) = _
  rw [after1_7]
  funext y
  show (outsAt1 V c t.val t.isLt).1 y = G (((cfg1.win 7).blk t).view.emb y)
  have hy : ix2 (y 0) (y 1) = y := (eq_ix2 y).symm
  have hemb : ((cfg1.win 7).blk t).view.emb y = ix2 (rowOf1 t.val (tlt1 t) (y 0)) (y 1) := by
    exact (congrArg ((cfg1.win 7).blk t).view.emb hy.symm).trans (emb1_out t (y 0) (y 1))
  exact (congrArg (outsAt1 V c t.val t.isLt).1 hy.symm).trans ((hpt (y 0) (y 1)).trans (congrArg G hemb.symm))

/-- What a write-back writes is the block of the specification's hop. -/
theorem flushed1_eq (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v19 : S16384x64.Idx → EReal) i = x i)
    (hxl : ∀ i : S16384x64.Idx, (V c main_v22 : S16384x64.Idx → EReal) i = x i - x i)
    (hwth : ∀ k j : Fin 64, (V c main_v25 : S64x64.Idx → EReal) (ix2 k j) = w (ix3 h (⟨k.val, by have := k.isLt; omega⟩ : Fin 128) j))
    (hwtl : ∀ k j : Fin 64, (V c main_v28 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v29 : S64x64.Idx → EReal) (ix2 k j) = w (ix3 h (⟨64 + k.val, by have := k.isLt; omega⟩ : Fin 128) j))
    (hwbl : ∀ k j : Fin 64, (V c main_v32 : S64x64.Idx → EReal) (ix2 k j) = w (ix3 h (⟨64 + k.val, by have := k.isLt; omega⟩ : Fin 128) j) - w (ix3 h (⟨64 + k.val, by have := k.isLt; omega⟩ : Fin 128) j))
    (t : Fin cfg1.N) (hf : (cfg1.win 7).flush t = true) :
    (dat1 V c).flushed 7 t = ((cfg1.win 7).blk t).view.read (Elt Ideal) (hop h adj w x) := by
  have h1 : t.val % 16 = 15 := (flush1_7 t).mp hf
  exact flushed1_of V c (hop h adj w x) t
    (fun rr j => out_pt1 V c h adj w x hadj hw hx hV0 hxh hxl hwth hwtl hwbh hwbl t h1 rr j)

/-- THE REGION'S RESULT: the result array ends holding the specification's hop of the arrays the region was entered with. -/
theorem final1 (c : Dev nD) (h : Fin 2) (adj : SNN.Idx → EReal) (w : SW.Idx → EReal) (x : SNH.Idx → EReal)
    (hadj : ∀ i, IsFin (adj i)) (hw : ∀ i, IsFin (w i)) (hx : ∀ i, IsFin (x i))
    (hV0 : (V c main_arg1 : S16384x16384.Idx → EReal) = adj)
    (hxh : ∀ i : S16384x64.Idx, (V c main_v19 : S16384x64.Idx → EReal) i = x i)
    (hxl : ∀ i : S16384x64.Idx, (V c main_v22 : S16384x64.Idx → EReal) i = x i - x i)
    (hwth : ∀ k j : Fin 64, (V c main_v25 : S64x64.Idx → EReal) (ix2 k j) = w (ix3 h (⟨k.val, by have := k.isLt; omega⟩ : Fin 128) j))
    (hwtl : ∀ k j : Fin 64, (V c main_v28 : S64x64.Idx → EReal) (ix2 k j) = w (ix3 h (⟨k.val, by have := k.isLt; omega⟩ : Fin 128) j) - w (ix3 h (⟨k.val, by have := k.isLt; omega⟩ : Fin 128) j))
    (hwbh : ∀ k j : Fin 64, (V c main_v29 : S64x64.Idx → EReal) (ix2 k j) = w (ix3 h (⟨64 + k.val, by have := k.isLt; omega⟩ : Fin 128) j))
    (hwbl : ∀ k j : Fin 64, (V c main_v32 : S64x64.Idx → EReal) (ix2 k j) = w (ix3 h (⟨64 + k.val, by have := k.isLt; omega⟩ : Fin 128) j) - w (ix3 h (⟨64 + k.val, by have := k.isLt; omega⟩ : Fin 128) j)) :
    (dat1 V c).arrAt 7 cfg1.N = hop h adj w x :=
  (dat1 V c).arrAt_eq_of_cover 7 (hop h adj w x)
    (fun t hf => flushed1_eq V c h adj w x hadj hw hx hV0 hxh hxl hwth hwtl hwbh hwbl t hf) cover1

end

end Cert.KernelIdeal.Fr

end
-- ==== Proof.KIGlue.lean ====
/-
  Each region's result, at the program's own operands.

  The two regions' value theorems are stated for any operands that are, entry by entry, the adjacency matrix, the
  features and their correction `x - x`, the upper and lower rows of a weight matrix and their corrections. The host
  operations before each region prepare exactly those arrays from the launch contents (the first hop) and from the
  first hop's result (the second hop); so the first region leaves `hop 0` of the arguments in its result array and the
  second leaves `hop 1` of the first's result.
-/
import proofs.«138981_j12025908429033_2_alg».proof.Proof.KIAlg
import proofs.«138981_j12025908429033_2_alg».proof.Proof.KIFin0
import proofs.«138981_j12025908429033_2_alg».proof.Proof.KIFin1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Idealize.ShloMosaic.ValueIdx
open Cert.LibERealSums

/-- The first region leaves the first hop of the arguments in its result array. -/
theorem F0inst (m : (ℓ : Loc nD τ sig) → Buf (Elt Ideal) ℓ) (c : Dev nD) (hadj : ∀ i, IsFin (argAdj m c i))
    (hw : ∀ i, IsFin (argW m c i)) (hx : ∀ i, IsFin (argX m c i)) :
    (dat0 (E1 m) c).arrAt 7 cfg0.N = Cert.Spec.hop 0 (argAdj m c) (argW m c) (argX m c) :=
  final0 (E1 m) c 0 (argAdj m c) (argW m c) (argX m c) hadj hw hx (e1_adj m c) (e1_xh m c) (e1_xl m c) (e1_wth m c)
    (e1_wtl m c) (e1_wbh m c) (e1_wbl m c)

/-- The second region leaves the second hop of the first hop's result in its result array. -/
theorem F1inst (m : (ℓ : Loc nD τ sig) → Buf (Elt Ideal) ℓ) (c : Dev nD) (hadj : ∀ i, IsFin (argAdj m c i))
    (hw : ∀ i, IsFin (argW m c i)) (hx1 : ∀ i, IsFin (hop1Out m c i)) :
    (dat1 (E3 m) c).arrAt 7 cfg1.N = Cert.Spec.hop 1 (argAdj m c) (argW m c) (hop1Out m c) :=
  final1 (E3 m) c 1 (argAdj m c) (argW m c) (hop1Out m c) hadj hw hx1 (e3_adj m c) (e3_xh m c) (e3_xl m c) (e3_wth m c)
    (e3_wtl m c) (e3_wbh m c) (e3_wbl m c)

/-- THE VALUE CLAIM of the certificate. -/
theorem algebraic : Cert.algebraic_KernelIdeal_ReferenceIdeal := algebraic_of F0inst F1inst

end Cert.KernelIdeal.Fr

end
-- ==== Proof.lean ====
/-
  Two hops of   x ← tanh ([adj · x | x] · W h)   on a [16384, 64] array of features, with adj : [16384, 16384] and
  W : [2, 128, 64]: the kernel against the reference, both read over the extended reals.

  The kernel computes every matrix product in three passes over a 16-bit split of its operands: with the high part
  hi = v and the low part lo = v - hi, it adds  hi·hi + hi·lo + lo·hi.  Over the extended reals a change of format is
  the identity, so hi = v and lo = v - v; at a FINITE entry v - v = 0 (at an infinity it is not: ⊤ - ⊤ = ⊥) and
  0 · y = 0 for every y, so both correction passes vanish and the three passes are the product itself. The
  precondition says that every entry of the three arguments is finite (|v| < +∞, decoded entry by entry).
  For each tile of 2048 rows the kernel adds, over 16 steps, the three-pass product of a [2048, 1024] block of adj with
  the matching 1024 rows of x into a running total that starts at zero: after the last step the total is the tile's
  rows of adj · x, a sum over 16384 columns taken in 16 blocks of 1024. The last step then adds two dense three-pass
  products, the total against the upper 64 rows of W h and the tile's rows of x against the lower 64 — the row
  [adj · x | x] times W h, split into its two halves — and takes tanh.
  The second hop reads the first hop's result; a hyperbolic tangent is finite whatever its argument, so the second
  hop needs no further hypothesis. The reference's result is read off its generated run entry by entry: the same two
  sums inside tanh, twice. Each program's frame claim is its run: each region's three control cases (first step,
  middle steps, last step) are run with the running total carried in the invariant.
-/
import proofs.«138981_j12025908429033_2_alg».proof.Defs
import proofs.«138981_j12025908429033_2_alg».proof.Proof.KClaims
import proofs.«138981_j12025908429033_2_alg».proof.Proof.KIGlue
import proofs.«138981_j12025908429033_2_alg».proof.Proof.Gen.Kernel
import proofs.«138981_j12025908429033_2_alg».proof.Proof.Gen.KernelIdeal
import proofs.«138981_j12025908429033_2_alg».proof.Proof.Gen.ReferenceIdeal
import proofs.«138981_j12025908429033_2_alg».proof.Proof.Gen.Pre_finite_inputs

noncomputable section

namespace Cert.Proof

/-- Every claim of the certificate: the three frames, the four sanctioned rewrites, and the value claim. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Cert.KernelIdeal.Fr.algebraic_of Cert.KernelIdeal.Fr.F0inst Cert.KernelIdeal.Fr.F1inst⟩

end Cert.Proof

end
